-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S512x512 : Shape := ⟨2, ![512, 512]⟩
abbrev S3x512x512 : Shape := ⟨3, ![3, 512, 512]⟩
abbrev S3x3 : Shape := ⟨2, ![3, 3]⟩
abbrev S_ : Shape := ⟨0, ![]⟩
abbrev S176x512 : Shape := ⟨2, ![176, 512]⟩
abbrev S160x512 : Shape := ⟨2, ![160, 512]⟩
abbrev S1x1 : Shape := ⟨2, ![1, 1]⟩
abbrev S1x176x512 : Shape := ⟨3, ![1, 176, 512]⟩
abbrev S1x160x512 : Shape := ⟨3, ![1, 160, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S3x512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  { ofTc nBuf bufTy 1 20 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v25 : BitVec 32 := Scalar.xori v2 c1_i32_19
  let c1_i32_25 : BitVec 32 := 1#32
  let v26 : BitVec 32 := Scalar.muli v25 c1_i32_25
  let v27 : BitVec 32 := Scalar.addi c0_i32_26 v26
  v27.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v35 : BitVec 32 := Scalar.xori v2 c3_i32_31
  let c1_i32_37 : BitVec 32 := 1#32
  let v36 : BitVec 32 := Scalar.muli v35 c1_i32_37
  let v37 : BitVec 32 := Scalar.addi c0_i32_38 v36
  v37.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v45 : BitVec 32 := Scalar.xori v2 c4_i32_42
  let c1_i32_47 : BitVec 32 := 1#32
  let v46 : BitVec 32 := Scalar.muli v45 c1_i32_47
  let v47 : BitVec 32 := Scalar.addi c0_i32_48 v46
  v47.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v73 : BitVec 32 := Scalar.xori v2 c3_i32_80
  let c1_i32_86 : BitVec 32 := 1#32
  let v74 : BitVec 32 := Scalar.muli v73 c1_i32_86
  let v75 : BitVec 32 := Scalar.addi c0_i32_87 v74
  v75.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v101 : BitVec 32 := Scalar.xori v2 c4_i32_120
  let c1_i32_126 : BitVec 32 := 1#32
  let v102 : BitVec 32 := Scalar.muli v101 c1_i32_126
  let v103 : BitVec 32 := Scalar.addi c0_i32_127 v102
  v103.toNat
def k0_dev9 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_160 : BitVec 32 := 1#32
  let v129 : BitVec 32 := Scalar.xori v2 c1_i32_160
  let c1_i32_166 : BitVec 32 := 1#32
  let v130 : BitVec 32 := Scalar.muli v129 c1_i32_166
  let v131 : BitVec 32 := Scalar.addi c0_i32_167 v130
  v131.toNat
def k0_dev10 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v157 : BitVec 32 := Scalar.xori v2 c4_i32_199
  let c1_i32_205 : BitVec 32 := 1#32
  let v158 : BitVec 32 := Scalar.muli v157 c1_i32_205
  let v159 : BitVec 32 := Scalar.addi c0_i32_206 v158
  v159.toNat
def k0_dev11 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_239 : BitVec 32 := 1#32
  let v185 : BitVec 32 := Scalar.xori v2 c1_i32_239
  let c1_i32_245 : BitVec 32 := 1#32
  let v186 : BitVec 32 := Scalar.muli v185 c1_i32_245
  let v187 : BitVec 32 := Scalar.addi c0_i32_246 v186
  v187.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_279 : BitVec 32 := 3#32
  let v213 : BitVec 32 := Scalar.xori v2 c3_i32_279
  let c1_i32_285 : BitVec 32 := 1#32
  let v214 : BitVec 32 := Scalar.muli v213 c1_i32_285
  let v215 : BitVec 32 := Scalar.addi c0_i32_286 v214
  v215.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x512_S176x512_0_0 : ∀ a, (![0, 0] : Fin 2 → Nat) a + S176x512.size a ≤ S512x512.size a
  h_S176x512 : 0 < S176x512.numel
  shapeCasts_S176x512_S176x512 : S176x512.ShapeCasts S176x512
  bitsLt_bf16_f32 : FTy.bits .bf16 < FTy.bits .f32
  packedbf16_S512x512_S176x512_0_0 : (Rect.unit (s := S512x512) ![0, 0] S176x512.size inb_S512x512_S176x512_0_0).PackedRows (EltTy.packing .bf16)
  inb_S512x512_S176x512_176_0 : ∀ a, (![176, 0] : Fin 2 → Nat) a + S176x512.size a ≤ S512x512.size a
  packedbf16_S512x512_S176x512_176_0 : (Rect.unit (s := S512x512) ![176, 0] S176x512.size inb_S512x512_S176x512_176_0).PackedRows (EltTy.packing .bf16)
  inb_S512x512_S160x512_352_0 : ∀ a, (![352, 0] : Fin 2 → Nat) a + S160x512.size a ≤ S512x512.size a
  h_S160x512 : 0 < S160x512.numel
  shapeCasts_S160x512_S160x512 : S160x512.ShapeCasts S160x512
  packedbf16_S512x512_S160x512_352_0 : (Rect.unit (s := S512x512) ![352, 0] S160x512.size inb_S512x512_S160x512_352_0).PackedRows (EltTy.packing .bf16)
  hamt_3 : (3#32 : BitVec 32).msb = false
  inb_S3x3_S1x1_0_0 : ∀ a, (![0, 0] : Fin 2 → Nat) a + S1x1.size a ≤ S3x3.size a
  squeezes_S1x1_S_ : S1x1.Squeezes S_
  inb_S3x512x512_S1x176x512_0_0_0 : ∀ a, (![0, 0, 0] : Fin 3 → Nat) a + S1x176x512.size a ≤ S3x512x512.size a
  squeezes_S1x176x512_S176x512 : S1x176x512.Squeezes S176x512
  wordsbf16_S512x512_S176x512_0_0 : (Rect.unit (s := S512x512) ![0, 0] S176x512.size inb_S512x512_S176x512_0_0).WholeWords (EltTy.packing .bf16)
  wordsbf16_S3x512x512_S1x176x512_0_0_0 : (Rect.unit (s := S3x512x512) ![0, 0, 0] S1x176x512.size inb_S3x512x512_S1x176x512_0_0_0).WholeWords (EltTy.packing .bf16)
  inb_S3x3_S1x1_0_1 : ∀ a, (![0, 1] : Fin 2 → Nat) a + S1x1.size a ≤ S3x3.size a
  inb_S3x512x512_S1x176x512_0_176_0 : ∀ a, (![0, 176, 0] : Fin 3 → Nat) a + S1x176x512.size a ≤ S3x512x512.size a
  wordsbf16_S512x512_S176x512_176_0 : (Rect.unit (s := S512x512) ![176, 0] S176x512.size inb_S512x512_S176x512_176_0).WholeWords (EltTy.packing .bf16)
  wordsbf16_S3x512x512_S1x176x512_0_176_0 : (Rect.unit (s := S3x512x512) ![0, 176, 0] S1x176x512.size inb_S3x512x512_S1x176x512_0_176_0).WholeWords (EltTy.packing .bf16)
  inb_S3x3_S1x1_0_2 : ∀ a, (![0, 2] : Fin 2 → Nat) a + S1x1.size a ≤ S3x3.size a
  inb_S3x512x512_S1x160x512_0_352_0 : ∀ a, (![0, 352, 0] : Fin 3 → Nat) a + S1x160x512.size a ≤ S3x512x512.size a
  squeezes_S1x160x512_S160x512 : S1x160x512.Squeezes S160x512
  wordsbf16_S512x512_S160x512_352_0 : (Rect.unit (s := S512x512) ![352, 0] S160x512.size inb_S512x512_S160x512_352_0).WholeWords (EltTy.packing .bf16)
  wordsbf16_S3x512x512_S1x160x512_0_352_0 : (Rect.unit (s := S3x512x512) ![0, 352, 0] S1x160x512.size inb_S3x512x512_S1x160x512_0_352_0).WholeWords (EltTy.packing .bf16)
  h_S1x176x512 : 0 < S1x176x512.numel
  shapeCasts_S1x176x512_S176x512 : S1x176x512.ShapeCasts S176x512
  inb_S3x3_S1x1_1_0 : ∀ a, (![1, 0] : Fin 2 → Nat) a + S1x1.size a ≤ S3x3.size a
  inb_S3x512x512_S1x176x512_1_0_0 : ∀ a, (![1, 0, 0] : Fin 3 → Nat) a + S1x176x512.size a ≤ S3x512x512.size a
  wordsbf16_S3x512x512_S1x176x512_1_0_0 : (Rect.unit (s := S3x512x512) ![1, 0, 0] S1x176x512.size inb_S3x512x512_S1x176x512_1_0_0).WholeWords (EltTy.packing .bf16)
  inb_S3x3_S1x1_1_1 : ∀ a, (![1, 1] : Fin 2 → Nat) a + S1x1.size a ≤ S3x3.size a
  inb_S3x512x512_S1x176x512_1_176_0 : ∀ a, (![1, 176, 0] : Fin 3 → Nat) a + S1x176x512.size a ≤ S3x512x512.size a
  wordsbf16_S3x512x512_S1x176x512_1_176_0 : (Rect.unit (s := S3x512x512) ![1, 176, 0] S1x176x512.size inb_S3x512x512_S1x176x512_1_176_0).WholeWords (EltTy.packing .bf16)
  h_S1x160x512 : 0 < S1x160x512.numel
  shapeCasts_S1x160x512_S160x512 : S1x160x512.ShapeCasts S160x512
  inb_S3x3_S1x1_1_2 : ∀ a, (![1, 2] : Fin 2 → Nat) a + S1x1.size a ≤ S3x3.size a
  inb_S3x512x512_S1x160x512_1_352_0 : ∀ a, (![1, 352, 0] : Fin 3 → Nat) a + S1x160x512.size a ≤ S3x512x512.size a
  wordsbf16_S3x512x512_S1x160x512_1_352_0 : (Rect.unit (s := S3x512x512) ![1, 352, 0] S1x160x512.size inb_S3x512x512_S1x160x512_1_352_0).WholeWords (EltTy.packing .bf16)
  inb_S3x3_S1x1_2_0 : ∀ a, (![2, 0] : Fin 2 → Nat) a + S1x1.size a ≤ S3x3.size a
  inb_S3x512x512_S1x176x512_2_0_0 : ∀ a, (![2, 0, 0] : Fin 3 → Nat) a + S1x176x512.size a ≤ S3x512x512.size a
  wordsbf16_S3x512x512_S1x176x512_2_0_0 : (Rect.unit (s := S3x512x512) ![2, 0, 0] S1x176x512.size inb_S3x512x512_S1x176x512_2_0_0).WholeWords (EltTy.packing .bf16)
  inb_S3x3_S1x1_2_1 : ∀ a, (![2, 1] : Fin 2 → Nat) a + S1x1.size a ≤ S3x3.size a
  inb_S3x512x512_S1x176x512_2_176_0 : ∀ a, (![2, 176, 0] : Fin 3 → Nat) a + S1x176x512.size a ≤ S3x512x512.size a
  wordsbf16_S3x512x512_S1x176x512_2_176_0 : (Rect.unit (s := S3x512x512) ![2, 176, 0] S1x176x512.size inb_S3x512x512_S1x176x512_2_176_0).WholeWords (EltTy.packing .bf16)
  inb_S3x3_S1x1_2_2 : ∀ a, (![2, 2] : Fin 2 → Nat) a + S1x1.size a ≤ S3x3.size a
  inb_S3x512x512_S1x160x512_2_352_0 : ∀ a, (![2, 352, 0] : Fin 3 → Nat) a + S1x160x512.size a ≤ S3x512x512.size a
  wordsbf16_S3x512x512_S1x160x512_2_352_0 : (Rect.unit (s := S3x512x512) ![2, 352, 0] S1x160x512.size inb_S3x512x512_S1x160x512_2_352_0).WholeWords (EltTy.packing .bf16)
  hcc0_scratch1 : 2 + S3x3.numel ≤ 20
  hcc0_scratch2 : 11 + S3x3.numel ≤ 20
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  hstage0_0 : ∀ j, (stage0_0 j).IsWhole
  hstage0_1 : ∀ j, (stage0_1 j).IsWhole

variable [Facts₀]

abbrev cc0_scratch1 : DmaSems sig S3x3 := SemArray.consecutive 2 S3x3 hcc0_scratch1
abbrev cc0_scratch2 : DmaSems sig S3x3 := SemArray.consecutive 11 S3x3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x512 : Shape := ⟨2, ![4096, 512]⟩
abbrev S8x512x512 : Shape := ⟨3, ![8, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S4096x512_S8x512x512 : S4096x512.ShapeCasts S8x512x512
  reducesTo_S8x512x512_S512x512_d0 : S8x512x512.ReducesTo [0] S512x512
  h_S_ : 0 < S_.numel
  bitsLt_bf16_f32 : FTy.bits .bf16 < FTy.bits .f32

variable [Facts₀]

class Facts : Prop extends Facts₀ where

variable [Facts]
-- ==== Proof.Proto.lean ====
/-
  The protocol of the eight-device butterfly all-reduce.

  Every device holds a 512×512 block. The rows are cut in three parts (rows 0–175, 176–351, 352–511). Each part is
  summed over the eight devices in three exchange steps: at step s a device sends its running sum of the part to the
  device whose position differs from its own by the step's mask (1, 3 or 4, taken in a different cyclic order for each
  part), receives that device's running sum, and adds it. The three masks are linearly independent over GF(2), so
  after three steps every part holds the sum over all eight devices.

  This module fixes the vocabulary: the partner map, the semaphore cells (one barrier cell, nine send and nine receive
  cells per device; transfer number n = 3·step + part), the row regions of the result buffer and of the landing
  buffer, and the contents each region holds at each step, as terms over the argument blocks.
-/
import proofs.«900389_g7700000000000390_dist_rs_then_ag_i_m512_n512_v7x_i8_bf16_1_alg».proof.Proof.Gen.KernelIdeal
import proofs.«900389_g7700000000000390_dist_rs_then_ag_i_m512_n512_v7x_i8_bf16_1_alg».proof.Proof.Gen.KernelIdeal.Skeleton
import proofs.«900389_g7700000000000390_dist_rs_then_ag_i_m512_n512_v7x_i8_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds of the exchange (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The three masks. -/
abbrev msk : Fin 3 → ℕ := ![1, 3, 4]

/-- The device whose position differs from `c`'s by mask `k`. -/
def peer (c : Dev nD) (k : Fin 3) : Dev nD := ⟨(c.val ^^^ msk k) % 8, Nat.mod_lt _ (by decide)⟩

theorem peer_peer (c : Dev nD) (k : Fin 3) : peer (peer c k) k = c := by revert c k; decide

/-- The mask of transfer `n = 3·step + part`: mask number `(part + step) mod 3`. -/
def kOf (n : Fin 9) : Fin 3 := ⟨(n.val % 3 + n.val / 3) % 3, Nat.mod_lt _ (by decide)⟩

/-- The three transfers that use mask `k`, one per step `j`. -/
def nOf (k j : Fin 3) : Fin 9 := ⟨3 * j.val + (k.val + 2 * j.val) % 3, by have := j.isLt; omega⟩

theorem kOf_nOf (k j : Fin 3) : kOf (nOf k j) = k := by revert k j; decide

def peerEquiv (k : Fin 3) : Dev nD ≃ Dev nD := ⟨fun c => peer c k, fun c => peer c k, fun c => peer_peer c k, fun c => peer_peer c k⟩

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel

/-! ## Memrefs, rectangles, regions -/

abbrev xM : Memref sig .tc .vmem S512x512 .f32 := Memref.whole cc0_stg0_0
abbrev oM : Memref sig .tc .vmem S512x512 .bf16 := Memref.whole cc0_stg1_0
abbrev rM : Memref sig .tc .vmem S3x512x512 .bf16 := Memref.whole cc0_scratch0

abbrev oR0 : Rect S512x512 := Rect.unit (s := S512x512) ![0, 0] S176x512.size inb_S512x512_S176x512_0_0
abbrev oR1 : Rect S512x512 := Rect.unit (s := S512x512) ![176, 0] S176x512.size inb_S512x512_S176x512_176_0
abbrev oR2 : Rect S512x512 := Rect.unit (s := S512x512) ![352, 0] S160x512.size inb_S512x512_S160x512_352_0
abbrev rR0 : Rect S3x512x512 := Rect.unit (s := S3x512x512) ![0, 0, 0] S1x176x512.size inb_S3x512x512_S1x176x512_0_0_0
abbrev rR1 : Rect S3x512x512 := Rect.unit (s := S3x512x512) ![0, 176, 0] S1x176x512.size inb_S3x512x512_S1x176x512_0_176_0
abbrev rR2 : Rect S3x512x512 := Rect.unit (s := S3x512x512) ![0, 352, 0] S1x160x512.size inb_S3x512x512_S1x160x512_0_352_0
abbrev rR3 : Rect S3x512x512 := Rect.unit (s := S3x512x512) ![1, 0, 0] S1x176x512.size inb_S3x512x512_S1x176x512_1_0_0
abbrev rR4 : Rect S3x512x512 := Rect.unit (s := S3x512x512) ![1, 176, 0] S1x176x512.size inb_S3x512x512_S1x176x512_1_176_0
abbrev rR5 : Rect S3x512x512 := Rect.unit (s := S3x512x512) ![1, 352, 0] S1x160x512.size inb_S3x512x512_S1x160x512_1_352_0
abbrev rR6 : Rect S3x512x512 := Rect.unit (s := S3x512x512) ![2, 0, 0] S1x176x512.size inb_S3x512x512_S1x176x512_2_0_0
abbrev rR7 : Rect S3x512x512 := Rect.unit (s := S3x512x512) ![2, 176, 0] S1x176x512.size inb_S3x512x512_S1x176x512_2_176_0
abbrev rR8 : Rect S3x512x512 := Rect.unit (s := S3x512x512) ![2, 352, 0] S1x160x512.size inb_S3x512x512_S1x160x512_2_352_0

/-- The semaphores: the runtime's barrier semaphore; send and receive semaphore of transfer `n`. -/
abbrev barS : Sem sig := (SemArray.scalar (sig.barrier 0 rfl) : Sems sig S_).sem
abbrev sndS (n : Fin 9) : DmaSem sig := ⟨2 + n.val, by have := n.isLt; show _ < 20; omega⟩
abbrev rcvS (n : Fin 9) : DmaSem sig := ⟨11 + n.val, by have := n.isLt; show _ < 20; omega⟩

abbrev barCell (c : Dev nD) : GSem nD τ sig := ((c : Thread nD τ), .reg barS)
abbrev sendCell (c : Dev nD) (n : Fin 9) : GSem nD τ sig := ((c : Thread nD τ), .dma (sndS n))
abbrev recvCell (c : Dev nD) (n : Fin 9) : GSem nD τ sig := ((c : Thread nD τ), .dma (rcvS n))

/-- A device's nineteen cells: the barrier, the nine send cells, the nine receive cells. -/
def csem (k : Fin 19) : SemLoc sig :=
  if h : k.val = 0 then .reg barS
  else if h9 : k.val < 10 then .dma (sndS ⟨k.val - 1, by omega⟩)
  else .dma (rcvS ⟨k.val - 10, by have := k.isLt; omega⟩)
abbrev kcell (ck : Dev nD × Fin 19) : GSem nD τ sig := ((ck.1 : Thread nD τ), csem ck.2)
def kSnd (n : Fin 9) : Fin 19 := ⟨1 + n.val, by have := n.isLt; omega⟩
def kRcv (n : Fin 9) : Fin 19 := ⟨10 + n.val, by have := n.isLt; omega⟩
theorem kcell_bar (c : Dev nD) : kcell (c, 0) = barCell c := rfl
theorem csem_snd (n : Fin 9) : csem (kSnd n) = .dma (sndS n) := by revert n; decide
theorem csem_rcv (n : Fin 9) : csem (kRcv n) = .dma (rcvS n) := by revert n; decide
theorem kcell_snd (c : Dev nD) (n : Fin 9) : kcell (c, kSnd n) = sendCell c n := by show ((c : Thread nD τ), csem (kSnd n)) = _; rw [csem_snd]
theorem kcell_rcv (c : Dev nD) (n : Fin 9) : kcell (c, kRcv n) = recvCell c n := by show ((c : Thread nD τ), csem (kRcv n)) = _; rw [csem_rcv]

/-- The kernel's own (scoped) semaphores, as the launch indexes them. -/
def osem (j : Fin 18) : SemLoc sig := csem ⟨j.val + 1, by have := j.isLt; omega⟩

/-- The credit of a transfer of part `p`'s rows. -/
abbrev NA : ℕ := (oM.access oR0 : View sig .tc .vmem _ .bf16).dmaCredit
abbrev NB : ℕ := (oM.access oR2 : View sig .tc .vmem _ .bf16).dmaCredit
def Nn (n : Fin 9) : ℕ := if n.val % 3 = 2 then NB else NA
theorem NA_pos : 0 < NA := View.dmaCredit_pos _ (by decide)
theorem NB_pos : 0 < NB := View.dmaCredit_pos _ (by decide)
theorem Nn_pos (n : Fin 9) : 0 < Nn n := by unfold Nn; split; exact NB_pos; exact NA_pos

/-! ## Contents -/

/-- Device `c`'s block of the argument, as staged. -/
def xstg (c : Dev nD) : (cc0_stg0_0 : Ref sig .tc).ty.Contents (Elt F) :=
  (win0_0.blk (0 : Fin 1)).view.read (Elt F) (m ((c : Thread nD τ).loc main_arg0))

/-- Fixed contents for the elements a region does not own. -/
def Zo : (cc0_stg1_0 : Ref sig .tc).ty.Contents (Elt F) := fun _ => Classical.arbitrary _
def Zr : (cc0_scratch0 : Ref sig .tc).ty.Contents (Elt F) := fun _ => Classical.arbitrary _

/-- The view a transfer of part `p` reads (rows of the result buffer) and the view transfer `n` writes. -/
abbrev oV0 : View sig .tc .vmem S176x512 .bf16 := oM.access oR0
abbrev oV1 : View sig .tc .vmem S176x512 .bf16 := oM.access oR1
abbrev oV2 : View sig .tc .vmem S160x512 .bf16 := oM.access oR2
abbrev xV0 : View sig .tc .vmem S176x512 .f32 := xM.access oR0
abbrev xV1 : View sig .tc .vmem S176x512 .f32 := xM.access oR1
abbrev xV2 : View sig .tc .vmem S160x512 .f32 := xM.access oR2
abbrev rA0 : View sig .tc .vmem S1x176x512 .bf16 := rM.access rR0
abbrev rV0 : View sig .tc .vmem S176x512 .bf16 := ((rM.slice rR0 (fun _ => rfl)).squeeze S176x512 squeezes_S1x176x512_S176x512).view
abbrev rA1 : View sig .tc .vmem S1x176x512 .bf16 := rM.access rR1
abbrev rV1 : View sig .tc .vmem S176x512 .bf16 := ((rM.slice rR1 (fun _ => rfl)).squeeze S176x512 squeezes_S1x176x512_S176x512).view
abbrev rA2 : View sig .tc .vmem S1x160x512 .bf16 := rM.access rR2
abbrev rV2 : View sig .tc .vmem S160x512 .bf16 := ((rM.slice rR2 (fun _ => rfl)).squeeze S160x512 squeezes_S1x160x512_S160x512).view
abbrev rA3 : View sig .tc .vmem S1x176x512 .bf16 := rM.access rR3
abbrev rV3 : View sig .tc .vmem S176x512 .bf16 := ((rM.slice rR3 (fun _ => rfl)).squeeze S176x512 squeezes_S1x176x512_S176x512).view
abbrev rA4 : View sig .tc .vmem S1x176x512 .bf16 := rM.access rR4
abbrev rV4 : View sig .tc .vmem S176x512 .bf16 := ((rM.slice rR4 (fun _ => rfl)).squeeze S176x512 squeezes_S1x176x512_S176x512).view
abbrev rA5 : View sig .tc .vmem S1x160x512 .bf16 := rM.access rR5
abbrev rV5 : View sig .tc .vmem S160x512 .bf16 := ((rM.slice rR5 (fun _ => rfl)).squeeze S160x512 squeezes_S1x160x512_S160x512).view
abbrev rA6 : View sig .tc .vmem S1x176x512 .bf16 := rM.access rR6
abbrev rV6 : View sig .tc .vmem S176x512 .bf16 := ((rM.slice rR6 (fun _ => rfl)).squeeze S176x512 squeezes_S1x176x512_S176x512).view
abbrev rA7 : View sig .tc .vmem S1x176x512 .bf16 := rM.access rR7
abbrev rV7 : View sig .tc .vmem S176x512 .bf16 := ((rM.slice rR7 (fun _ => rfl)).squeeze S176x512 squeezes_S1x176x512_S176x512).view
abbrev rA8 : View sig .tc .vmem S1x160x512 .bf16 := rM.access rR8
abbrev rV8 : View sig .tc .vmem S160x512 .bf16 := ((rM.slice rR8 (fun _ => rfl)).squeeze S160x512 squeezes_S1x160x512_S160x512).view

/-- The rows of part `p` in the 512×512 buffers: the elements under the view of part `p`. -/
def oSet : Fin 3 → Finset S512x512.Idx
  | 0 => oV0.set | 1 => oV1.set | 2 => oV2.set
/-- The landing region of transfer `n` (slot = step, rows = part) in the 3×512×512 landing buffer. -/
def rSet : Fin 9 → Finset S3x512x512.Idx
  | 0 => rV0.set
  | 1 => rV1.set
  | 2 => rV2.set
  | 3 => rV3.set
  | 4 => rV4.set
  | 5 => rV5.set
  | 6 => rV6.set
  | 7 => rV7.set
  | 8 => rV8.set

/-- What part `p` of device `c`'s result buffer holds after `s` additions (`oB<p><s>`), and what slot `s` of its landing
    buffer holds once transfer `n` has landed (`rB<n>`): the partner's running sum. -/
def oB00 (c : Dev nD) : (cc0_stg1_0 : Ref sig .tc).ty.Contents (Elt F) := oV0.write (Elt F) Zo (k0_pay1 (xV0.read (Elt F) (xstg m c))) Finset.univ
def oB10 (c : Dev nD) : (cc0_stg1_0 : Ref sig .tc).ty.Contents (Elt F) := oV1.write (Elt F) Zo (k0_pay2 (xV1.read (Elt F) (xstg m c))) Finset.univ
def oB20 (c : Dev nD) : (cc0_stg1_0 : Ref sig .tc).ty.Contents (Elt F) := oV2.write (Elt F) Zo (k0_pay3 (xV2.read (Elt F) (xstg m c))) Finset.univ
def rB0 (c : Dev nD) : (cc0_scratch0 : Ref sig .tc).ty.Contents (Elt F) := rV0.write (Elt F) Zr (oV0.read (Elt F) (oB00 m (peer c 0))) Finset.univ
def rB1 (c : Dev nD) : (cc0_scratch0 : Ref sig .tc).ty.Contents (Elt F) := rV1.write (Elt F) Zr (oV1.read (Elt F) (oB10 m (peer c 1))) Finset.univ
def rB2 (c : Dev nD) : (cc0_scratch0 : Ref sig .tc).ty.Contents (Elt F) := rV2.write (Elt F) Zr (oV2.read (Elt F) (oB20 m (peer c 2))) Finset.univ
def oB01 (c : Dev nD) : (cc0_stg1_0 : Ref sig .tc).ty.Contents (Elt F) := oV0.write (Elt F) Zo (k0_pay4 (oV0.read (Elt F) (oB00 m c)) (rA0.read (Elt F) (rB0 m c))) Finset.univ
def oB11 (c : Dev nD) : (cc0_stg1_0 : Ref sig .tc).ty.Contents (Elt F) := oV1.write (Elt F) Zo (k0_pay5 (oV1.read (Elt F) (oB10 m c)) (rA1.read (Elt F) (rB1 m c))) Finset.univ
def oB21 (c : Dev nD) : (cc0_stg1_0 : Ref sig .tc).ty.Contents (Elt F) := oV2.write (Elt F) Zo (k0_pay6 (oV2.read (Elt F) (oB20 m c)) (rA2.read (Elt F) (rB2 m c))) Finset.univ
def rB3 (c : Dev nD) : (cc0_scratch0 : Ref sig .tc).ty.Contents (Elt F) := rV3.write (Elt F) Zr (oV0.read (Elt F) (oB01 m (peer c 1))) Finset.univ
def rB4 (c : Dev nD) : (cc0_scratch0 : Ref sig .tc).ty.Contents (Elt F) := rV4.write (Elt F) Zr (oV1.read (Elt F) (oB11 m (peer c 2))) Finset.univ
def rB5 (c : Dev nD) : (cc0_scratch0 : Ref sig .tc).ty.Contents (Elt F) := rV5.write (Elt F) Zr (oV2.read (Elt F) (oB21 m (peer c 0))) Finset.univ
def oB02 (c : Dev nD) : (cc0_stg1_0 : Ref sig .tc).ty.Contents (Elt F) := oV0.write (Elt F) Zo (k0_pay7 (oV0.read (Elt F) (oB01 m c)) (rA3.read (Elt F) (rB3 m c))) Finset.univ
def oB12 (c : Dev nD) : (cc0_stg1_0 : Ref sig .tc).ty.Contents (Elt F) := oV1.write (Elt F) Zo (k0_pay8 (oV1.read (Elt F) (oB11 m c)) (rA4.read (Elt F) (rB4 m c))) Finset.univ
def oB22 (c : Dev nD) : (cc0_stg1_0 : Ref sig .tc).ty.Contents (Elt F) := oV2.write (Elt F) Zo (k0_pay9 (oV2.read (Elt F) (oB21 m c)) (rA5.read (Elt F) (rB5 m c))) Finset.univ
def rB6 (c : Dev nD) : (cc0_scratch0 : Ref sig .tc).ty.Contents (Elt F) := rV6.write (Elt F) Zr (oV0.read (Elt F) (oB02 m (peer c 2))) Finset.univ
def rB7 (c : Dev nD) : (cc0_scratch0 : Ref sig .tc).ty.Contents (Elt F) := rV7.write (Elt F) Zr (oV1.read (Elt F) (oB12 m (peer c 0))) Finset.univ
def rB8 (c : Dev nD) : (cc0_scratch0 : Ref sig .tc).ty.Contents (Elt F) := rV8.write (Elt F) Zr (oV2.read (Elt F) (oB22 m (peer c 1))) Finset.univ
def oB03 (c : Dev nD) : (cc0_stg1_0 : Ref sig .tc).ty.Contents (Elt F) := oV0.write (Elt F) Zo (k0_pay10 (oV0.read (Elt F) (oB02 m c)) (rA6.read (Elt F) (rB6 m c))) Finset.univ
def oB13 (c : Dev nD) : (cc0_stg1_0 : Ref sig .tc).ty.Contents (Elt F) := oV1.write (Elt F) Zo (k0_pay11 (oV1.read (Elt F) (oB12 m c)) (rA7.read (Elt F) (rB7 m c))) Finset.univ
def oB23 (c : Dev nD) : (cc0_stg1_0 : Ref sig .tc).ty.Contents (Elt F) := oV2.write (Elt F) Zo (k0_pay12 (oV2.read (Elt F) (oB22 m c)) (rA8.read (Elt F) (rB8 m c))) Finset.univ

/-- The result buffer at the end: the three parts put together. -/
def outFinal (c : Dev nD) : (cc0_stg1_0 : Ref sig .tc).ty.Contents (Elt F) :=
  (oSet 2).piecewise (oB23 m c) ((oSet 1).piecewise (oB13 m c) (oB03 m c))

/-- Contents of the source of transfer `n` and of its landing region, by number. -/
def oBn : Fin 9 → Dev nD → (cc0_stg1_0 : Ref sig .tc).ty.Contents (Elt F)
  | 0 => oB00 m
  | 1 => oB10 m
  | 2 => oB20 m
  | 3 => oB01 m
  | 4 => oB11 m
  | 5 => oB21 m
  | 6 => oB02 m
  | 7 => oB12 m
  | 8 => oB22 m
def rBn : Fin 9 → Dev nD → (cc0_scratch0 : Ref sig .tc).ty.Contents (Elt F)
  | 0 => rB0 m
  | 1 => rB1 m
  | 2 => rB2 m
  | 3 => rB3 m
  | 4 => rB4 m
  | 5 => rB5 m
  | 6 => rB6 m
  | 7 => rB7 m
  | 8 => rB8 m
def pOf (n : Fin 9) : Fin 3 := ⟨n.val % 3, Nat.mod_lt _ (by decide)⟩

/-! ## Points-to assertions over regions -/

def scrR (c : Dev nD) (n : Fin 9) (f : (cc0_scratch0 : Ref sig .tc).ty.Contents (Elt F)) : sProp 𝕄 :=
  ((c : Thread nD τ).loc cc0_scratch0) ↦[rSet n]{fullShare} f
def outR (c : Dev nD) (p : Fin 3) (f : (cc0_stg1_0 : Ref sig .tc).ty.Contents (Elt F)) : sProp 𝕄 :=
  ((c : Thread nD τ).loc cc0_stg1_0) ↦[oSet p]{fullShare} f

omit [FloatOps F] in
instance scrR_storable (c : Dev nD) (n) (f) : BI.Storable (upEmb : UEmb _ 𝕄) (scrR (F := F) c n f) := by unfold scrR; infer_instance
omit [FloatOps F] in
instance outR_storable (c : Dev nD) (p) (f) : BI.Storable (upEmb : UEmb _ 𝕄) (outR (F := F) c p f) := by unfold outR; infer_instance

end Cert.KernelIdeal.Hand

end
-- ==== Proof.Sched.lean ====
/-
  The schedule of the exchange under the rounds discipline, what every device owes at launch, the levels that order the
  waits, and the proof data of the region.

  Cells. A device's barrier cell has one round of three duties, duty k paid by the partner under mask k with one unit;
  with it the partner hands over the three landing regions of ITS landing buffer that this device will fill (the
  transfers whose mask is k), and that its receive cells for them stand at round 0. The receive cell of transfer n has
  one duty, paid by the partner's transfer with the region's credit; it hands over the landing region holding the
  partner's running sum. The send cell of transfer n has one duty, paid by the device's own engine; it hands back the
  rows of the result buffer the transfer read.

  Order. A device waits on its barrier while it owes all nine transfers; on the cells of transfer n while it owes the
  transfers n+3 … 8. With the barrier at level 1, the receive cell of transfer n at level 2+n and every other cell at
  level 0, each wait is below everything the waiter still owes.
-/
import proofs.«900389_g7700000000000390_dist_rs_then_ag_i_m512_n512_v7x_i8_bf16_1_alg».proof.Proof.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- One landing region of device `q`, at some contents, and that `q`'s receive cell for it stands at round 0. -/
def landing (q : Dev nD) (n : Fin 9) : sProp 𝕄 := iprop((∃ f, scrR q n f) ∗ reached ER (recvCell q n) 0)

/-- What the partner under mask `k` hands device `c` with its barrier signal. -/
def barPay (c : Dev nD) (k : Fin 3) : sProp 𝕄 :=
  iprop(landing (peer c k) (nOf k 0) ∗ landing (peer c k) (nOf k 1) ∗ landing (peer c k) (nOf k 2))
def recvPay (c : Dev nD) (n : Fin 9) : sProp 𝕄 := scrR c n (rBn m n c)
def sendPay (c : Dev nD) (n : Fin 9) : sProp 𝕄 := outR c (pOf n) (oBn m n c)

instance landing_storable (q : Dev nD) (n : Fin 9) : BI.Storable (upEmb : UEmb _ 𝕄) (landing (F := F) q n) := by unfold landing; infer_instance
instance barPay_storable (c : Dev nD) (k : Fin 3) : BI.Storable (upEmb : UEmb _ 𝕄) (barPay (F := F) c k) := by unfold barPay; infer_instance
instance recvPay_storable (c : Dev nD) (n : Fin 9) : BI.Storable (upEmb : UEmb _ 𝕄) (recvPay (F := F) m c n) := by unfold recvPay; infer_instance
instance sendPay_storable (c : Dev nD) (n : Fin 9) : BI.Storable (upEmb : UEmb _ 𝕄) (sendPay (F := F) m c n) := by unfold sendPay; infer_instance

/-! ## The schedule -/

def dmaPay (c : Dev nD) (q : DmaSem sig) : sProp 𝕄 :=
  if h : 11 ≤ q.val then recvPay m c ⟨q.val - 11, by have : q.val < 20 := q.isLt; omega⟩
  else if h2 : 2 ≤ q.val then sendPay m c ⟨q.val - 2, by omega⟩ else iprop(emp)

instance dmaPay_storable (c : Dev nD) (q : DmaSem sig) : BI.Storable (upEmb : UEmb _ 𝕄) (dmaPay (F := F) m c q) := by
  unfold dmaPay; split
  · infer_instance
  · split <;> infer_instance

def Rd : Rounds.Schedule (GSem nD τ sig) (Fin 3) 𝕄 where
  duties g r := if r = 0 then (match g.2 with | .reg _ => Finset.univ | .dma q => if 2 ≤ q.val then {0} else ∅) else ∅
  unitless _ := False
  amount g _ _ := match g.2 with | .reg _ => 1 | .dma q => if q.val % 3 = 1 then NB else NA
  payload g _ d := match g.2 with | .reg _ => barPay g.1.1 d | .dma q => dmaPay m g.1.1 q
  amount_pos g _ _ _ := by
    rcases g with ⟨t, (s | q)⟩
    · exact Nat.one_pos
    · show 0 < (if q.val % 3 = 1 then NB else NA); split; exact NB_pos; exact NA_pos

instance Rd_payload_storable (g : GSem nD τ sig) (r : ℕ) (d : Fin 3) :
    BI.Storable (upEmb : UEmb _ 𝕄) ((Rd (F := F) m).payload g r d) := by
  rcases g with ⟨t, (s | q)⟩
  · show BI.Storable upEmb (barPay t.1 d); infer_instance
  · show BI.Storable upEmb (dmaPay m t.1 q); infer_instance

section Sched
variable (c : Dev nD) (n : Fin 9)

theorem duties_bar : (Rd (F := F) m).duties (barCell c) 0 = Finset.univ := rfl
theorem duties_snd : (Rd (F := F) m).duties (sendCell c n) 0 = {0} := by
  show (if (0 : ℕ) = 0 then (if 2 ≤ 2 + n.val then ({0} : Finset (Fin 3)) else ∅) else ∅) = _
  rw [if_pos rfl, if_pos (by omega)]
theorem duties_rcv : (Rd (F := F) m).duties (recvCell c n) 0 = {0} := by
  show (if (0 : ℕ) = 0 then (if 2 ≤ 11 + n.val then ({0} : Finset (Fin 3)) else ∅) else ∅) = _
  rw [if_pos rfl, if_pos (by omega)]
theorem duties_later (g : GSem nD τ sig) : ∀ r, 1 ≤ r → (Rd (F := F) m).duties g r = ∅ :=
  fun r hr => by show (if r = 0 then _ else ∅) = _; rw [if_neg (by omega)]

theorem amount_bar (d : Fin 3) : (Rd (F := F) m).amount (barCell c) 0 d = 1 := rfl
theorem amount_snd (d : Fin 3) : (Rd (F := F) m).amount (sendCell c n) 0 d = Nn n := by
  show (if (2 + n.val) % 3 = 1 then NB else NA) = if n.val % 3 = 2 then NB else NA
  by_cases h : n.val % 3 = 2
  · rw [if_pos h, if_pos (by omega)]
  · rw [if_neg h, if_neg (by omega)]
theorem amount_rcv (d : Fin 3) : (Rd (F := F) m).amount (recvCell c n) 0 d = Nn n := by
  show (if (11 + n.val) % 3 = 1 then NB else NA) = if n.val % 3 = 2 then NB else NA
  by_cases h : n.val % 3 = 2
  · rw [if_pos h, if_pos (by omega)]
  · rw [if_neg h, if_neg (by omega)]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sendCell c n) 0 = Nn n := by
  unfold Schedule.expect Schedule.amountOf; rw [duties_snd, Finset.sum_singleton, amount_snd]
theorem expect_rcv : (Rd (F := F) m).expect (recvCell c n) 0 = Nn n := by
  unfold Schedule.expect Schedule.amountOf; rw [duties_rcv, Finset.sum_singleton, amount_rcv]

theorem payload_bar (k : Fin 3) : (Rd (F := F) m).payload (barCell c) 0 k = barPay c k := rfl
theorem payload_snd (d : Fin 3) : (Rd (F := F) m).payload (sendCell c n) 0 d = sendPay m c n := by
  show dmaPay m c (sndS n) = _
  unfold dmaPay
  rw [dif_neg (by show ¬ 11 ≤ 2 + n.val; omega), dif_pos (by show 2 ≤ 2 + n.val; omega)]
  congr 1; exact Fin.ext (by show 2 + n.val - 2 = n.val; omega)
theorem payload_rcv (d : Fin 3) : (Rd (F := F) m).payload (recvCell c n) 0 d = recvPay m c n := by
  show dmaPay m c (rcvS n) = _
  unfold dmaPay
  rw [dif_pos (by show 11 ≤ 11 + n.val; omega)]
  congr 1; exact Fin.ext (by show 11 + n.val - 11 = n.val; omega)

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three partners' payloads. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_fin3]; rfl
theorem rest_snd : bigSep ((Rd (F := F) m).duties (sendCell c n) 0 \ ∅) (fun d => (Rd (F := F) m).payload (sendCell c n) 0 d) = sendPay m c n := by
  rw [Finset.sdiff_empty, duties_snd, bigSep_singleton, payload_snd]
theorem rest_rcv : bigSep ((Rd (F := F) m).duties (recvCell c n) 0 \ ∅) (fun d => (Rd (F := F) m).payload (recvCell c n) 0 d) = recvPay m c n := by
  rw [Finset.sdiff_empty, duties_rcv, bigSep_singleton, payload_rcv]

end Sched

/-! ## What each device owes at launch; the levels -/

/-- The credit device `c` owes its partner's receive cell for transfer `n`; the unit it owes the barrier of its partner under mask `k`. -/
def Tn (c : Dev nD) (n : Fin 9) : CellTallies nD τ sig Unit := tallyAt (recvCell (peer c (kOf n)) n) () (Nn n)
def Bk (c : Dev nD) (k : Fin 3) : CellTallies nD τ sig Unit := tallyAt (barCell (peer c k)) () 1

/-- The transfers from number `j` on. -/
def Osend (c : Dev nD) (j : ℕ) : CellTallies nD τ sig Unit := ∑ n ∈ Finset.univ.filter (fun n : Fin 9 => j ≤ n.val), Tn c n

theorem Osend_succ (c : Dev nD) (n : Fin 9) : Osend c n.val = Osend c (n.val + 1) + Tn c n := by
  unfold Osend
  rw [show Finset.univ.filter (fun k : Fin 9 => n.val ≤ k.val) = insert n (Finset.univ.filter (fun k : Fin 9 => n.val + 1 ≤ k.val)) from by
    ext k; simp only [Finset.mem_filter, Finset.mem_univ, true_and, Finset.mem_insert, Fin.ext_iff]; omega]
  rw [Finset.sum_insert (by simp only [Finset.mem_filter, Finset.mem_univ, true_and]; omega), add_comm]

theorem Osend_nine (c : Dev nD) : Osend c 9 = 0 := by
  unfold Osend
  rw [show Finset.univ.filter (fun k : Fin 9 => 9 ≤ k.val) = ∅ from by
    ext k; simp only [Finset.mem_filter, Finset.mem_univ, true_and, Finset.notMem_empty, iff_false]; have := k.isLt; omega]
  rfl

/-- Everything device `c` owes at launch: the nine transfers and the three barrier signals, summed so that the signals
    peel off in program order. -/
def O₀ (c : Dev nD) : CellTallies nD τ sig Unit := Osend c 0 + Bk c 2 + Bk c 1 + Bk c 0

def L (g : GSem nD τ sig) : Finset Unit := if g.1.2 = .tc then {()} else ∅
/-- The barrier at level 1, the receive cell of transfer `n` at level `2 + n`, every other cell at level 0. -/
def lv (g : GSem nD τ sig) (_ : Unit) : ℕ := match g.2 with | .reg _ => 1 | .dma q => if 11 ≤ q.val then q.val - 9 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (n : Fin 9) : lv (recvCell c n) () = 2 + n.val := by
  show (if 11 ≤ 11 + n.val then 11 + n.val - 9 else 0) = _; rw [if_pos (by omega)]; omega
theorem lv_snd (c : Dev nD) (n : Fin 9) : lv (sendCell c n) () = 0 := by
  show (if 11 ≤ 2 + n.val then 2 + n.val - 9 else 0) = _; rw [if_neg (by have := n.isLt; omega)]
theorem lv_bar (c : Dev nD) : lv (barCell c) () = 1 := rfl

theorem Osend_pos {c : Dev nD} {j : ℕ} {g : GSem nD τ sig} {u : Unit} (h : 0 < Osend c j g u) :
    ∃ n : Fin 9, j ≤ n.val ∧ g = recvCell (peer c (kOf n)) n := by
  unfold Osend at h
  obtain ⟨n, hn, hp⟩ := Pipeline.sum_pos_exists h
  exact ⟨n, (Finset.mem_filter.mp hn).2, (Pipeline.tallyAt_pos hp).1⟩

/-- A wait on a cell of level at most `1 + j` while the device owes the transfers from `j` on. -/
theorem mayWait_Osend (c : Dev nD) (sm : SemLoc sig) (j : ℕ) (hl : lv ((c : Thread nD τ), sm) () < 2 + j) :
    (levAts L lv : sProp 𝕄) ⊢ MayWait (c : Thread nD τ) sm () (Osend c j) :=
  Pipeline.mayWait_of_levAts (by rw [L_tc]; exact Finset.mem_singleton_self _) fun g u hg => by
    obtain ⟨n, hn, rfl⟩ := Osend_pos hg
    refine ⟨by rw [L_tc]; exact Finset.mem_singleton_self _, ?_⟩
    cases u; rw [lv_rcv]; omega

end Cert.KernelIdeal.Hand

end
-- ==== Proof.Data.lean ====
/-
  The ghost state a device's body starts from and the proof data of the region.

  Every cell's invariant and the fact that round 0 of every cell is reached are persistent and shared by all devices.
  What a device holds alone: its positions at round 0 of its own nineteen cells; the tokens of the duties IT pays (its
  three partners' barrier duties, its nine partners' receive duties, its own nine send duties); the credit tokens for
  the units others owe its cells (three on its barrier, one transfer's credit on each receive cell); and its landing
  buffer. After the body: the landing buffer again, and its eighteen scoped cells closed at zero.
-/
import proofs.«900389_g7700000000000390_dist_rs_then_ag_i_m512_n512_v7x_i8_bf16_1_alg».proof.Proof.Sched

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Shared by all devices: every cell's invariant under the names `K`, and round 0 of every cell reached. -/
def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) :
    (records m K : sProp 𝕄) ⊢ cellInv ER (Rd m) (K ck) (kcell ck) := by
  have h : (bigSep Finset.univ fun ck : Dev nD × Fin 19 => (cellInv ER (Rd m) (K ck) (kcell ck) : sProp 𝕄)) ⊢ cellInv ER (Rd m) (K ck) (kcell ck) :=
    bigSep_elim (Finset.mem_univ ck)
  unfold records; iintro ⟨H, -⟩; iapply h; iexact H
theorem reached_at (K : Dev nD × Fin 19 → ℕ) (ck : Dev nD × Fin 19) :
    (records m K : sProp 𝕄) ⊢ reached ER (kcell ck) 0 := by
  have h : (bigSep Finset.univ fun ck : Dev nD × Fin 19 => (reached ER (kcell ck) 0 : sProp 𝕄)) ⊢ reached ER (kcell ck) 0 :=
    bigSep_elim (Finset.mem_univ ck)
  unfold records; iintro ⟨-, H⟩; iapply h; iexact H

/-- The tokens of the duties device `c` pays. -/
def payToks (c : Dev nD) : sProp 𝕄 :=
  iprop((bigSep Finset.univ fun k : Fin 3 => dutyTok ER (barCell (peer c k)) 0 k)
    ∗ (bigSep Finset.univ fun n : Fin 9 => dutyTok ER (recvCell (peer c (kOf n)) n) 0 (0 : Fin 3))
    ∗ (bigSep Finset.univ fun n : Fin 9 => dutyTok ER (sendCell c n) 0 (0 : Fin 3)))
/-- Its positions at round 0 of its own cells. -/
def positions (c : Dev nD) : sProp 𝕄 := bigSep Finset.univ fun k : Fin 19 => atPos ER (kcell (c, k)) 0 (∅ : Finset (Fin 3)) 0
def linear (c : Dev nD) : sProp 𝕄 := iprop(positions c ∗ payToks c)
def ghost (K : Dev nD × Fin 19 → ℕ) (c : Dev nD) : sProp 𝕄 := iprop(records m K ∗ linear c)

/-- The credit tokens for what others owe its cells. -/
def creds (c : Dev nD) : sProp 𝕄 :=
  iprop(cred (tallyAt (barCell c) () 3) ∗ bigSep Finset.univ fun n : Fin 9 => cred (tallyAt (recvCell c n) () (Nn n)))

def start (c : Dev nD) : sProp 𝕄 := iprop((∃ K, ghost m K c) ∗ creds c ∗ levAts L lv)

def scrPts (c : Dev nD) (f : (cc0_scratch0 : Ref sig .tc).ty.Contents (Elt F)) : sProp 𝕄 :=
  ((c : Thread nD τ).loc cc0_scratch0) ↦{fullShare} f

def Φ₀ (c : Dev nD) : sProp 𝕄 := iprop(start m c ∗ ∃ f, scrPts c f)
def Φ₁ (c : Dev nD) : sProp 𝕄 := iprop((∃ f, scrPts c f) ∗ bigSep Finset.univ fun j : Fin 18 => semVal (((c : Thread nD τ), osem j) : GSem nD τ sig) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.Regions.lean ====
/-
  The row regions of the result buffer and of the landing buffer, as sets of indices.

  Part p of the 512×512 buffer is the rows offP p ≤ row < offP p + lenP p (all 512 columns); the three parts are
  pairwise disjoint and cover the buffer. The landing region of transfer n in the 3×512×512 buffer is slot n / 3,
  rows of part n mod 3; the nine regions are pairwise disjoint and cover the buffer.
-/
import proofs.«900389_g7700000000000390_dist_rs_then_ag_i_m512_n512_v7x_i8_bf16_1_alg».proof.Proof.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- First row and number of rows of part `p`. -/
abbrev offP : Fin 3 → ℕ := ![0, 176, 352]
abbrev lenP : Fin 3 → ℕ := ![176, 176, 160]

theorem forall_fin3 {P : Fin 3 → Prop} : (∀ a, P a) ↔ P 0 ∧ P 1 ∧ P 2 :=
  ⟨fun h => ⟨h 0, h 1, h 2⟩, fun ⟨h0, h1, h2⟩ a => by fin_cases a <;> assumption⟩

/-! ## Arithmetic of the three row ranges -/

theorem offP_eq (p : Fin 3) : offP p = 176 * p.val := by fin_cases p <;> rfl
theorem lenP_le (p : Fin 3) : lenP p ≤ 176 := by fin_cases p <;> decide

/-- Every row below 512 lies in one of the three ranges. -/
theorem part_of_row (r : ℕ) (h : r < 512) : ∃ p : Fin 3, offP p ≤ r ∧ r < offP p + lenP p := by
  by_cases ha : r < 176
  · exact ⟨0, by show 0 ≤ r ∧ r < 0 + 176; omega⟩
  · by_cases hb : r < 352
    · exact ⟨1, by show 176 ≤ r ∧ r < 176 + 176; omega⟩
    · exact ⟨2, by show 352 ≤ r ∧ r < 352 + 160; omega⟩

/-- A row lies in at most one of the three ranges. -/
theorem part_unique {p p' : Fin 3} {r : ℕ} (h : offP p ≤ r ∧ r < offP p + lenP p)
    (h' : offP p' ≤ r ∧ r < offP p' + lenP p') : p = p' := by
  have e := offP_eq p; have e' := offP_eq p'; have l := lenP_le p; have l' := lenP_le p'
  exact Fin.ext (by omega)

/-! ## The parts of the 512×512 buffer -/

theorem oV0_set : (oV0 : View sig .tc .vmem S176x512 .bf16).set = oR0.set := View.set_slice_whole _ _
theorem oV1_set : (oV1 : View sig .tc .vmem S176x512 .bf16).set = oR1.set := View.set_slice_whole _ _
theorem oV2_set : (oV2 : View sig .tc .vmem S160x512 .bf16).set = oR2.set := View.set_slice_whole _ _

theorem mem_oR0 (i : S512x512.Idx) : i ∈ oR0.set ↔ 0 ≤ (i 0).val ∧ (i 0).val < 0 + 176 := by
  rw [Rect.mem_set_unit, Fin.forall_fin_two]
  change ((0 ≤ (i 0).val ∧ (i 0).val < 0 + 176) ∧ (0 ≤ (i 1).val ∧ (i 1).val < 0 + 512)) ↔ _
  have h1 : (i 1).val < 512 := (i 1).isLt
  omega

theorem mem_oR1 (i : S512x512.Idx) : i ∈ oR1.set ↔ 176 ≤ (i 0).val ∧ (i 0).val < 176 + 176 := by
  rw [Rect.mem_set_unit, Fin.forall_fin_two]
  change ((176 ≤ (i 0).val ∧ (i 0).val < 176 + 176) ∧ (0 ≤ (i 1).val ∧ (i 1).val < 0 + 512)) ↔ _
  have h1 : (i 1).val < 512 := (i 1).isLt
  omega

theorem mem_oR2 (i : S512x512.Idx) : i ∈ oR2.set ↔ 352 ≤ (i 0).val ∧ (i 0).val < 352 + 160 := by
  rw [Rect.mem_set_unit, Fin.forall_fin_two]
  change ((352 ≤ (i 0).val ∧ (i 0).val < 352 + 160) ∧ (0 ≤ (i 1).val ∧ (i 1).val < 0 + 512)) ↔ _
  have h1 : (i 1).val < 512 := (i 1).isLt
  omega

theorem mem_oSet (p : Fin 3) (i : S512x512.Idx) :
    i ∈ oSet p ↔ offP p ≤ (i 0).val ∧ (i 0).val < offP p + lenP p := by
  fin_cases p
  · show i ∈ (oV0 : View sig .tc .vmem S176x512 .bf16).set ↔ _
    rw [oV0_set, mem_oR0]; exact Iff.rfl
  · show i ∈ (oV1 : View sig .tc .vmem S176x512 .bf16).set ↔ _
    rw [oV1_set, mem_oR1]; exact Iff.rfl
  · show i ∈ (oV2 : View sig .tc .vmem S160x512 .bf16).set ↔ _
    rw [oV2_set, mem_oR2]; exact Iff.rfl

theorem oSet_disjoint : ∀ p p' : Fin 3, p ≠ p' → Disjoint (oSet p) (oSet p') := by
  intro p p' hne
  rw [Finset.disjoint_left]
  intro i hi hi'
  exact hne (part_unique ((mem_oSet p i).mp hi) ((mem_oSet p' i).mp hi'))

theorem oSet_cover : (Finset.univ : Finset (Fin 3)).biUnion oSet = Finset.univ := by
  ext i
  simp only [Finset.mem_biUnion, Finset.mem_univ, true_and, iff_true]
  obtain ⟨p, hp⟩ := part_of_row (i 0).val (i 0).isLt
  exact ⟨p, (mem_oSet p i).mpr hp⟩

theorem oSet_union : oSet 0 ∪ oSet 1 ∪ oSet 2 = (Finset.univ : Finset S512x512.Idx) := by
  ext i
  simp only [Finset.mem_union, Finset.mem_univ, iff_true]
  obtain ⟨p, hp⟩ := part_of_row (i 0).val (i 0).isLt
  have hm := (mem_oSet p i).mpr hp
  fin_cases p
  · exact Or.inl (Or.inl hm)
  · exact Or.inl (Or.inr hm)
  · exact Or.inr hm

/-! ## The landing regions of the 3×512×512 buffer -/

theorem rV0_set : (rV0 : View sig .tc .vmem S176x512 .bf16).set = rR0.set :=
  (View.set_reshape _ _).trans (View.set_slice_whole _ _)
theorem mem_rR0 (i : S3x512x512.Idx) :
    i ∈ rR0.set ↔ (i 0).val = 0 ∧ 0 ≤ (i 1).val ∧ (i 1).val < 0 + 176 := by
  rw [Rect.mem_set_unit, forall_fin3]
  change ((0 ≤ (i 0).val ∧ (i 0).val < 0 + 1) ∧ (0 ≤ (i 1).val ∧ (i 1).val < 0 + 176) ∧
    (0 ≤ (i 2).val ∧ (i 2).val < 0 + 512)) ↔ _
  have h2 : (i 2).val < 512 := (i 2).isLt
  omega

theorem rV1_set : (rV1 : View sig .tc .vmem S176x512 .bf16).set = rR1.set :=
  (View.set_reshape _ _).trans (View.set_slice_whole _ _)
theorem mem_rR1 (i : S3x512x512.Idx) :
    i ∈ rR1.set ↔ (i 0).val = 0 ∧ 176 ≤ (i 1).val ∧ (i 1).val < 176 + 176 := by
  rw [Rect.mem_set_unit, forall_fin3]
  change ((0 ≤ (i 0).val ∧ (i 0).val < 0 + 1) ∧ (176 ≤ (i 1).val ∧ (i 1).val < 176 + 176) ∧
    (0 ≤ (i 2).val ∧ (i 2).val < 0 + 512)) ↔ _
  have h2 : (i 2).val < 512 := (i 2).isLt
  omega

theorem rV2_set : (rV2 : View sig .tc .vmem S160x512 .bf16).set = rR2.set :=
  (View.set_reshape _ _).trans (View.set_slice_whole _ _)
theorem mem_rR2 (i : S3x512x512.Idx) :
    i ∈ rR2.set ↔ (i 0).val = 0 ∧ 352 ≤ (i 1).val ∧ (i 1).val < 352 + 160 := by
  rw [Rect.mem_set_unit, forall_fin3]
  change ((0 ≤ (i 0).val ∧ (i 0).val < 0 + 1) ∧ (352 ≤ (i 1).val ∧ (i 1).val < 352 + 160) ∧
    (0 ≤ (i 2).val ∧ (i 2).val < 0 + 512)) ↔ _
  have h2 : (i 2).val < 512 := (i 2).isLt
  omega

theorem rV3_set : (rV3 : View sig .tc .vmem S176x512 .bf16).set = rR3.set :=
  (View.set_reshape _ _).trans (View.set_slice_whole _ _)
theorem mem_rR3 (i : S3x512x512.Idx) :
    i ∈ rR3.set ↔ (i 0).val = 1 ∧ 0 ≤ (i 1).val ∧ (i 1).val < 0 + 176 := by
  rw [Rect.mem_set_unit, forall_fin3]
  change ((1 ≤ (i 0).val ∧ (i 0).val < 1 + 1) ∧ (0 ≤ (i 1).val ∧ (i 1).val < 0 + 176) ∧
    (0 ≤ (i 2).val ∧ (i 2).val < 0 + 512)) ↔ _
  have h2 : (i 2).val < 512 := (i 2).isLt
  omega

theorem rV4_set : (rV4 : View sig .tc .vmem S176x512 .bf16).set = rR4.set :=
  (View.set_reshape _ _).trans (View.set_slice_whole _ _)
theorem mem_rR4 (i : S3x512x512.Idx) :
    i ∈ rR4.set ↔ (i 0).val = 1 ∧ 176 ≤ (i 1).val ∧ (i 1).val < 176 + 176 := by
  rw [Rect.mem_set_unit, forall_fin3]
  change ((1 ≤ (i 0).val ∧ (i 0).val < 1 + 1) ∧ (176 ≤ (i 1).val ∧ (i 1).val < 176 + 176) ∧
    (0 ≤ (i 2).val ∧ (i 2).val < 0 + 512)) ↔ _
  have h2 : (i 2).val < 512 := (i 2).isLt
  omega

theorem rV5_set : (rV5 : View sig .tc .vmem S160x512 .bf16).set = rR5.set :=
  (View.set_reshape _ _).trans (View.set_slice_whole _ _)
theorem mem_rR5 (i : S3x512x512.Idx) :
    i ∈ rR5.set ↔ (i 0).val = 1 ∧ 352 ≤ (i 1).val ∧ (i 1).val < 352 + 160 := by
  rw [Rect.mem_set_unit, forall_fin3]
  change ((1 ≤ (i 0).val ∧ (i 0).val < 1 + 1) ∧ (352 ≤ (i 1).val ∧ (i 1).val < 352 + 160) ∧
    (0 ≤ (i 2).val ∧ (i 2).val < 0 + 512)) ↔ _
  have h2 : (i 2).val < 512 := (i 2).isLt
  omega

theorem rV6_set : (rV6 : View sig .tc .vmem S176x512 .bf16).set = rR6.set :=
  (View.set_reshape _ _).trans (View.set_slice_whole _ _)
theorem mem_rR6 (i : S3x512x512.Idx) :
    i ∈ rR6.set ↔ (i 0).val = 2 ∧ 0 ≤ (i 1).val ∧ (i 1).val < 0 + 176 := by
  rw [Rect.mem_set_unit, forall_fin3]
  change ((2 ≤ (i 0).val ∧ (i 0).val < 2 + 1) ∧ (0 ≤ (i 1).val ∧ (i 1).val < 0 + 176) ∧
    (0 ≤ (i 2).val ∧ (i 2).val < 0 + 512)) ↔ _
  have h2 : (i 2).val < 512 := (i 2).isLt
  omega

theorem rV7_set : (rV7 : View sig .tc .vmem S176x512 .bf16).set = rR7.set :=
  (View.set_reshape _ _).trans (View.set_slice_whole _ _)
theorem mem_rR7 (i : S3x512x512.Idx) :
    i ∈ rR7.set ↔ (i 0).val = 2 ∧ 176 ≤ (i 1).val ∧ (i 1).val < 176 + 176 := by
  rw [Rect.mem_set_unit, forall_fin3]
  change ((2 ≤ (i 0).val ∧ (i 0).val < 2 + 1) ∧ (176 ≤ (i 1).val ∧ (i 1).val < 176 + 176) ∧
    (0 ≤ (i 2).val ∧ (i 2).val < 0 + 512)) ↔ _
  have h2 : (i 2).val < 512 := (i 2).isLt
  omega

theorem rV8_set : (rV8 : View sig .tc .vmem S160x512 .bf16).set = rR8.set :=
  (View.set_reshape _ _).trans (View.set_slice_whole _ _)
theorem mem_rR8 (i : S3x512x512.Idx) :
    i ∈ rR8.set ↔ (i 0).val = 2 ∧ 352 ≤ (i 1).val ∧ (i 1).val < 352 + 160 := by
  rw [Rect.mem_set_unit, forall_fin3]
  change ((2 ≤ (i 0).val ∧ (i 0).val < 2 + 1) ∧ (352 ≤ (i 1).val ∧ (i 1).val < 352 + 160) ∧
    (0 ≤ (i 2).val ∧ (i 2).val < 0 + 512)) ↔ _
  have h2 : (i 2).val < 512 := (i 2).isLt
  omega

theorem mem_rSet (n : Fin 9) (i : S3x512x512.Idx) :
    i ∈ rSet n ↔ (i 0).val = n.val / 3 ∧ offP (pOf n) ≤ (i 1).val ∧ (i 1).val < offP (pOf n) + lenP (pOf n) := by
  fin_cases n
  · show i ∈ (rV0 : View sig .tc .vmem S176x512 .bf16).set ↔ _
    rw [rV0_set, mem_rR0]; exact Iff.rfl
  · show i ∈ (rV1 : View sig .tc .vmem S176x512 .bf16).set ↔ _
    rw [rV1_set, mem_rR1]; exact Iff.rfl
  · show i ∈ (rV2 : View sig .tc .vmem S160x512 .bf16).set ↔ _
    rw [rV2_set, mem_rR2]; exact Iff.rfl
  · show i ∈ (rV3 : View sig .tc .vmem S176x512 .bf16).set ↔ _
    rw [rV3_set, mem_rR3]; exact Iff.rfl
  · show i ∈ (rV4 : View sig .tc .vmem S176x512 .bf16).set ↔ _
    rw [rV4_set, mem_rR4]; exact Iff.rfl
  · show i ∈ (rV5 : View sig .tc .vmem S160x512 .bf16).set ↔ _
    rw [rV5_set, mem_rR5]; exact Iff.rfl
  · show i ∈ (rV6 : View sig .tc .vmem S176x512 .bf16).set ↔ _
    rw [rV6_set, mem_rR6]; exact Iff.rfl
  · show i ∈ (rV7 : View sig .tc .vmem S176x512 .bf16).set ↔ _
    rw [rV7_set, mem_rR7]; exact Iff.rfl
  · show i ∈ (rV8 : View sig .tc .vmem S160x512 .bf16).set ↔ _
    rw [rV8_set, mem_rR8]; exact Iff.rfl

theorem rSet_disjoint : ∀ n n' : Fin 9, n ≠ n' → Disjoint (rSet n) (rSet n') := by
  intro n n' hne
  rw [Finset.disjoint_left]
  intro i hi hi'
  obtain ⟨hs, hr⟩ := (mem_rSet n i).mp hi
  obtain ⟨hs', hr'⟩ := (mem_rSet n' i).mp hi'
  have hp : (pOf n).val = (pOf n').val := congrArg Fin.val (part_unique hr hr')
  have hp' : n.val % 3 = n'.val % 3 := hp
  exact hne (Fin.ext (by omega))

theorem rSet_cover : (Finset.univ : Finset (Fin 9)).biUnion rSet = Finset.univ := by
  ext i
  simp only [Finset.mem_biUnion, Finset.mem_univ, true_and, iff_true]
  have h0 : (i 0).val < 3 := (i 0).isLt
  obtain ⟨p, hp⟩ := part_of_row (i 1).val (i 1).isLt
  have hlt : 3 * (i 0).val + p.val < 9 := by have := p.isLt; omega
  have hpOf : pOf ⟨3 * (i 0).val + p.val, hlt⟩ = p :=
    Fin.ext (by show (3 * (i 0).val + p.val) % 3 = p.val; have := p.isLt; omega)
  refine ⟨⟨3 * (i 0).val + p.val, hlt⟩, (mem_rSet _ i).mpr ⟨?_, ?_⟩⟩
  · show (i 0).val = (3 * (i 0).val + p.val) / 3
    have := p.isLt; omega
  · rw [hpOf]; exact hp

/-! ## The unsqueezed views of the landing regions have the same elements -/

theorem rA0_set : (rA0 : View sig .tc .vmem S1x176x512 .bf16).set = rSet 0 :=
  (View.set_slice_whole _ _).trans rV0_set.symm
theorem rA1_set : (rA1 : View sig .tc .vmem S1x176x512 .bf16).set = rSet 1 :=
  (View.set_slice_whole _ _).trans rV1_set.symm
theorem rA2_set : (rA2 : View sig .tc .vmem S1x160x512 .bf16).set = rSet 2 :=
  (View.set_slice_whole _ _).trans rV2_set.symm
theorem rA3_set : (rA3 : View sig .tc .vmem S1x176x512 .bf16).set = rSet 3 :=
  (View.set_slice_whole _ _).trans rV3_set.symm
theorem rA4_set : (rA4 : View sig .tc .vmem S1x176x512 .bf16).set = rSet 4 :=
  (View.set_slice_whole _ _).trans rV4_set.symm
theorem rA5_set : (rA5 : View sig .tc .vmem S1x160x512 .bf16).set = rSet 5 :=
  (View.set_slice_whole _ _).trans rV5_set.symm
theorem rA6_set : (rA6 : View sig .tc .vmem S1x176x512 .bf16).set = rSet 6 :=
  (View.set_slice_whole _ _).trans rV6_set.symm
theorem rA7_set : (rA7 : View sig .tc .vmem S1x176x512 .bf16).set = rSet 7 :=
  (View.set_slice_whole _ _).trans rV7_set.symm
theorem rA8_set : (rA8 : View sig .tc .vmem S1x160x512 .bf16).set = rSet 8 :=
  (View.set_slice_whole _ _).trans rV8_set.symm

end Cert.KernelIdeal.Hand

end
-- ==== Proof.Splits.lean ====
/-
  Splitting the two buffers along their row regions and putting them together again.

  The landing buffer is the disjoint union of the nine landing regions, and the result buffer of its three parts
  (module Regions). A points-to assertion over a whole buffer therefore splits into one assertion per region, and
  assertions over all the regions, whatever contents each is held at, join into one over the whole buffer. Joined at
  the final contents of the three parts, the result buffer holds the final result.
-/
import proofs.«900389_g7700000000000390_dist_rs_then_ag_i_m512_n512_v7x_i8_bf16_1_alg».proof.Proof.Data
import proofs.«900389_g7700000000000390_dist_rs_then_ag_i_m512_n512_v7x_i8_bf16_1_alg».proof.Proof.Regions

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The landing buffer -/

omit [FloatOps F] in
/-- The whole landing buffer as its nine regions. -/
theorem scrPts_eq (c : Dev nD) (f : (cc0_scratch0 : Ref sig .tc).ty.Contents (Elt F)) :
    (scrPts c f : sProp 𝕄) = bigSep Finset.univ fun n : Fin 9 => scrR c n f := by
  have e := pointsTo_biUnion (Name := ℕ) (U := UU) (Lvl := ℕ) (Ix := Unit) (Val := Elt F) (q := fullShare) (f := f)
    (ℓ := (c : Thread nD τ).loc cc0_scratch0)
    Finset.univ rSet (fun t _ t' _ h => rSet_disjoint t t' h)
  rw [rSet_cover] at e
  exact e

omit [FloatOps F] in
theorem scr_split (c : Dev nD) (f : (cc0_scratch0 : Ref sig .tc).ty.Contents (Elt F)) :
    (scrPts c f : sProp 𝕄) ⊢ iprop(scrR c 0 f ∗ scrR c 1 f ∗ scrR c 2 f ∗ scrR c 3 f ∗ scrR c 4 f ∗ scrR c 5 f ∗ scrR c 6 f ∗ scrR c 7 f ∗ scrR c 8 f) := by
  rw [scrPts_eq, bigSep_fin9]

omit [FloatOps F] in
/-- The nine regions, each at its own contents, are the whole landing buffer at some contents. -/
theorem scr_join_at (c : Dev nD) (f0 f1 f2 f3 f4 f5 f6 f7 f8 : (cc0_scratch0 : Ref sig .tc).ty.Contents (Elt F)) :
    iprop(scrR c 0 f0 ∗ scrR c 1 f1 ∗ scrR c 2 f2 ∗ scrR c 3 f3 ∗ scrR c 4 f4 ∗ scrR c 5 f5 ∗ scrR c 6 f6 ∗ scrR c 7 f7 ∗ scrR c 8 f8) ⊢ (iprop(∃ f, scrPts c f) : sProp 𝕄) := by
  have hj := pointsTo_biUnion_join (Name := ℕ) (U := UU) (Lvl := ℕ) (Ix := Unit) (Val := Elt F) (q := fullShare)
    (ℓ := (c : Thread nD τ).loc cc0_scratch0) Finset.univ rSet ![f0, f1, f2, f3, f4, f5, f6, f7, f8] f0
    (fun t _ t' _ h => rSet_disjoint t t' h)
  rw [bigSep_fin9, rSet_cover] at hj
  refine BIBase.Entails.trans ?_ (hj.trans ?_)
  · unfold scrR; exact .rfl
  · iintro ⟨%g, -, H⟩
    iexists g
    unfold scrPts
    iexact H

omit [FloatOps F] in
theorem scr_join (c : Dev nD) :
    iprop((∃ f, scrR c 0 f) ∗ (∃ f, scrR c 1 f) ∗ (∃ f, scrR c 2 f) ∗ (∃ f, scrR c 3 f) ∗ (∃ f, scrR c 4 f) ∗ (∃ f, scrR c 5 f) ∗ (∃ f, scrR c 6 f) ∗ (∃ f, scrR c 7 f) ∗ (∃ f, scrR c 8 f)) ⊢ (iprop(∃ f, scrPts c f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  iapply (scr_join_at c f0 f1 f2 f3 f4 f5 f6 f7 f8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The result buffer -/

omit [FloatOps F] in
/-- The whole result buffer as its three parts. -/
theorem outPts_eq (c : Dev nD) (f : (cc0_stg1_0 : Ref sig .tc).ty.Contents (Elt F)) :
    ((((c : Thread nD τ).loc cc0_stg1_0) ↦{fullShare} f) : sProp 𝕄) = bigSep Finset.univ fun p : Fin 3 => outR c p f := by
  have e := pointsTo_biUnion (Name := ℕ) (U := UU) (Lvl := ℕ) (Ix := Unit) (Val := Elt F) (q := fullShare) (f := f)
    (ℓ := (c : Thread nD τ).loc cc0_stg1_0)
    Finset.univ oSet (fun t _ t' _ h => oSet_disjoint t t' h)
  rw [oSet_cover] at e
  exact e

omit [FloatOps F] in
theorem out_split (c : Dev nD) (f : (cc0_stg1_0 : Ref sig .tc).ty.Contents (Elt F)) :
    ((((c : Thread nD τ).loc cc0_stg1_0) ↦{fullShare} f) : sProp 𝕄) ⊢ iprop(outR c 0 f ∗ outR c 1 f ∗ outR c 2 f) := by
  rw [outPts_eq, bigSep_three]

/-- The three parts at their final contents are the result buffer at the final result. -/
theorem out_join (c : Dev nD) :
    iprop(outR c 0 (oB03 m c) ∗ outR c 1 (oB13 m c) ∗ outR c 2 (oB23 m c))
      ⊢ ((((c : Thread nD τ).loc cc0_stg1_0) ↦{fullShare} outFinal m c) : sProp 𝕄) := by
  have h01 : Disjoint (oSet 0) (oSet 1) := oSet_disjoint 0 1 (by decide)
  have h2 : Disjoint (oSet 0 ∪ oSet 1) (oSet 2) :=
    Finset.disjoint_union_left.mpr ⟨oSet_disjoint 0 2 (by decide), oSet_disjoint 1 2 (by decide)⟩
  unfold outR outFinal
  refine sep_assoc'.trans ((sep_mono (pointsTo_join h01) .rfl).trans ((pointsTo_join h2).trans (Entails.of_eq ?_)))
  rw [oSet_union]

/-! ## Contents written through a view do not depend on what was there before -/

omit [FloatOps F] in
theorem pts_write_congr {s : Shape} {e : EltTy} (v : View sig .tc .vmem s e) (c : Dev nD) (q : PosShare TreeShare)
    (f f' : v.ty.Contents (Elt F)) (w : s.Idx → Elt F e) :
    ((v.loc (c : Thread nD τ) ↦[v.set]{q} v.write (Elt F) f w Finset.univ) : sProp 𝕄)
      = (v.loc (c : Thread nD τ) ↦[v.set]{q} v.write (Elt F) f' w Finset.univ) := by
  refine pointsTo_congr fun i hi => ?_
  obtain ⟨x, rfl⟩ := View.exists_emb_of_mem_set v hi
  rw [View.write_emb_of_mem f w (Finset.mem_univ x), View.write_emb_of_mem f' w (Finset.mem_univ x)]

end Cert.KernelIdeal.Hand

end
-- ==== Proof.Body.lean ====
/-
  The body of one device, stepped from the ghost state it starts from to the region's exit.

  In program order: the three barrier signals, each handing the partner the three landing regions it will fill; the
  three parts of the argument block cast into the result buffer; the wait for the three partners' signals, which brings
  the partners' landing regions; the first three transfers; then, for each transfer n = 0 … 8, the wait for its send
  (the rows of the result buffer come back), the wait for its receive (the landing region comes with the partner's
  running sum), the addition into the part's rows, and, while n < 6, transfer n + 3 of the new running sum. At the end
  the eighteen scoped cells are closed at zero, the nine landing regions are joined into the landing buffer and the three
  parts into the result buffer.
-/
import proofs.«900389_g7700000000000390_dist_rs_then_ag_i_m512_n512_v7x_i8_bf16_1_alg».proof.Proof.Data
import proofs.«900389_g7700000000000390_dist_rs_then_ag_i_m512_n512_v7x_i8_bf16_1_alg».proof.Proof.Splits

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The records at the cells by name -/

section Wrappers
variable (K : Dev nD × Fin 19 → ℕ)

theorem inv_bar (c : Dev nD) : (records m K : sProp 𝕄) ⊢ cellInv ER (Rd m) (K (c, 0)) (barCell c) := inv_at m K (c, 0)
theorem inv_snd (c : Dev nD) (n : Fin 9) : (records m K : sProp 𝕄) ⊢ cellInv ER (Rd m) (K (c, kSnd n)) (sendCell c n) := by
  have h := inv_at m K (c, kSnd n); rwa [kcell_snd] at h
theorem inv_rcv (c : Dev nD) (n : Fin 9) : (records m K : sProp 𝕄) ⊢ cellInv ER (Rd m) (K (c, kRcv n)) (recvCell c n) := by
  have h := inv_at m K (c, kRcv n); rwa [kcell_rcv] at h
theorem rch_bar (c : Dev nD) : (records m K : sProp 𝕄) ⊢ reached ER (barCell c) 0 := reached_at m K (c, 0)
theorem rch_snd (c : Dev nD) (n : Fin 9) : (records m K : sProp 𝕄) ⊢ reached ER (sendCell c n) 0 := by
  have h := reached_at m K (c, kSnd n); rwa [kcell_snd] at h
theorem rch_rcv (c : Dev nD) (n : Fin 9) : (records m K : sProp 𝕄) ⊢ reached ER (recvCell c n) 0 := by
  have h := reached_at m K (c, kRcv n); rwa [kcell_rcv] at h

/-- A landing region of one's own, at any contents, is a `landing`. -/
theorem landing_intro (c : Dev nD) (n : Fin 9) : iprop(records m K ∗ ∃ f, scrR c n f) ⊢ (landing c n : sProp 𝕄) := by
  unfold landing
  iintro ⟨#Hrec, H⟩
  isplitl [H]; · iexact H
  iapply (rch_rcv m K c n); iexact Hrec

/-- The barrier signal to the partner under mask `k`: the three landing regions it will fill go with it. -/
theorem wp_sig (c : Dev nD) (k : Fin 3) (O : CellTallies nD τ sig Unit) {W : Waits sig Unit} {k' : ℕ} (hk' : 1 = k')
    {α : Type} {Q : α → sProp 𝕄} {kk : PUnit → Prog (TpuEff nD τ sig (Elt F) Λ₀ .tc) α} :
    iprop(records m K ∗ owes (c : Thread nD τ) (O + Bk c k) W ∗ dutyTok ER (barCell (peer c k)) 0 k
        ∗ (∃ f, scrR c (nOf k 0) f) ∗ (∃ f, scrR c (nOf k 1) f) ∗ (∃ f, scrR c (nOf k 2) f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (peer c k : Thread nD τ) barS k') kk) Q) := by
  subst hk'
  iintro ⟨#Hrec, HO, Htok, H0, H1, H2⟩
  iapply (Rounds.wp_signal 𝒱₀ ER (Rd m) (c : Thread nD τ) none (dst := (peer c k : Thread nD τ)) (κ := K (peer c k, 0))
      (d := k) (by rw [duties_bar]; exact Finset.mem_univ _) (amount_bar m (peer c k) k) () O rfl) $$ [HO Htok H0 H1 H2]
  isplitr; · iapply (inv_bar m K (peer c k)); iexact Hrec
  isplitl [HO]; · iexact HO
  isplitl [Htok]; · iexact Htok
  isplitl [H0 H1 H2]
  · rw [payload_bar]; unfold barPay; rw [peer_peer]
    isplitl [H0]
    · iapply (landing_intro m K c (nOf k 0)); isplitr; · iexact Hrec
      iexact H0
    isplitl [H1]
    · iapply (landing_intro m K c (nOf k 1)); isplitr; · iexact Hrec
      iexact H1
    · iapply (landing_intro m K c (nOf k 2)); isplitr; · iexact Hrec
      iexact H2
  · iapply (rch_bar m K (peer c k)); iexact Hrec

end Wrappers

/-! ## The semaphores by number -/

theorem snd_sem_0 : ((cc0_scratch1.slice (Rect.unit (s := S3x3) ![0, 0] S1x1.size inb_S3x3_S1x1_0_0)).squeeze S_ squeezes_S1x1_S_).sem = sndS 0 := by decide
theorem rcv_sem_0 : ((cc0_scratch2.slice (Rect.unit (s := S3x3) ![0, 0] S1x1.size inb_S3x3_S1x1_0_0)).squeeze S_ squeezes_S1x1_S_).sem = rcvS 0 := by decide
theorem snd_sem_1 : ((cc0_scratch1.slice (Rect.unit (s := S3x3) ![0, 1] S1x1.size inb_S3x3_S1x1_0_1)).squeeze S_ squeezes_S1x1_S_).sem = sndS 1 := by decide
theorem rcv_sem_1 : ((cc0_scratch2.slice (Rect.unit (s := S3x3) ![0, 1] S1x1.size inb_S3x3_S1x1_0_1)).squeeze S_ squeezes_S1x1_S_).sem = rcvS 1 := by decide
theorem snd_sem_2 : ((cc0_scratch1.slice (Rect.unit (s := S3x3) ![0, 2] S1x1.size inb_S3x3_S1x1_0_2)).squeeze S_ squeezes_S1x1_S_).sem = sndS 2 := by decide
theorem rcv_sem_2 : ((cc0_scratch2.slice (Rect.unit (s := S3x3) ![0, 2] S1x1.size inb_S3x3_S1x1_0_2)).squeeze S_ squeezes_S1x1_S_).sem = rcvS 2 := by decide
theorem snd_sem_3 : ((cc0_scratch1.slice (Rect.unit (s := S3x3) ![1, 0] S1x1.size inb_S3x3_S1x1_1_0)).squeeze S_ squeezes_S1x1_S_).sem = sndS 3 := by decide
theorem rcv_sem_3 : ((cc0_scratch2.slice (Rect.unit (s := S3x3) ![1, 0] S1x1.size inb_S3x3_S1x1_1_0)).squeeze S_ squeezes_S1x1_S_).sem = rcvS 3 := by decide
theorem snd_sem_4 : ((cc0_scratch1.slice (Rect.unit (s := S3x3) ![1, 1] S1x1.size inb_S3x3_S1x1_1_1)).squeeze S_ squeezes_S1x1_S_).sem = sndS 4 := by decide
theorem rcv_sem_4 : ((cc0_scratch2.slice (Rect.unit (s := S3x3) ![1, 1] S1x1.size inb_S3x3_S1x1_1_1)).squeeze S_ squeezes_S1x1_S_).sem = rcvS 4 := by decide
theorem snd_sem_5 : ((cc0_scratch1.slice (Rect.unit (s := S3x3) ![1, 2] S1x1.size inb_S3x3_S1x1_1_2)).squeeze S_ squeezes_S1x1_S_).sem = sndS 5 := by decide
theorem rcv_sem_5 : ((cc0_scratch2.slice (Rect.unit (s := S3x3) ![1, 2] S1x1.size inb_S3x3_S1x1_1_2)).squeeze S_ squeezes_S1x1_S_).sem = rcvS 5 := by decide
theorem snd_sem_6 : ((cc0_scratch1.slice (Rect.unit (s := S3x3) ![2, 0] S1x1.size inb_S3x3_S1x1_2_0)).squeeze S_ squeezes_S1x1_S_).sem = sndS 6 := by decide
theorem rcv_sem_6 : ((cc0_scratch2.slice (Rect.unit (s := S3x3) ![2, 0] S1x1.size inb_S3x3_S1x1_2_0)).squeeze S_ squeezes_S1x1_S_).sem = rcvS 6 := by decide
theorem snd_sem_7 : ((cc0_scratch1.slice (Rect.unit (s := S3x3) ![2, 1] S1x1.size inb_S3x3_S1x1_2_1)).squeeze S_ squeezes_S1x1_S_).sem = sndS 7 := by decide
theorem rcv_sem_7 : ((cc0_scratch2.slice (Rect.unit (s := S3x3) ![2, 1] S1x1.size inb_S3x3_S1x1_2_1)).squeeze S_ squeezes_S1x1_S_).sem = rcvS 7 := by decide
theorem snd_sem_8 : ((cc0_scratch1.slice (Rect.unit (s := S3x3) ![2, 2] S1x1.size inb_S3x3_S1x1_2_2)).squeeze S_ squeezes_S1x1_S_).sem = sndS 8 := by decide
theorem rcv_sem_8 : ((cc0_scratch2.slice (Rect.unit (s := S3x3) ![2, 2] S1x1.size inb_S3x3_S1x1_2_2)).squeeze S_ squeezes_S1x1_S_).sem = rcvS 8 := by decide

theorem Nn_A (n : Fin 9) (h : n.val % 3 ≠ 2) : Nn n = NA := if_neg h
theorem Nn_B (n : Fin 9) (h : n.val % 3 = 2) : Nn n = NB := if_pos h

section Wrappers2
variable (K : Dev nD × Fin 19 → ℕ)

/-- The wait for the three partners' barrier signals, owing the nine transfers. -/
theorem wp_wait_bar (c : Dev nD) {W : Waits sig Unit} {w : TpuEff nD τ sig (Elt F) Λ₀ .tc PUnit} {k' : ℕ}
    (hw : ∀ K' : PUnit → sProp 𝕄, wpE' (defs₀ (F := F)) 𝒱₀ (c : Thread nD τ) none PendingWaitsCtx.empty Set.univ w K' = waitSpec (c : Thread nD τ) Set.univ (.reg barS) k' K')
    (hk' : k' = 3) {α : Type} {Q : α → sProp 𝕄} {kk : PUnit → Prog (TpuEff nD τ sig (Elt F) Λ₀ .tc) α} :
    iprop(records m K ∗ levAts L lv ∗ cred (tallyAt (barCell c) () 3) ∗ owes (c : Thread nD τ) (Osend c 0) W ∗ atPos ER (barCell c) 0 (∅ : Finset (Fin 3)) 0)
      ⊢ iprop(((owes (c : Thread nD τ) (Osend c 0) (insert (SemLoc.reg barS, ()) W) ∗ atPos ER (barCell c) 1 (∅ : Finset (Fin 3)) 0
              ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk'
  iintro ⟨#Hrec, #Hlev, Hc, HO, Hat⟩ Hk
  iapply (Rounds.wp_wait_rest_token 𝒱₀ ER (Rd m) (c : Thread nD τ) none (κ := K (c, 0)) hw (Set.mem_univ _) () (O := Osend c 0) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_Osend c (.reg barS) 0 (by rw [lv_bar]; omega)); iexact Hlev
    iexact Hat
  iintro ⟨HO, Hat, -, Hpay⟩
  iapply Hk
  ihave Hp := (Entails.of_eq (rest_bar m c)) $$ Hpay
  isplitl [HO]; · iexact HO
  isplitl [Hat]; · iexact Hat
  iexact Hp

/-- The wait on the send cell of transfer `n`, owing the transfers from `j` on: the rows the transfer read come back. -/
theorem wp_wait_snd (c : Dev nD) (n : Fin 9) (j : ℕ) {W : Waits sig Unit} {w : TpuEff nD τ sig (Elt F) Λ₀ .tc PUnit} {k' : ℕ} {q : DmaSem sig}
    (hw : ∀ K' : PUnit → sProp 𝕄, wpE' (defs₀ (F := F)) 𝒱₀ (c : Thread nD τ) none PendingWaitsCtx.empty Set.univ w K' = waitSpec (c : Thread nD τ) Set.univ (.dma q) k' K')
    (hq : q = sndS n) (hk' : k' = Nn n) {α : Type} {Q : α → sProp 𝕄} {kk : PUnit → Prog (TpuEff nD τ sig (Elt F) Λ₀ .tc) α} :
    iprop(records m K ∗ levAts L lv ∗ cred (tallyAt (sendCell c n) () (Nn n)) ∗ owes (c : Thread nD τ) (Osend c j) W ∗ atPos ER (sendCell c n) 0 (∅ : Finset (Fin 3)) 0)
      ⊢ iprop(((owes (c : Thread nD τ) (Osend c j) (insert (SemLoc.dma (sndS n), ()) W) ∗ atPos ER (sendCell c n) 1 (∅ : Finset (Fin 3)) 0 ∗ sendPay m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk' hq
  iintro ⟨#Hrec, #Hlev, Hc, HO, Hat⟩ Hk
  iapply (Rounds.wp_wait_rest_token 𝒱₀ ER (Rd m) (c : Thread nD τ) none (κ := K (c, kSnd n)) hw (Set.mem_univ _) () (O := Osend c j) (W := W) (R := 0) (m := 0) (T := ∅)
      (by rw [expect_snd, Nat.zero_add])) $$ [Hc HO Hat]
  · isplitr; · iapply (inv_snd m K c n); iexact Hrec
    isplitl [Hc]; · iexact Hc
    isplitl [HO]; · iexact HO
    isplitr; · iapply (mayWait_Osend c (.dma (sndS n)) j (by rw [lv_snd]; omega)); iexact Hlev
    iexact Hat
  iintro ⟨HO, Hat, -, Hpay⟩
  iapply Hk
  ihave Hp := (Entails.of_eq (rest_snd m c n)) $$ Hpay
  isplitl [HO]; · iexact HO
  isplitl [Hat]; · iexact Hat
  iexact Hp

/-- The wait on the receive cell of transfer `n`, owing the transfers from `j > n` on: the landing region comes with the
    partner's running sum. -/
theorem wp_wait_rcv (c : Dev nD) (n : Fin 9) (j : ℕ) (hj : n.val < j) {W : Waits sig Unit} {w : TpuEff nD τ sig (Elt F) Λ₀ .tc PUnit} {k' : ℕ} {q : DmaSem sig}
    (hw : ∀ K' : PUnit → sProp 𝕄, wpE' (defs₀ (F := F)) 𝒱₀ (c : Thread nD τ) none PendingWaitsCtx.empty Set.univ w K' = waitSpec (c : Thread nD τ) Set.univ (.dma q) k' K')
    (hq : q = rcvS n) (hk' : k' = Nn n) {α : Type} {Q : α → sProp 𝕄} {kk : PUnit → Prog (TpuEff nD τ sig (Elt F) Λ₀ .tc) α} :
    iprop(records m K ∗ levAts L lv ∗ cred (tallyAt (recvCell c n) () (Nn n)) ∗ owes (c : Thread nD τ) (Osend c j) W ∗ atPos ER (recvCell c n) 0 (∅ : Finset (Fin 3)) 0)
      ⊢ iprop(((owes (c : Thread nD τ) (Osend c j) (insert (SemLoc.dma (rcvS n), ()) W) ∗ atPos ER (recvCell c n) 1 (∅ : Finset (Fin 3)) 0 ∗ recvPay m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk' hq
  iintro ⟨#Hrec, #Hlev, Hc, HO, Hat⟩ Hk
  iapply (Rounds.wp_wait_rest_token 𝒱₀ ER (Rd m) (c : Thread nD τ) none (κ := K (c, kRcv n)) hw (Set.mem_univ _) () (O := Osend c j) (W := W) (R := 0) (m := 0) (T := ∅)
      (by rw [expect_rcv, Nat.zero_add])) $$ [Hc HO Hat]
  · isplitr; · iapply (inv_rcv m K c n); iexact Hrec
    isplitl [Hc]; · iexact Hc
    isplitl [HO]; · iexact HO
    isplitr; · iapply (mayWait_Osend c (.dma (rcvS n)) j (by rw [lv_rcv]; omega)); iexact Hlev
    iexact Hat
  iintro ⟨HO, Hat, -, Hpay⟩
  iapply Hk
  ihave Hp := (Entails.of_eq (rest_rcv m c n)) $$ Hpay
  isplitl [HO]; · iexact HO
  isplitl [Hat]; · iexact Hat
  iexact Hp

/-- Transfer `n`: the rows of the result buffer go to the partner's landing region; the send cell's and the partner's
    receive cell's duties are paid. The device and the two semaphores are named by equations. -/
theorem wp_snd {s : Shape} (c : Dev nD) (n : Fin 9) (O : CellTallies nD τ sig Unit) {W : Waits sig Unit}
    (d : Dev nD) (hd : d = peer c (kOf n)) {sS sR : DmaSem sig} (hS : sS = sndS n) (hR : sR = rcvS n)
    {src : Memref sig .tc .vmem s .bf16} {dst : Memref sig .tc .vmem s .bf16}
    {hsc : dst.view.ref.isScScratch = false} {hsrc : src.view.WordExact} {hdst : dst.view.WordExact}
    {hsem : DmaTarget.Typed .vmem (.dma sR) (.remote (Dev.tc d : Thread nD τ) dst (.dma sS) hsc)}
    (fs : Buf (Elt F) (src.view.loc (c : Thread nD τ))) (fd : Buf (Elt F) (dst.view.loc (Dev.tc d : Thread nD τ)))
    (hN : dst.view.amount (.dma sR) = Nn n)
    (hpay₁ : (src.view.loc (c : Thread nD τ) ↦[src.view.set]{fullShare} fs : sProp 𝕄) ⊢ (Rd m).payload (sendCell c n) 0 0)
    (hpay₂ : (dst.view.loc (Dev.tc d : Thread nD τ) ↦[dst.view.set]{fullShare} (dst.view.write (Elt F) fd (src.view.read (Elt F) fs) Finset.univ) : sProp 𝕄)
      ⊢ (Rd m).payload (recvCell d n) 0 0)
    {α : Type} {Q : α → sProp 𝕄} {kk : PUnit → Prog (TpuEff nD τ sig (Elt F) Λ₀ .tc) α} :
    iprop(records m K ∗ (src.view.loc (c : Thread nD τ) ↦[src.view.set]{fullShare} fs) ∗ (dst.view.loc (Dev.tc d : Thread nD τ) ↦[dst.view.set]{fullShare} fd)
        ∗ owes (c : Thread nD τ) (O + Tn c n) W ∗ dutyTok ER (sendCell c n) 0 (0 : Fin 3) ∗ dutyTok ER (recvCell (peer c (kOf n)) n) 0 (0 : Fin 3))
      ⊢ iprop(((cred (tallyAt (sendCell c n) () (Nn n)) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) kk) Q) := by
  subst hd hS hR
  iintro ⟨#Hrec, Hs, Hd, HO, Ht1, Ht2⟩
  iapply (Rounds.wp_send_pointsTo 𝒱₀ ER (Rd m) (c : Thread nD τ) none (κ₁ := K (c, kSnd n)) (κ₂ := K (peer c (kOf n), kRcv n))
    (r₁ := 0) (r₂ := 0) (d₁ := 0) (d₂ := 0) (fs := fs) (fd := fd)
    (by rw [duties_snd]; exact Finset.mem_singleton_self _) (by rw [duties_rcv]; exact Finset.mem_singleton_self _)
    () () (Nn n) hN (amount_snd m c n 0) (amount_rcv m (peer c (kOf n)) n 0) O rfl (W := W) hpay₁ hpay₂) $$ [Hs Hd HO Ht1 Ht2]
  isplitr; · iapply (inv_snd m K c n); iexact Hrec
  isplitr; · iapply (inv_rcv m K (peer c (kOf n)) n); iexact Hrec
  isplitl [Hs]; · iexact Hs
  isplitl [Hd]; · iexact Hd
  isplitl [HO]; · iexact HO
  isplitl [Ht1]; · iexact Ht1
  isplitr; · iapply (rch_snd m K c n); iexact Hrec
  isplitl [Ht2]; · iexact Ht2
  iapply (rch_rcv m K (peer c (kOf n)) n); iexact Hrec

end Wrappers2

theorem chain9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem chain19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem chain18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-! ## The memrefs of the transfers, by name -/
abbrev oSl0 : Memref sig .tc .vmem S176x512 .bf16 := oM.slice oR0 (fun _ => rfl)
abbrev oSl1 : Memref sig .tc .vmem S176x512 .bf16 := oM.slice oR1 (fun _ => rfl)
abbrev oSl2 : Memref sig .tc .vmem S160x512 .bf16 := oM.slice oR2 (fun _ => rfl)
abbrev rSl0 : Memref sig .tc .vmem S176x512 .bf16 := (rM.slice rR0 (fun _ => rfl)).squeeze S176x512 squeezes_S1x176x512_S176x512
abbrev rSl1 : Memref sig .tc .vmem S176x512 .bf16 := (rM.slice rR1 (fun _ => rfl)).squeeze S176x512 squeezes_S1x176x512_S176x512
abbrev rSl2 : Memref sig .tc .vmem S160x512 .bf16 := (rM.slice rR2 (fun _ => rfl)).squeeze S160x512 squeezes_S1x160x512_S160x512
abbrev rSl3 : Memref sig .tc .vmem S176x512 .bf16 := (rM.slice rR3 (fun _ => rfl)).squeeze S176x512 squeezes_S1x176x512_S176x512
abbrev rSl4 : Memref sig .tc .vmem S176x512 .bf16 := (rM.slice rR4 (fun _ => rfl)).squeeze S176x512 squeezes_S1x176x512_S176x512
abbrev rSl5 : Memref sig .tc .vmem S160x512 .bf16 := (rM.slice rR5 (fun _ => rfl)).squeeze S160x512 squeezes_S1x160x512_S160x512
abbrev rSl6 : Memref sig .tc .vmem S176x512 .bf16 := (rM.slice rR6 (fun _ => rfl)).squeeze S176x512 squeezes_S1x176x512_S176x512
abbrev rSl7 : Memref sig .tc .vmem S176x512 .bf16 := (rM.slice rR7 (fun _ => rfl)).squeeze S176x512 squeezes_S1x176x512_S176x512
abbrev rSl8 : Memref sig .tc .vmem S160x512 .bf16 := (rM.slice rR8 (fun _ => rfl)).squeeze S160x512 squeezes_S1x160x512_S160x512

/-! ## The payloads of the literal transfers, spelt over the regions -/

section Norm
theorem conv_o0 (c : Dev nD) (f : (cc0_stg1_0 : Ref sig .tc).ty.Contents (Elt F)) (w : S176x512.Idx → Elt F .bf16) :
    ((((c : Thread nD τ).loc cc0_stg1_0) ↦[oSet 0]{fullShare} oV0.write (Elt F) f w Finset.univ) : sProp 𝕄)
      ⊢ (((c : Thread nD τ).loc cc0_stg1_0) ↦[oSet 0]{fullShare} oV0.write (Elt F) Zo w Finset.univ) :=
  Entails.of_eq (pts_write_congr oV0 c fullShare f Zo w)
theorem conv_o1 (c : Dev nD) (f : (cc0_stg1_0 : Ref sig .tc).ty.Contents (Elt F)) (w : S176x512.Idx → Elt F .bf16) :
    ((((c : Thread nD τ).loc cc0_stg1_0) ↦[oSet 1]{fullShare} oV1.write (Elt F) f w Finset.univ) : sProp 𝕄)
      ⊢ (((c : Thread nD τ).loc cc0_stg1_0) ↦[oSet 1]{fullShare} oV1.write (Elt F) Zo w Finset.univ) :=
  Entails.of_eq (pts_write_congr oV1 c fullShare f Zo w)
theorem conv_o2 (c : Dev nD) (f : (cc0_stg1_0 : Ref sig .tc).ty.Contents (Elt F)) (w : S160x512.Idx → Elt F .bf16) :
    ((((c : Thread nD τ).loc cc0_stg1_0) ↦[oSet 2]{fullShare} oV2.write (Elt F) f w Finset.univ) : sProp 𝕄)
      ⊢ (((c : Thread nD τ).loc cc0_stg1_0) ↦[oSet 2]{fullShare} oV2.write (Elt F) Zo w Finset.univ) :=
  Entails.of_eq (pts_write_congr oV2 c fullShare f Zo w)
theorem sendPay_0 (c : Dev nD) : (sendPay m c 0 : sProp 𝕄) = (((c : Thread nD τ).loc cc0_stg1_0) ↦[oSet 0]{fullShare} oB00 m c) := rfl
theorem recvPay_0 (c : Dev nD) : (recvPay m c 0 : sProp 𝕄) = (((c : Thread nD τ).loc cc0_scratch0) ↦[rSet 0]{fullShare} rB0 m c) := rfl
theorem pay1_0 (c : Dev nD) : ((((c : Thread nD τ).loc cc0_stg1_0) ↦[oSet 0]{fullShare} oB00 m c) : sProp 𝕄) ⊢ (Rd m).payload (sendCell c 0) 0 0 :=
  Entails.of_eq (payload_snd m c 0 0).symm
theorem pay2_0 (c d : Dev nD) (hd : d = peer c 0) (fd : (cc0_scratch0 : Ref sig .tc).ty.Contents (Elt F)) :
    ((((d : Dev nD) : Thread nD τ).loc cc0_scratch0 ↦[rSet 0]{fullShare} rV0.write (Elt F) fd (oV0.read (Elt F) (oB00 m c)) Finset.univ) : sProp 𝕄)
      ⊢ (Rd m).payload (recvCell d 0) 0 0 := by
  subst hd
  rw [payload_rcv, recvPay_0]; unfold rB0; rw [peer_peer]
  exact Entails.of_eq (pts_write_congr rV0 (peer c 0) fullShare fd Zr _)
theorem sendPay_1 (c : Dev nD) : (sendPay m c 1 : sProp 𝕄) = (((c : Thread nD τ).loc cc0_stg1_0) ↦[oSet 1]{fullShare} oB10 m c) := rfl
theorem recvPay_1 (c : Dev nD) : (recvPay m c 1 : sProp 𝕄) = (((c : Thread nD τ).loc cc0_scratch0) ↦[rSet 1]{fullShare} rB1 m c) := rfl
theorem pay1_1 (c : Dev nD) : ((((c : Thread nD τ).loc cc0_stg1_0) ↦[oSet 1]{fullShare} oB10 m c) : sProp 𝕄) ⊢ (Rd m).payload (sendCell c 1) 0 0 :=
  Entails.of_eq (payload_snd m c 1 0).symm
theorem pay2_1 (c d : Dev nD) (hd : d = peer c 1) (fd : (cc0_scratch0 : Ref sig .tc).ty.Contents (Elt F)) :
    ((((d : Dev nD) : Thread nD τ).loc cc0_scratch0 ↦[rSet 1]{fullShare} rV1.write (Elt F) fd (oV1.read (Elt F) (oB10 m c)) Finset.univ) : sProp 𝕄)
      ⊢ (Rd m).payload (recvCell d 1) 0 0 := by
  subst hd
  rw [payload_rcv, recvPay_1]; unfold rB1; rw [peer_peer]
  exact Entails.of_eq (pts_write_congr rV1 (peer c 1) fullShare fd Zr _)
theorem sendPay_2 (c : Dev nD) : (sendPay m c 2 : sProp 𝕄) = (((c : Thread nD τ).loc cc0_stg1_0) ↦[oSet 2]{fullShare} oB20 m c) := rfl
theorem recvPay_2 (c : Dev nD) : (recvPay m c 2 : sProp 𝕄) = (((c : Thread nD τ).loc cc0_scratch0) ↦[rSet 2]{fullShare} rB2 m c) := rfl
theorem pay1_2 (c : Dev nD) : ((((c : Thread nD τ).loc cc0_stg1_0) ↦[oSet 2]{fullShare} oB20 m c) : sProp 𝕄) ⊢ (Rd m).payload (sendCell c 2) 0 0 :=
  Entails.of_eq (payload_snd m c 2 0).symm
theorem pay2_2 (c d : Dev nD) (hd : d = peer c 2) (fd : (cc0_scratch0 : Ref sig .tc).ty.Contents (Elt F)) :
    ((((d : Dev nD) : Thread nD τ).loc cc0_scratch0 ↦[rSet 2]{fullShare} rV2.write (Elt F) fd (oV2.read (Elt F) (oB20 m c)) Finset.univ) : sProp 𝕄)
      ⊢ (Rd m).payload (recvCell d 2) 0 0 := by
  subst hd
  rw [payload_rcv, recvPay_2]; unfold rB2; rw [peer_peer]
  exact Entails.of_eq (pts_write_congr rV2 (peer c 2) fullShare fd Zr _)
theorem sendPay_3 (c : Dev nD) : (sendPay m c 3 : sProp 𝕄) = (((c : Thread nD τ).loc cc0_stg1_0) ↦[oSet 0]{fullShare} oB01 m c) := rfl
theorem recvPay_3 (c : Dev nD) : (recvPay m c 3 : sProp 𝕄) = (((c : Thread nD τ).loc cc0_scratch0) ↦[rSet 3]{fullShare} rB3 m c) := rfl
theorem pay1_3 (c : Dev nD) : ((((c : Thread nD τ).loc cc0_stg1_0) ↦[oSet 0]{fullShare} oB01 m c) : sProp 𝕄) ⊢ (Rd m).payload (sendCell c 3) 0 0 :=
  Entails.of_eq (payload_snd m c 3 0).symm
theorem pay2_3 (c d : Dev nD) (hd : d = peer c 1) (fd : (cc0_scratch0 : Ref sig .tc).ty.Contents (Elt F)) :
    ((((d : Dev nD) : Thread nD τ).loc cc0_scratch0 ↦[rSet 3]{fullShare} rV3.write (Elt F) fd (oV0.read (Elt F) (oB01 m c)) Finset.univ) : sProp 𝕄)
      ⊢ (Rd m).payload (recvCell d 3) 0 0 := by
  subst hd
  rw [payload_rcv, recvPay_3]; unfold rB3; rw [peer_peer]
  exact Entails.of_eq (pts_write_congr rV3 (peer c 1) fullShare fd Zr _)
theorem sendPay_4 (c : Dev nD) : (sendPay m c 4 : sProp 𝕄) = (((c : Thread nD τ).loc cc0_stg1_0) ↦[oSet 1]{fullShare} oB11 m c) := rfl
theorem recvPay_4 (c : Dev nD) : (recvPay m c 4 : sProp 𝕄) = (((c : Thread nD τ).loc cc0_scratch0) ↦[rSet 4]{fullShare} rB4 m c) := rfl
theorem pay1_4 (c : Dev nD) : ((((c : Thread nD τ).loc cc0_stg1_0) ↦[oSet 1]{fullShare} oB11 m c) : sProp 𝕄) ⊢ (Rd m).payload (sendCell c 4) 0 0 :=
  Entails.of_eq (payload_snd m c 4 0).symm
theorem pay2_4 (c d : Dev nD) (hd : d = peer c 2) (fd : (cc0_scratch0 : Ref sig .tc).ty.Contents (Elt F)) :
    ((((d : Dev nD) : Thread nD τ).loc cc0_scratch0 ↦[rSet 4]{fullShare} rV4.write (Elt F) fd (oV1.read (Elt F) (oB11 m c)) Finset.univ) : sProp 𝕄)
      ⊢ (Rd m).payload (recvCell d 4) 0 0 := by
  subst hd
  rw [payload_rcv, recvPay_4]; unfold rB4; rw [peer_peer]
  exact Entails.of_eq (pts_write_congr rV4 (peer c 2) fullShare fd Zr _)
theorem sendPay_5 (c : Dev nD) : (sendPay m c 5 : sProp 𝕄) = (((c : Thread nD τ).loc cc0_stg1_0) ↦[oSet 2]{fullShare} oB21 m c) := rfl
theorem recvPay_5 (c : Dev nD) : (recvPay m c 5 : sProp 𝕄) = (((c : Thread nD τ).loc cc0_scratch0) ↦[rSet 5]{fullShare} rB5 m c) := rfl
theorem pay1_5 (c : Dev nD) : ((((c : Thread nD τ).loc cc0_stg1_0) ↦[oSet 2]{fullShare} oB21 m c) : sProp 𝕄) ⊢ (Rd m).payload (sendCell c 5) 0 0 :=
  Entails.of_eq (payload_snd m c 5 0).symm
theorem pay2_5 (c d : Dev nD) (hd : d = peer c 0) (fd : (cc0_scratch0 : Ref sig .tc).ty.Contents (Elt F)) :
    ((((d : Dev nD) : Thread nD τ).loc cc0_scratch0 ↦[rSet 5]{fullShare} rV5.write (Elt F) fd (oV2.read (Elt F) (oB21 m c)) Finset.univ) : sProp 𝕄)
      ⊢ (Rd m).payload (recvCell d 5) 0 0 := by
  subst hd
  rw [payload_rcv, recvPay_5]; unfold rB5; rw [peer_peer]
  exact Entails.of_eq (pts_write_congr rV5 (peer c 0) fullShare fd Zr _)
theorem sendPay_6 (c : Dev nD) : (sendPay m c 6 : sProp 𝕄) = (((c : Thread nD τ).loc cc0_stg1_0) ↦[oSet 0]{fullShare} oB02 m c) := rfl
theorem recvPay_6 (c : Dev nD) : (recvPay m c 6 : sProp 𝕄) = (((c : Thread nD τ).loc cc0_scratch0) ↦[rSet 6]{fullShare} rB6 m c) := rfl
theorem pay1_6 (c : Dev nD) : ((((c : Thread nD τ).loc cc0_stg1_0) ↦[oSet 0]{fullShare} oB02 m c) : sProp 𝕄) ⊢ (Rd m).payload (sendCell c 6) 0 0 :=
  Entails.of_eq (payload_snd m c 6 0).symm
theorem pay2_6 (c d : Dev nD) (hd : d = peer c 2) (fd : (cc0_scratch0 : Ref sig .tc).ty.Contents (Elt F)) :
    ((((d : Dev nD) : Thread nD τ).loc cc0_scratch0 ↦[rSet 6]{fullShare} rV6.write (Elt F) fd (oV0.read (Elt F) (oB02 m c)) Finset.univ) : sProp 𝕄)
      ⊢ (Rd m).payload (recvCell d 6) 0 0 := by
  subst hd
  rw [payload_rcv, recvPay_6]; unfold rB6; rw [peer_peer]
  exact Entails.of_eq (pts_write_congr rV6 (peer c 2) fullShare fd Zr _)
theorem sendPay_7 (c : Dev nD) : (sendPay m c 7 : sProp 𝕄) = (((c : Thread nD τ).loc cc0_stg1_0) ↦[oSet 1]{fullShare} oB12 m c) := rfl
theorem recvPay_7 (c : Dev nD) : (recvPay m c 7 : sProp 𝕄) = (((c : Thread nD τ).loc cc0_scratch0) ↦[rSet 7]{fullShare} rB7 m c) := rfl
theorem pay1_7 (c : Dev nD) : ((((c : Thread nD τ).loc cc0_stg1_0) ↦[oSet 1]{fullShare} oB12 m c) : sProp 𝕄) ⊢ (Rd m).payload (sendCell c 7) 0 0 :=
  Entails.of_eq (payload_snd m c 7 0).symm
theorem pay2_7 (c d : Dev nD) (hd : d = peer c 0) (fd : (cc0_scratch0 : Ref sig .tc).ty.Contents (Elt F)) :
    ((((d : Dev nD) : Thread nD τ).loc cc0_scratch0 ↦[rSet 7]{fullShare} rV7.write (Elt F) fd (oV1.read (Elt F) (oB12 m c)) Finset.univ) : sProp 𝕄)
      ⊢ (Rd m).payload (recvCell d 7) 0 0 := by
  subst hd
  rw [payload_rcv, recvPay_7]; unfold rB7; rw [peer_peer]
  exact Entails.of_eq (pts_write_congr rV7 (peer c 0) fullShare fd Zr _)
theorem sendPay_8 (c : Dev nD) : (sendPay m c 8 : sProp 𝕄) = (((c : Thread nD τ).loc cc0_stg1_0) ↦[oSet 2]{fullShare} oB22 m c) := rfl
theorem recvPay_8 (c : Dev nD) : (recvPay m c 8 : sProp 𝕄) = (((c : Thread nD τ).loc cc0_scratch0) ↦[rSet 8]{fullShare} rB8 m c) := rfl
theorem pay1_8 (c : Dev nD) : ((((c : Thread nD τ).loc cc0_stg1_0) ↦[oSet 2]{fullShare} oB22 m c) : sProp 𝕄) ⊢ (Rd m).payload (sendCell c 8) 0 0 :=
  Entails.of_eq (payload_snd m c 8 0).symm
theorem pay2_8 (c d : Dev nD) (hd : d = peer c 1) (fd : (cc0_scratch0 : Ref sig .tc).ty.Contents (Elt F)) :
    ((((d : Dev nD) : Thread nD τ).loc cc0_scratch0 ↦[rSet 8]{fullShare} rV8.write (Elt F) fd (oV2.read (Elt F) (oB22 m c)) Finset.univ) : sProp 𝕄)
      ⊢ (Rd m).payload (recvCell d 8) 0 0 := by
  subst hd
  rw [payload_rcv, recvPay_8]; unfold rB8; rw [peer_peer]
  exact Entails.of_eq (pts_write_congr rV8 (peer c 1) fullShare fd Zr _)

theorem close_snd (K : Dev nD × Fin 19 → ℕ) (c : Dev nD) (n : Fin 9) :
    iprop(records m K ∗ atPos ER (sendCell c n) 1 (∅ : Finset (Fin 3)) 0) ⊢ (iprop(|={Set.univ}=> semVal (sendCell c n) 0) : sProp 𝕄) := by
  iintro ⟨#Hrec, Hat⟩
  iapply (Rounds.cell_close ER (Rd m) (Set.mem_univ (K (c, kSnd n))) (fun h => h) (R := 0 + 1) (duties_later m (sendCell c n)))
  isplitr; · iapply (inv_snd m K c n); iexact Hrec
  iexact Hat
theorem close_rcv (K : Dev nD × Fin 19 → ℕ) (c : Dev nD) (n : Fin 9) :
    iprop(records m K ∗ atPos ER (recvCell c n) 1 (∅ : Finset (Fin 3)) 0) ⊢ (iprop(|={Set.univ}=> semVal (recvCell c n) 0) : sProp 𝕄) := by
  iintro ⟨#Hrec, Hat⟩
  iapply (Rounds.cell_close ER (Rd m) (Set.mem_univ (K (c, kRcv n))) (fun h => h) (R := 0 + 1) (duties_later m (recvCell c n)))
  isplitr; · iapply (inv_rcv m K c n); iexact Hrec
  iexact Hat

end Norm

section Body
variable (K : Dev nD × Fin 19 → ℕ)

def bodyPre (c : Dev nD) : sProp 𝕄 :=
  iprop((ghost m K c ∗ creds c ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outFinal m c))

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton, cc0_body_skel, k0_part12_eq_skeleton, k0_part12_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel,
    k0_part11_eq_skeleton, k0_part11_skel,
    semSignalWord, semWaitWord, Prog.lift, Prog.bind_op, Prog.bind_ret, Prog.pure_eq_ret, wp_deviceId]

  simp only [dev1_eq c, dev2_eq c, dev3_eq c, dev4_eq c, dev5_eq c, dev6_eq c, dev7_eq c, dev8_eq c, dev9_eq c, dev10_eq c, dev11_eq c, dev12_eq c, snd_sem_0, rcv_sem_0, snd_sem_1, rcv_sem_1, snd_sem_2, rcv_sem_2, snd_sem_3, rcv_sem_3, snd_sem_4, rcv_sem_4, snd_sem_5, rcv_sem_5, snd_sem_6, rcv_sem_6, snd_sem_7, rcv_sem_7, snd_sem_8, rcv_sem_8]
  unfold bodyPre ghost linear positions payToks creds
  iintro ⟨⟨⟨⟨#Hrec, Hpos, HtB, HtR, HtS⟩, ⟨HcB, HcR⟩, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = Osend c 0 + Bk c 2 + Bk c 1 + Bk c 0 from rfl]
  ihave Hpos' := (Entails.of_eq (chain19 _)) $$ Hpos
  icases Hpos' with ⟨HpB, HpS0, HpS1, HpS2, HpS3, HpS4, HpS5, HpS6, HpS7, HpS8, HpR0, HpR1, HpR2, HpR3, HpR4, HpR5, HpR6, HpR7, HpR8⟩
  ihave HtB' := (Entails.of_eq (bigSep_fin3 _)) $$ HtB
  icases HtB' with ⟨HtB0, HtB1, HtB2⟩
  ihave HtR' := (Entails.of_eq (chain9 _)) $$ HtR
  icases HtR' with ⟨HtR0, HtR1, HtR2, HtR3, HtR4, HtR5, HtR6, HtR7, HtR8⟩
  ihave HtS' := (Entails.of_eq (chain9 _)) $$ HtS
  icases HtS' with ⟨HtS0, HtS1, HtS2, HtS3, HtS4, HtS5, HtS6, HtS7, HtS8⟩
  ihave HcR' := (Entails.of_eq (chain9 _)) $$ HcR
  icases HcR' with ⟨HcR0, HcR1, HcR2, HcR3, HcR4, HcR5, HcR6, HcR7, HcR8⟩
  ihave Hscr' := (scr_split c f0) $$ Hscr
  icases Hscr' with ⟨Hs0, Hs1, Hs2, Hs3, Hs4, Hs5, Hs6, Hs7, Hs8⟩
  -- the barrier signal to the partner under mask 0
  iapply (wp_sig m K c 0 (Osend c 0 + Bk c 2 + Bk c 1) rfl) $$ [HO HtB0 Hs0 Hs5 Hs7]
  · isplitr; · iexact Hrec
    isplitl [HO]; · iexact HO
    isplitl [HtB0]; · iexact HtB0
    isplitl [Hs0]; · iexists f0; iexact Hs0
    isplitl [Hs5]; · iexists f0; iexact Hs5
    iexists f0; iexact Hs7
  iintro HO
  -- the barrier signal to the partner under mask 1
  iapply (wp_sig m K c 1 (Osend c 0 + Bk c 2) rfl) $$ [HO HtB1 Hs1 Hs3 Hs8]
  · isplitr; · iexact Hrec
    isplitl [HO]; · iexact HO
    isplitl [HtB1]; · iexact HtB1
    isplitl [Hs1]; · iexists f0; iexact Hs1
    isplitl [Hs3]; · iexists f0; iexact Hs3
    iexists f0; iexact Hs8
  iintro HO
  -- the barrier signal to the partner under mask 2
  iapply (wp_sig m K c 2 (Osend c 0) rfl) $$ [HO HtB2 Hs2 Hs4 Hs6]
  · isplitr; · iexact Hrec
    isplitl [HO]; · iexact HO
    isplitl [HtB2]; · iexact HtB2
    isplitl [Hs2]; · iexists f0; iexact Hs2
    isplitl [Hs4]; · iexists f0; iexact Hs4
    iexists f0; iexact Hs6
  iintro HO
  ihave Ho3 := (out_split c g1) $$ Hout
  icases Ho3 with ⟨Ho0, Ho1, Ho2⟩
  unfold outR
  -- part 0: its rows of the argument, cast, into the result buffer
  iapply (wp_load_rect 𝒱₀ (c : Thread nD τ) none Set.univ (m := xM) (r := oR0) (Finset.subset_univ _)) $$ Hx; iintro Hx
  iapply (wp_load_rect 𝒱₀ (c : Thread nD τ) none Set.univ (m := oM) (r := oR0) (S := oSet 0) (Finset.Subset.refl _)) $$ Ho0; iintro Ho0
  iapply (wp_store 𝒱₀ (c : Thread nD τ) none Set.univ (m := oM) (r := oR0) (Mk := Finset.univ) (S := oSet 0) (Finset.Subset.refl _)) $$ Ho0; iintro Ho0
  ihave Ho0' := (conv_o0 c g1 _) $$ Ho0
  -- part 1: its rows of the argument, cast, into the result buffer
  iapply (wp_load_rect 𝒱₀ (c : Thread nD τ) none Set.univ (m := xM) (r := oR1) (Finset.subset_univ _)) $$ Hx; iintro Hx
  iapply (wp_load_rect 𝒱₀ (c : Thread nD τ) none Set.univ (m := oM) (r := oR1) (S := oSet 1) (Finset.Subset.refl _)) $$ Ho1; iintro Ho1
  iapply (wp_store 𝒱₀ (c : Thread nD τ) none Set.univ (m := oM) (r := oR1) (Mk := Finset.univ) (S := oSet 1) (Finset.Subset.refl _)) $$ Ho1; iintro Ho1
  ihave Ho1' := (conv_o1 c g1 _) $$ Ho1
  -- part 2: its rows of the argument, cast, into the result buffer
  iapply (wp_load_rect 𝒱₀ (c : Thread nD τ) none Set.univ (m := xM) (r := oR2) (Finset.subset_univ _)) $$ Hx; iintro Hx
  iapply (wp_load_rect 𝒱₀ (c : Thread nD τ) none Set.univ (m := oM) (r := oR2) (S := oSet 2) (Finset.Subset.refl _)) $$ Ho2; iintro Ho2
  iapply (wp_store 𝒱₀ (c : Thread nD τ) none Set.univ (m := oM) (r := oR2) (Mk := Finset.univ) (S := oSet 2) (Finset.Subset.refl _)) $$ Ho2; iintro Ho2
  ihave Ho2' := (conv_o2 c g1 _) $$ Ho2
  -- the wait for the three partners
  iapply (wp_wait_bar m K c (wpE_semWait_eq 𝒱₀ (c : Thread nD τ) none Set.univ) rfl) $$ [HcB HO HpB]
  · isplitr; · iexact Hrec
    isplitr; · iexact Hlev
    isplitl [HcB]; · iexact HcB
    isplitl [HO]; · iexact HO
    iexact HpB
  iintro ⟨HO, HpB, Hb0, Hb1, Hb2⟩
  unfold barPay landing scrR
  icases Hb0 with ⟨⟨⟨%fa0, Ha0⟩, -⟩, ⟨⟨%fa5, Ha5⟩, -⟩, ⟨⟨%fa7, Ha7⟩, -⟩⟩
  icases Hb1 with ⟨⟨⟨%fa1, Ha1⟩, -⟩, ⟨⟨%fa3, Ha3⟩, -⟩, ⟨⟨%fa8, Ha8⟩, -⟩⟩
  icases Hb2 with ⟨⟨⟨%fa2, Ha2⟩, -⟩, ⟨⟨%fa4, Ha4⟩, -⟩, ⟨⟨%fa6, Ha6⟩, -⟩⟩
  -- transfer 0: part 0, step 0
  rw [show Osend c 0 = Osend c 1 + Tn c 0 from Osend_succ c 0]
  iapply (wp_snd m K c 0 (Osend c 1) _ (dev4_eq c) snd_sem_0 rcv_sem_0 (src := oSl0) (dst := rSl0) (oB00 m c) fa0 rfl (pay1_0 m c) (pay2_0 m c _ (dev4_eq c) fa0)) $$ [Ho0' Ha0 HO HtS0 HtR0]
  · isplitr; · iexact Hrec
    isplitl [Ho0']; · iexact Ho0'
    isplitl [Ha0]; · rw [dev4_eq c]; iexact Ha0
    isplitl [HO]; · iexact HO
    isplitl [HtS0]; · iexact HtS0
    iexact HtR0
  iintro ⟨HcS0, HO⟩
  -- transfer 1: part 1, step 0
  rw [show Osend c 1 = Osend c 2 + Tn c 1 from Osend_succ c 1]
  iapply (wp_snd m K c 1 (Osend c 2) _ (dev5_eq c) snd_sem_1 rcv_sem_1 (src := oSl1) (dst := rSl1) (oB10 m c) fa1 rfl (pay1_1 m c) (pay2_1 m c _ (dev5_eq c) fa1)) $$ [Ho1' Ha1 HO HtS1 HtR1]
  · isplitr; · iexact Hrec
    isplitl [Ho1']; · iexact Ho1'
    isplitl [Ha1]; · rw [dev5_eq c]; iexact Ha1
    isplitl [HO]; · iexact HO
    isplitl [HtS1]; · iexact HtS1
    iexact HtR1
  iintro ⟨HcS1, HO⟩
  -- transfer 2: part 2, step 0
  rw [show Osend c 2 = Osend c 3 + Tn c 2 from Osend_succ c 2]
  iapply (wp_snd m K c 2 (Osend c 3) _ (dev6_eq c) snd_sem_2 rcv_sem_2 (src := oSl2) (dst := rSl2) (oB20 m c) fa2 rfl (pay1_2 m c) (pay2_2 m c _ (dev6_eq c) fa2)) $$ [Ho2' Ha2 HO HtS2 HtR2]
  · isplitr; · iexact Hrec
    isplitl [Ho2']; · iexact Ho2'
    isplitl [Ha2]; · rw [dev6_eq c]; iexact Ha2
    isplitl [HO]; · iexact HO
    isplitl [HtS2]; · iexact HtS2
    iexact HtR2
  iintro ⟨HcS2, HO⟩
  -- the waits of transfer 0, then the addition into part 0
  iapply (wp_wait_snd m K c 0 3 (wpE_waitDma2_eq 𝒱₀ (c : Thread nD τ) none Set.univ) snd_sem_0 rfl) $$ [HcS0 HO HpS0]
  · isplitr; · iexact Hrec
    isplitr; · iexact Hlev
    isplitl [HcS0]; · iexact HcS0
    isplitl [HO]; · iexact HO
    iexact HpS0
  iintro ⟨HO, HpS0, Hsp0⟩
  ihave Hq0 := (Entails.of_eq (sendPay_0 m c)) $$ Hsp0
  iapply (wp_wait_rcv m K c 0 3 (by decide) (wpE_waitDma2_eq 𝒱₀ (c : Thread nD τ) none Set.univ) rcv_sem_0 rfl) $$ [HcR0 HO HpR0]
  · isplitr; · iexact Hrec
    isplitr; · iexact Hlev
    isplitl [HcR0]; · iexact HcR0
    isplitl [HO]; · iexact HO
    iexact HpR0
  iintro ⟨HO, HpR0, Hrp0⟩
  ihave Hr0 := (Entails.of_eq (recvPay_0 m c)) $$ Hrp0
  iapply (wp_load_rect 𝒱₀ (c : Thread nD τ) none Set.univ (m := oM) (r := oR0) (S := oSet 0) (Finset.Subset.refl _)) $$ Hq0; iintro Hq0
  iapply (wp_load_rect 𝒱₀ (c : Thread nD τ) none Set.univ (m := rM) (r := rR0) (S := rSet 0) (by rw [rA0_set])) $$ Hr0; iintro Hr0
  iapply (wp_load_rect 𝒱₀ (c : Thread nD τ) none Set.univ (m := oM) (r := oR0) (S := oSet 0) (Finset.Subset.refl _)) $$ Hq0; iintro Hq0
  iapply (wp_store 𝒱₀ (c : Thread nD τ) none Set.univ (m := oM) (r := oR0) (Mk := Finset.univ) (S := oSet 0) (Finset.Subset.refl _)) $$ Hq0; iintro Hq0
  ihave Hu0 := (conv_o0 c (oB00 m c) _) $$ Hq0
  -- transfer 3: part 0, step 1
  rw [show Osend c 3 = Osend c 4 + Tn c 3 from Osend_succ c 3]
  iapply (wp_snd m K c 3 (Osend c 4) _ (dev7_eq c) snd_sem_3 rcv_sem_3 (src := oSl0) (dst := rSl3) (oB01 m c) fa3 rfl (pay1_3 m c) (pay2_3 m c _ (dev7_eq c) fa3)) $$ [Hu0 Ha3 HO HtS3 HtR3]
  · isplitr; · iexact Hrec
    isplitl [Hu0]; · iexact Hu0
    isplitl [Ha3]; · rw [dev7_eq c]; iexact Ha3
    isplitl [HO]; · iexact HO
    isplitl [HtS3]; · iexact HtS3
    iexact HtR3
  iintro ⟨HcS3, HO⟩
  -- the waits of transfer 1, then the addition into part 1
  iapply (wp_wait_snd m K c 1 4 (wpE_waitDma2_eq 𝒱₀ (c : Thread nD τ) none Set.univ) snd_sem_1 rfl) $$ [HcS1 HO HpS1]
  · isplitr; · iexact Hrec
    isplitr; · iexact Hlev
    isplitl [HcS1]; · iexact HcS1
    isplitl [HO]; · iexact HO
    iexact HpS1
  iintro ⟨HO, HpS1, Hsp1⟩
  ihave Hq1 := (Entails.of_eq (sendPay_1 m c)) $$ Hsp1
  iapply (wp_wait_rcv m K c 1 4 (by decide) (wpE_waitDma2_eq 𝒱₀ (c : Thread nD τ) none Set.univ) rcv_sem_1 rfl) $$ [HcR1 HO HpR1]
  · isplitr; · iexact Hrec
    isplitr; · iexact Hlev
    isplitl [HcR1]; · iexact HcR1
    isplitl [HO]; · iexact HO
    iexact HpR1
  iintro ⟨HO, HpR1, Hrp1⟩
  ihave Hr1 := (Entails.of_eq (recvPay_1 m c)) $$ Hrp1
  iapply (wp_load_rect 𝒱₀ (c : Thread nD τ) none Set.univ (m := oM) (r := oR1) (S := oSet 1) (Finset.Subset.refl _)) $$ Hq1; iintro Hq1
  iapply (wp_load_rect 𝒱₀ (c : Thread nD τ) none Set.univ (m := rM) (r := rR1) (S := rSet 1) (by rw [rA1_set])) $$ Hr1; iintro Hr1
  iapply (wp_load_rect 𝒱₀ (c : Thread nD τ) none Set.univ (m := oM) (r := oR1) (S := oSet 1) (Finset.Subset.refl _)) $$ Hq1; iintro Hq1
  iapply (wp_store 𝒱₀ (c : Thread nD τ) none Set.univ (m := oM) (r := oR1) (Mk := Finset.univ) (S := oSet 1) (Finset.Subset.refl _)) $$ Hq1; iintro Hq1
  ihave Hu1 := (conv_o1 c (oB10 m c) _) $$ Hq1
  -- transfer 4: part 1, step 1
  rw [show Osend c 4 = Osend c 5 + Tn c 4 from Osend_succ c 4]
  iapply (wp_snd m K c 4 (Osend c 5) _ (dev8_eq c) snd_sem_4 rcv_sem_4 (src := oSl1) (dst := rSl4) (oB11 m c) fa4 rfl (pay1_4 m c) (pay2_4 m c _ (dev8_eq c) fa4)) $$ [Hu1 Ha4 HO HtS4 HtR4]
  · isplitr; · iexact Hrec
    isplitl [Hu1]; · iexact Hu1
    isplitl [Ha4]; · rw [dev8_eq c]; iexact Ha4
    isplitl [HO]; · iexact HO
    isplitl [HtS4]; · iexact HtS4
    iexact HtR4
  iintro ⟨HcS4, HO⟩
  -- the waits of transfer 2, then the addition into part 2
  iapply (wp_wait_snd m K c 2 5 (wpE_waitDma2_eq 𝒱₀ (c : Thread nD τ) none Set.univ) snd_sem_2 rfl) $$ [HcS2 HO HpS2]
  · isplitr; · iexact Hrec
    isplitr; · iexact Hlev
    isplitl [HcS2]; · iexact HcS2
    isplitl [HO]; · iexact HO
    iexact HpS2
  iintro ⟨HO, HpS2, Hsp2⟩
  ihave Hq2 := (Entails.of_eq (sendPay_2 m c)) $$ Hsp2
  iapply (wp_wait_rcv m K c 2 5 (by decide) (wpE_waitDma2_eq 𝒱₀ (c : Thread nD τ) none Set.univ) rcv_sem_2 rfl) $$ [HcR2 HO HpR2]
  · isplitr; · iexact Hrec
    isplitr; · iexact Hlev
    isplitl [HcR2]; · iexact HcR2
    isplitl [HO]; · iexact HO
    iexact HpR2
  iintro ⟨HO, HpR2, Hrp2⟩
  ihave Hr2 := (Entails.of_eq (recvPay_2 m c)) $$ Hrp2
  iapply (wp_load_rect 𝒱₀ (c : Thread nD τ) none Set.univ (m := oM) (r := oR2) (S := oSet 2) (Finset.Subset.refl _)) $$ Hq2; iintro Hq2
  iapply (wp_load_rect 𝒱₀ (c : Thread nD τ) none Set.univ (m := rM) (r := rR2) (S := rSet 2) (by rw [rA2_set])) $$ Hr2; iintro Hr2
  iapply (wp_load_rect 𝒱₀ (c : Thread nD τ) none Set.univ (m := oM) (r := oR2) (S := oSet 2) (Finset.Subset.refl _)) $$ Hq2; iintro Hq2
  iapply (wp_store 𝒱₀ (c : Thread nD τ) none Set.univ (m := oM) (r := oR2) (Mk := Finset.univ) (S := oSet 2) (Finset.Subset.refl _)) $$ Hq2; iintro Hq2
  ihave Hu2 := (conv_o2 c (oB20 m c) _) $$ Hq2
  -- transfer 5: part 2, step 1
  rw [show Osend c 5 = Osend c 6 + Tn c 5 from Osend_succ c 5]
  iapply (wp_snd m K c 5 (Osend c 6) _ (dev9_eq c) snd_sem_5 rcv_sem_5 (src := oSl2) (dst := rSl5) (oB21 m c) fa5 rfl (pay1_5 m c) (pay2_5 m c _ (dev9_eq c) fa5)) $$ [Hu2 Ha5 HO HtS5 HtR5]
  · isplitr; · iexact Hrec
    isplitl [Hu2]; · iexact Hu2
    isplitl [Ha5]; · rw [dev9_eq c]; iexact Ha5
    isplitl [HO]; · iexact HO
    isplitl [HtS5]; · iexact HtS5
    iexact HtR5
  iintro ⟨HcS5, HO⟩
  -- the waits of transfer 3, then the addition into part 0
  iapply (wp_wait_snd m K c 3 6 (wpE_waitDma2_eq 𝒱₀ (c : Thread nD τ) none Set.univ) snd_sem_3 rfl) $$ [HcS3 HO HpS3]
  · isplitr; · iexact Hrec
    isplitr; · iexact Hlev
    isplitl [HcS3]; · iexact HcS3
    isplitl [HO]; · iexact HO
    iexact HpS3
  iintro ⟨HO, HpS3, Hsp3⟩
  ihave Hq3 := (Entails.of_eq (sendPay_3 m c)) $$ Hsp3
  iapply (wp_wait_rcv m K c 3 6 (by decide) (wpE_waitDma2_eq 𝒱₀ (c : Thread nD τ) none Set.univ) rcv_sem_3 rfl) $$ [HcR3 HO HpR3]
  · isplitr; · iexact Hrec
    isplitr; · iexact Hlev
    isplitl [HcR3]; · iexact HcR3
    isplitl [HO]; · iexact HO
    iexact HpR3
  iintro ⟨HO, HpR3, Hrp3⟩
  ihave Hr3 := (Entails.of_eq (recvPay_3 m c)) $$ Hrp3
  iapply (wp_load_rect 𝒱₀ (c : Thread nD τ) none Set.univ (m := oM) (r := oR0) (S := oSet 0) (Finset.Subset.refl _)) $$ Hq3; iintro Hq3
  iapply (wp_load_rect 𝒱₀ (c : Thread nD τ) none Set.univ (m := rM) (r := rR3) (S := rSet 3) (by rw [rA3_set])) $$ Hr3; iintro Hr3
  iapply (wp_load_rect 𝒱₀ (c : Thread nD τ) none Set.univ (m := oM) (r := oR0) (S := oSet 0) (Finset.Subset.refl _)) $$ Hq3; iintro Hq3
  iapply (wp_store 𝒱₀ (c : Thread nD τ) none Set.univ (m := oM) (r := oR0) (Mk := Finset.univ) (S := oSet 0) (Finset.Subset.refl _)) $$ Hq3; iintro Hq3
  ihave Hu3 := (conv_o0 c (oB01 m c) _) $$ Hq3
  -- transfer 6: part 0, step 2
  rw [show Osend c 6 = Osend c 7 + Tn c 6 from Osend_succ c 6]
  iapply (wp_snd m K c 6 (Osend c 7) _ (dev10_eq c) snd_sem_6 rcv_sem_6 (src := oSl0) (dst := rSl6) (oB02 m c) fa6 rfl (pay1_6 m c) (pay2_6 m c _ (dev10_eq c) fa6)) $$ [Hu3 Ha6 HO HtS6 HtR6]
  · isplitr; · iexact Hrec
    isplitl [Hu3]; · iexact Hu3
    isplitl [Ha6]; · rw [dev10_eq c]; iexact Ha6
    isplitl [HO]; · iexact HO
    isplitl [HtS6]; · iexact HtS6
    iexact HtR6
  iintro ⟨HcS6, HO⟩
  -- the waits of transfer 4, then the addition into part 1
  iapply (wp_wait_snd m K c 4 7 (wpE_waitDma2_eq 𝒱₀ (c : Thread nD τ) none Set.univ) snd_sem_4 rfl) $$ [HcS4 HO HpS4]
  · isplitr; · iexact Hrec
    isplitr; · iexact Hlev
    isplitl [HcS4]; · iexact HcS4
    isplitl [HO]; · iexact HO
    iexact HpS4
  iintro ⟨HO, HpS4, Hsp4⟩
  ihave Hq4 := (Entails.of_eq (sendPay_4 m c)) $$ Hsp4
  iapply (wp_wait_rcv m K c 4 7 (by decide) (wpE_waitDma2_eq 𝒱₀ (c : Thread nD τ) none Set.univ) rcv_sem_4 rfl) $$ [HcR4 HO HpR4]
  · isplitr; · iexact Hrec
    isplitr; · iexact Hlev
    isplitl [HcR4]; · iexact HcR4
    isplitl [HO]; · iexact HO
    iexact HpR4
  iintro ⟨HO, HpR4, Hrp4⟩
  ihave Hr4 := (Entails.of_eq (recvPay_4 m c)) $$ Hrp4
  iapply (wp_load_rect 𝒱₀ (c : Thread nD τ) none Set.univ (m := oM) (r := oR1) (S := oSet 1) (Finset.Subset.refl _)) $$ Hq4; iintro Hq4
  iapply (wp_load_rect 𝒱₀ (c : Thread nD τ) none Set.univ (m := rM) (r := rR4) (S := rSet 4) (by rw [rA4_set])) $$ Hr4; iintro Hr4
  iapply (wp_load_rect 𝒱₀ (c : Thread nD τ) none Set.univ (m := oM) (r := oR1) (S := oSet 1) (Finset.Subset.refl _)) $$ Hq4; iintro Hq4
  iapply (wp_store 𝒱₀ (c : Thread nD τ) none Set.univ (m := oM) (r := oR1) (Mk := Finset.univ) (S := oSet 1) (Finset.Subset.refl _)) $$ Hq4; iintro Hq4
  ihave Hu4 := (conv_o1 c (oB11 m c) _) $$ Hq4
  -- transfer 7: part 1, step 2
  rw [show Osend c 7 = Osend c 8 + Tn c 7 from Osend_succ c 7]
  iapply (wp_snd m K c 7 (Osend c 8) _ (dev11_eq c) snd_sem_7 rcv_sem_7 (src := oSl1) (dst := rSl7) (oB12 m c) fa7 rfl (pay1_7 m c) (pay2_7 m c _ (dev11_eq c) fa7)) $$ [Hu4 Ha7 HO HtS7 HtR7]
  · isplitr; · iexact Hrec
    isplitl [Hu4]; · iexact Hu4
    isplitl [Ha7]; · rw [dev11_eq c]; iexact Ha7
    isplitl [HO]; · iexact HO
    isplitl [HtS7]; · iexact HtS7
    iexact HtR7
  iintro ⟨HcS7, HO⟩
  -- the waits of transfer 5, then the addition into part 2
  iapply (wp_wait_snd m K c 5 8 (wpE_waitDma2_eq 𝒱₀ (c : Thread nD τ) none Set.univ) snd_sem_5 rfl) $$ [HcS5 HO HpS5]
  · isplitr; · iexact Hrec
    isplitr; · iexact Hlev
    isplitl [HcS5]; · iexact HcS5
    isplitl [HO]; · iexact HO
    iexact HpS5
  iintro ⟨HO, HpS5, Hsp5⟩
  ihave Hq5 := (Entails.of_eq (sendPay_5 m c)) $$ Hsp5
  iapply (wp_wait_rcv m K c 5 8 (by decide) (wpE_waitDma2_eq 𝒱₀ (c : Thread nD τ) none Set.univ) rcv_sem_5 rfl) $$ [HcR5 HO HpR5]
  · isplitr; · iexact Hrec
    isplitr; · iexact Hlev
    isplitl [HcR5]; · iexact HcR5
    isplitl [HO]; · iexact HO
    iexact HpR5
  iintro ⟨HO, HpR5, Hrp5⟩
  ihave Hr5 := (Entails.of_eq (recvPay_5 m c)) $$ Hrp5
  iapply (wp_load_rect 𝒱₀ (c : Thread nD τ) none Set.univ (m := oM) (r := oR2) (S := oSet 2) (Finset.Subset.refl _)) $$ Hq5; iintro Hq5
  iapply (wp_load_rect 𝒱₀ (c : Thread nD τ) none Set.univ (m := rM) (r := rR5) (S := rSet 5) (by rw [rA5_set])) $$ Hr5; iintro Hr5
  iapply (wp_load_rect 𝒱₀ (c : Thread nD τ) none Set.univ (m := oM) (r := oR2) (S := oSet 2) (Finset.Subset.refl _)) $$ Hq5; iintro Hq5
  iapply (wp_store 𝒱₀ (c : Thread nD τ) none Set.univ (m := oM) (r := oR2) (Mk := Finset.univ) (S := oSet 2) (Finset.Subset.refl _)) $$ Hq5; iintro Hq5
  ihave Hu5 := (conv_o2 c (oB21 m c) _) $$ Hq5
  -- transfer 8: part 2, step 2
  rw [show Osend c 8 = Osend c 9 + Tn c 8 from Osend_succ c 8]
  iapply (wp_snd m K c 8 (Osend c 9) _ (dev12_eq c) snd_sem_8 rcv_sem_8 (src := oSl2) (dst := rSl8) (oB22 m c) fa8 rfl (pay1_8 m c) (pay2_8 m c _ (dev12_eq c) fa8)) $$ [Hu5 Ha8 HO HtS8 HtR8]
  · isplitr; · iexact Hrec
    isplitl [Hu5]; · iexact Hu5
    isplitl [Ha8]; · rw [dev12_eq c]; iexact Ha8
    isplitl [HO]; · iexact HO
    isplitl [HtS8]; · iexact HtS8
    iexact HtR8
  iintro ⟨HcS8, HO⟩
  -- the waits of transfer 6, then the addition into part 0
  iapply (wp_wait_snd m K c 6 9 (wpE_waitDma2_eq 𝒱₀ (c : Thread nD τ) none Set.univ) snd_sem_6 rfl) $$ [HcS6 HO HpS6]
  · isplitr; · iexact Hrec
    isplitr; · iexact Hlev
    isplitl [HcS6]; · iexact HcS6
    isplitl [HO]; · iexact HO
    iexact HpS6
  iintro ⟨HO, HpS6, Hsp6⟩
  ihave Hq6 := (Entails.of_eq (sendPay_6 m c)) $$ Hsp6
  iapply (wp_wait_rcv m K c 6 9 (by decide) (wpE_waitDma2_eq 𝒱₀ (c : Thread nD τ) none Set.univ) rcv_sem_6 rfl) $$ [HcR6 HO HpR6]
  · isplitr; · iexact Hrec
    isplitr; · iexact Hlev
    isplitl [HcR6]; · iexact HcR6
    isplitl [HO]; · iexact HO
    iexact HpR6
  iintro ⟨HO, HpR6, Hrp6⟩
  ihave Hr6 := (Entails.of_eq (recvPay_6 m c)) $$ Hrp6
  iapply (wp_load_rect 𝒱₀ (c : Thread nD τ) none Set.univ (m := oM) (r := oR0) (S := oSet 0) (Finset.Subset.refl _)) $$ Hq6; iintro Hq6
  iapply (wp_load_rect 𝒱₀ (c : Thread nD τ) none Set.univ (m := rM) (r := rR6) (S := rSet 6) (by rw [rA6_set])) $$ Hr6; iintro Hr6
  iapply (wp_load_rect 𝒱₀ (c : Thread nD τ) none Set.univ (m := oM) (r := oR0) (S := oSet 0) (Finset.Subset.refl _)) $$ Hq6; iintro Hq6
  iapply (wp_store 𝒱₀ (c : Thread nD τ) none Set.univ (m := oM) (r := oR0) (Mk := Finset.univ) (S := oSet 0) (Finset.Subset.refl _)) $$ Hq6; iintro Hq6
  ihave Hu6 := (conv_o0 c (oB02 m c) _) $$ Hq6
  -- the waits of transfer 7, then the addition into part 1
  iapply (wp_wait_snd m K c 7 9 (wpE_waitDma2_eq 𝒱₀ (c : Thread nD τ) none Set.univ) snd_sem_7 rfl) $$ [HcS7 HO HpS7]
  · isplitr; · iexact Hrec
    isplitr; · iexact Hlev
    isplitl [HcS7]; · iexact HcS7
    isplitl [HO]; · iexact HO
    iexact HpS7
  iintro ⟨HO, HpS7, Hsp7⟩
  ihave Hq7 := (Entails.of_eq (sendPay_7 m c)) $$ Hsp7
  iapply (wp_wait_rcv m K c 7 9 (by decide) (wpE_waitDma2_eq 𝒱₀ (c : Thread nD τ) none Set.univ) rcv_sem_7 rfl) $$ [HcR7 HO HpR7]
  · isplitr; · iexact Hrec
    isplitr; · iexact Hlev
    isplitl [HcR7]; · iexact HcR7
    isplitl [HO]; · iexact HO
    iexact HpR7
  iintro ⟨HO, HpR7, Hrp7⟩
  ihave Hr7 := (Entails.of_eq (recvPay_7 m c)) $$ Hrp7
  iapply (wp_load_rect 𝒱₀ (c : Thread nD τ) none Set.univ (m := oM) (r := oR1) (S := oSet 1) (Finset.Subset.refl _)) $$ Hq7; iintro Hq7
  iapply (wp_load_rect 𝒱₀ (c : Thread nD τ) none Set.univ (m := rM) (r := rR7) (S := rSet 7) (by rw [rA7_set])) $$ Hr7; iintro Hr7
  iapply (wp_load_rect 𝒱₀ (c : Thread nD τ) none Set.univ (m := oM) (r := oR1) (S := oSet 1) (Finset.Subset.refl _)) $$ Hq7; iintro Hq7
  iapply (wp_store 𝒱₀ (c : Thread nD τ) none Set.univ (m := oM) (r := oR1) (Mk := Finset.univ) (S := oSet 1) (Finset.Subset.refl _)) $$ Hq7; iintro Hq7
  ihave Hu7 := (conv_o1 c (oB12 m c) _) $$ Hq7
  -- the waits of transfer 8, then the addition into part 2
  iapply (wp_wait_snd m K c 8 9 (wpE_waitDma2_eq 𝒱₀ (c : Thread nD τ) none Set.univ) snd_sem_8 rfl) $$ [HcS8 HO HpS8]
  · isplitr; · iexact Hrec
    isplitr; · iexact Hlev
    isplitl [HcS8]; · iexact HcS8
    isplitl [HO]; · iexact HO
    iexact HpS8
  iintro ⟨HO, HpS8, Hsp8⟩
  ihave Hq8 := (Entails.of_eq (sendPay_8 m c)) $$ Hsp8
  iapply (wp_wait_rcv m K c 8 9 (by decide) (wpE_waitDma2_eq 𝒱₀ (c : Thread nD τ) none Set.univ) rcv_sem_8 rfl) $$ [HcR8 HO HpR8]
  · isplitr; · iexact Hrec
    isplitr; · iexact Hlev
    isplitl [HcR8]; · iexact HcR8
    isplitl [HO]; · iexact HO
    iexact HpR8
  iintro ⟨HO, HpR8, Hrp8⟩
  ihave Hr8 := (Entails.of_eq (recvPay_8 m c)) $$ Hrp8
  iapply (wp_load_rect 𝒱₀ (c : Thread nD τ) none Set.univ (m := oM) (r := oR2) (S := oSet 2) (Finset.Subset.refl _)) $$ Hq8; iintro Hq8
  iapply (wp_load_rect 𝒱₀ (c : Thread nD τ) none Set.univ (m := rM) (r := rR8) (S := rSet 8) (by rw [rA8_set])) $$ Hr8; iintro Hr8
  iapply (wp_load_rect 𝒱₀ (c : Thread nD τ) none Set.univ (m := oM) (r := oR2) (S := oSet 2) (Finset.Subset.refl _)) $$ Hq8; iintro Hq8
  iapply (wp_store 𝒱₀ (c : Thread nD τ) none Set.univ (m := oM) (r := oR2) (Mk := Finset.univ) (S := oSet 2) (Finset.Subset.refl _)) $$ Hq8; iintro Hq8
  ihave Hu8 := (conv_o2 c (oB22 m c) _) $$ Hq8
  -- the eighteen scoped cells close at zero
  imod (close_snd m K c 0) $$ [HpS0] with HzS0
  · isplitr; · iexact Hrec
    iexact HpS0
  imod (close_rcv m K c 0) $$ [HpR0] with HzR0
  · isplitr; · iexact Hrec
    iexact HpR0
  imod (close_snd m K c 1) $$ [HpS1] with HzS1
  · isplitr; · iexact Hrec
    iexact HpS1
  imod (close_rcv m K c 1) $$ [HpR1] with HzR1
  · isplitr; · iexact Hrec
    iexact HpR1
  imod (close_snd m K c 2) $$ [HpS2] with HzS2
  · isplitr; · iexact Hrec
    iexact HpS2
  imod (close_rcv m K c 2) $$ [HpR2] with HzR2
  · isplitr; · iexact Hrec
    iexact HpR2
  imod (close_snd m K c 3) $$ [HpS3] with HzS3
  · isplitr; · iexact Hrec
    iexact HpS3
  imod (close_rcv m K c 3) $$ [HpR3] with HzR3
  · isplitr; · iexact Hrec
    iexact HpR3
  imod (close_snd m K c 4) $$ [HpS4] with HzS4
  · isplitr; · iexact Hrec
    iexact HpS4
  imod (close_rcv m K c 4) $$ [HpR4] with HzR4
  · isplitr; · iexact Hrec
    iexact HpR4
  imod (close_snd m K c 5) $$ [HpS5] with HzS5
  · isplitr; · iexact Hrec
    iexact HpS5
  imod (close_rcv m K c 5) $$ [HpR5] with HzR5
  · isplitr; · iexact Hrec
    iexact HpR5
  imod (close_snd m K c 6) $$ [HpS6] with HzS6
  · isplitr; · iexact Hrec
    iexact HpS6
  imod (close_rcv m K c 6) $$ [HpR6] with HzR6
  · isplitr; · iexact Hrec
    iexact HpR6
  imod (close_snd m K c 7) $$ [HpS7] with HzS7
  · isplitr; · iexact Hrec
    iexact HpS7
  imod (close_rcv m K c 7) $$ [HpR7] with HzR7
  · isplitr; · iexact Hrec
    iexact HpR7
  imod (close_snd m K c 8) $$ [HpS8] with HzS8
  · isplitr; · iexact Hrec
    iexact HpS8
  imod (close_rcv m K c 8) $$ [HpR8] with HzR8
  · isplitr; · iexact Hrec
    iexact HpR8
  rw [wp_ret]; imodintro
  iapply Hk
  unfold bodyPost Φ₁ Dat.owesAt Pipeline.owesWithin
  rw [show (dats m 0 c).owed t₀.succ = 0 from rfl, Osend_nine]
  isplitl [Hr0 Hr1 Hr2 Hr3 Hr4 Hr5 Hr6 Hr7 Hr8 HzS0 HzR0 HzS1 HzR1 HzS2 HzR2 HzS3 HzR3 HzS4 HzR4 HzS5 HzR5 HzS6 HzR6 HzS7 HzR7 HzS8 HzR8]
  · isplitl [Hr0 Hr1 Hr2 Hr3 Hr4 Hr5 Hr6 Hr7 Hr8]
    · iapply (scr_join c)
      unfold scrR
      isplitl [Hr0]; · iexists _; iexact Hr0
      isplitl [Hr1]; · iexists _; iexact Hr1
      isplitl [Hr2]; · iexists _; iexact Hr2
      isplitl [Hr3]; · iexists _; iexact Hr3
      isplitl [Hr4]; · iexists _; iexact Hr4
      isplitl [Hr5]; · iexists _; iexact Hr5
      isplitl [Hr6]; · iexists _; iexact Hr6
      isplitl [Hr7]; · iexists _; iexact Hr7
      iexists _; iexact Hr8
    · rw [chain18]
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      iexact HzR8
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iapply (out_join m c)
  unfold outR
  isplitl [Hu6]; · iexact Hu6
  isplitl [Hu7]; · iexact Hu7
  iexact Hu8

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.KernelIdeal.Hand

end
-- ==== Proof.ProtoW.lean ====
/-
  The protocol of the eight-device butterfly all-reduce.

  Every device holds a 512×512 block. The rows are cut in three parts (rows 0–175, 176–351, 352–511). Each part is
  summed over the eight devices in three exchange steps: at step s a device sends its running sum of the part to the
  device whose position differs from its own by the step's mask (1, 3 or 4, taken in a different cyclic order for each
  part), receives that device's running sum, and adds it. The three masks are linearly independent over GF(2), so
  after three steps every part holds the sum over all eight devices.

  This module fixes the vocabulary: the partner map, the semaphore cells (one barrier cell, nine send and nine receive
  cells per device; transfer number n = 3·step + part), the row regions of the result buffer and of the landing
  buffer, and the contents each region holds at each step, as terms over the argument blocks.
-/
import proofs.«900389_g7700000000000390_dist_rs_then_ag_i_m512_n512_v7x_i8_bf16_1_alg».proof.Proof.Gen.Kernel
import proofs.«900389_g7700000000000390_dist_rs_then_ag_i_m512_n512_v7x_i8_bf16_1_alg».proof.Proof.Gen.Kernel.Skeleton
import proofs.«900389_g7700000000000390_dist_rs_then_ag_i_m512_n512_v7x_i8_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds of the exchange (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The three masks. -/
abbrev msk : Fin 3 → ℕ := ![1, 3, 4]

/-- The device whose position differs from `c`'s by mask `k`. -/
def peer (c : Dev nD) (k : Fin 3) : Dev nD := ⟨(c.val ^^^ msk k) % 8, Nat.mod_lt _ (by decide)⟩

theorem peer_peer (c : Dev nD) (k : Fin 3) : peer (peer c k) k = c := by revert c k; decide

/-- The mask of transfer `n = 3·step + part`: mask number `(part + step) mod 3`. -/
def kOf (n : Fin 9) : Fin 3 := ⟨(n.val % 3 + n.val / 3) % 3, Nat.mod_lt _ (by decide)⟩

/-- The three transfers that use mask `k`, one per step `j`. -/
def nOf (k j : Fin 3) : Fin 9 := ⟨3 * j.val + (k.val + 2 * j.val) % 3, by have := j.isLt; omega⟩

theorem kOf_nOf (k j : Fin 3) : kOf (nOf k j) = k := by revert k j; decide

def peerEquiv (k : Fin 3) : Dev nD ≃ Dev nD := ⟨fun c => peer c k, fun c => peer c k, fun c => peer_peer c k, fun c => peer_peer c k⟩

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel

/-! ## Memrefs, rectangles, regions -/

abbrev xM : Memref sig .tc .vmem S512x512 .f32 := Memref.whole cc0_stg0_0
abbrev oM : Memref sig .tc .vmem S512x512 .bf16 := Memref.whole cc0_stg1_0
abbrev rM : Memref sig .tc .vmem S3x512x512 .bf16 := Memref.whole cc0_scratch0

abbrev oR0 : Rect S512x512 := Rect.unit (s := S512x512) ![0, 0] S176x512.size inb_S512x512_S176x512_0_0
abbrev oR1 : Rect S512x512 := Rect.unit (s := S512x512) ![176, 0] S176x512.size inb_S512x512_S176x512_176_0
abbrev oR2 : Rect S512x512 := Rect.unit (s := S512x512) ![352, 0] S160x512.size inb_S512x512_S160x512_352_0
abbrev rR0 : Rect S3x512x512 := Rect.unit (s := S3x512x512) ![0, 0, 0] S1x176x512.size inb_S3x512x512_S1x176x512_0_0_0
abbrev rR1 : Rect S3x512x512 := Rect.unit (s := S3x512x512) ![0, 176, 0] S1x176x512.size inb_S3x512x512_S1x176x512_0_176_0
abbrev rR2 : Rect S3x512x512 := Rect.unit (s := S3x512x512) ![0, 352, 0] S1x160x512.size inb_S3x512x512_S1x160x512_0_352_0
abbrev rR3 : Rect S3x512x512 := Rect.unit (s := S3x512x512) ![1, 0, 0] S1x176x512.size inb_S3x512x512_S1x176x512_1_0_0
abbrev rR4 : Rect S3x512x512 := Rect.unit (s := S3x512x512) ![1, 176, 0] S1x176x512.size inb_S3x512x512_S1x176x512_1_176_0
abbrev rR5 : Rect S3x512x512 := Rect.unit (s := S3x512x512) ![1, 352, 0] S1x160x512.size inb_S3x512x512_S1x160x512_1_352_0
abbrev rR6 : Rect S3x512x512 := Rect.unit (s := S3x512x512) ![2, 0, 0] S1x176x512.size inb_S3x512x512_S1x176x512_2_0_0
abbrev rR7 : Rect S3x512x512 := Rect.unit (s := S3x512x512) ![2, 176, 0] S1x176x512.size inb_S3x512x512_S1x176x512_2_176_0
abbrev rR8 : Rect S3x512x512 := Rect.unit (s := S3x512x512) ![2, 352, 0] S1x160x512.size inb_S3x512x512_S1x160x512_2_352_0

/-- The semaphores: the runtime's barrier semaphore; send and receive semaphore of transfer `n`. -/
abbrev barS : Sem sig := (SemArray.scalar (sig.barrier 0 rfl) : Sems sig S_).sem
abbrev sndS (n : Fin 9) : DmaSem sig := ⟨2 + n.val, by have := n.isLt; show _ < 20; omega⟩
abbrev rcvS (n : Fin 9) : DmaSem sig := ⟨11 + n.val, by have := n.isLt; show _ < 20; omega⟩

abbrev barCell (c : Dev nD) : GSem nD τ sig := ((c : Thread nD τ), .reg barS)
abbrev sendCell (c : Dev nD) (n : Fin 9) : GSem nD τ sig := ((c : Thread nD τ), .dma (sndS n))
abbrev recvCell (c : Dev nD) (n : Fin 9) : GSem nD τ sig := ((c : Thread nD τ), .dma (rcvS n))

/-- A device's nineteen cells: the barrier, the nine send cells, the nine receive cells. -/
def csem (k : Fin 19) : SemLoc sig :=
  if h : k.val = 0 then .reg barS
  else if h9 : k.val < 10 then .dma (sndS ⟨k.val - 1, by omega⟩)
  else .dma (rcvS ⟨k.val - 10, by have := k.isLt; omega⟩)
abbrev kcell (ck : Dev nD × Fin 19) : GSem nD τ sig := ((ck.1 : Thread nD τ), csem ck.2)
def kSnd (n : Fin 9) : Fin 19 := ⟨1 + n.val, by have := n.isLt; omega⟩
def kRcv (n : Fin 9) : Fin 19 := ⟨10 + n.val, by have := n.isLt; omega⟩
theorem kcell_bar (c : Dev nD) : kcell (c, 0) = barCell c := rfl
theorem csem_snd (n : Fin 9) : csem (kSnd n) = .dma (sndS n) := by revert n; decide
theorem csem_rcv (n : Fin 9) : csem (kRcv n) = .dma (rcvS n) := by revert n; decide
theorem kcell_snd (c : Dev nD) (n : Fin 9) : kcell (c, kSnd n) = sendCell c n := by show ((c : Thread nD τ), csem (kSnd n)) = _; rw [csem_snd]
theorem kcell_rcv (c : Dev nD) (n : Fin 9) : kcell (c, kRcv n) = recvCell c n := by show ((c : Thread nD τ), csem (kRcv n)) = _; rw [csem_rcv]

/-- The kernel's own (scoped) semaphores, as the launch indexes them. -/
def osem (j : Fin 18) : SemLoc sig := csem ⟨j.val + 1, by have := j.isLt; omega⟩

/-- The credit of a transfer of part `p`'s rows. -/
abbrev NA : ℕ := (oM.access oR0 : View sig .tc .vmem _ .bf16).dmaCredit
abbrev NB : ℕ := (oM.access oR2 : View sig .tc .vmem _ .bf16).dmaCredit
def Nn (n : Fin 9) : ℕ := if n.val % 3 = 2 then NB else NA
theorem NA_pos : 0 < NA := View.dmaCredit_pos _ (by decide)
theorem NB_pos : 0 < NB := View.dmaCredit_pos _ (by decide)
theorem Nn_pos (n : Fin 9) : 0 < Nn n := by unfold Nn; split; exact NB_pos; exact NA_pos

/-! ## Contents -/

/-- Device `c`'s block of the argument, as staged. -/
def xstg (c : Dev nD) : (cc0_stg0_0 : Ref sig .tc).ty.Contents (Elt F) :=
  (win0_0.blk (0 : Fin 1)).view.read (Elt F) (m ((c : Thread nD τ).loc main_arg0))

/-- Fixed contents for the elements a region does not own. -/
def Zo : (cc0_stg1_0 : Ref sig .tc).ty.Contents (Elt F) := fun _ => Classical.arbitrary _
def Zr : (cc0_scratch0 : Ref sig .tc).ty.Contents (Elt F) := fun _ => Classical.arbitrary _

/-- The view a transfer of part `p` reads (rows of the result buffer) and the view transfer `n` writes. -/
abbrev oV0 : View sig .tc .vmem S176x512 .bf16 := oM.access oR0
abbrev oV1 : View sig .tc .vmem S176x512 .bf16 := oM.access oR1
abbrev oV2 : View sig .tc .vmem S160x512 .bf16 := oM.access oR2
abbrev xV0 : View sig .tc .vmem S176x512 .f32 := xM.access oR0
abbrev xV1 : View sig .tc .vmem S176x512 .f32 := xM.access oR1
abbrev xV2 : View sig .tc .vmem S160x512 .f32 := xM.access oR2
abbrev rA0 : View sig .tc .vmem S1x176x512 .bf16 := rM.access rR0
abbrev rV0 : View sig .tc .vmem S176x512 .bf16 := ((rM.slice rR0 (fun _ => rfl)).squeeze S176x512 squeezes_S1x176x512_S176x512).view
abbrev rA1 : View sig .tc .vmem S1x176x512 .bf16 := rM.access rR1
abbrev rV1 : View sig .tc .vmem S176x512 .bf16 := ((rM.slice rR1 (fun _ => rfl)).squeeze S176x512 squeezes_S1x176x512_S176x512).view
abbrev rA2 : View sig .tc .vmem S1x160x512 .bf16 := rM.access rR2
abbrev rV2 : View sig .tc .vmem S160x512 .bf16 := ((rM.slice rR2 (fun _ => rfl)).squeeze S160x512 squeezes_S1x160x512_S160x512).view
abbrev rA3 : View sig .tc .vmem S1x176x512 .bf16 := rM.access rR3
abbrev rV3 : View sig .tc .vmem S176x512 .bf16 := ((rM.slice rR3 (fun _ => rfl)).squeeze S176x512 squeezes_S1x176x512_S176x512).view
abbrev rA4 : View sig .tc .vmem S1x176x512 .bf16 := rM.access rR4
abbrev rV4 : View sig .tc .vmem S176x512 .bf16 := ((rM.slice rR4 (fun _ => rfl)).squeeze S176x512 squeezes_S1x176x512_S176x512).view
abbrev rA5 : View sig .tc .vmem S1x160x512 .bf16 := rM.access rR5
abbrev rV5 : View sig .tc .vmem S160x512 .bf16 := ((rM.slice rR5 (fun _ => rfl)).squeeze S160x512 squeezes_S1x160x512_S160x512).view
abbrev rA6 : View sig .tc .vmem S1x176x512 .bf16 := rM.access rR6
abbrev rV6 : View sig .tc .vmem S176x512 .bf16 := ((rM.slice rR6 (fun _ => rfl)).squeeze S176x512 squeezes_S1x176x512_S176x512).view
abbrev rA7 : View sig .tc .vmem S1x176x512 .bf16 := rM.access rR7
abbrev rV7 : View sig .tc .vmem S176x512 .bf16 := ((rM.slice rR7 (fun _ => rfl)).squeeze S176x512 squeezes_S1x176x512_S176x512).view
abbrev rA8 : View sig .tc .vmem S1x160x512 .bf16 := rM.access rR8
abbrev rV8 : View sig .tc .vmem S160x512 .bf16 := ((rM.slice rR8 (fun _ => rfl)).squeeze S160x512 squeezes_S1x160x512_S160x512).view

/-- The rows of part `p` in the 512×512 buffers: the elements under the view of part `p`. -/
def oSet : Fin 3 → Finset S512x512.Idx
  | 0 => oV0.set | 1 => oV1.set | 2 => oV2.set
/-- The landing region of transfer `n` (slot = step, rows = part) in the 3×512×512 landing buffer. -/
def rSet : Fin 9 → Finset S3x512x512.Idx
  | 0 => rV0.set
  | 1 => rV1.set
  | 2 => rV2.set
  | 3 => rV3.set
  | 4 => rV4.set
  | 5 => rV5.set
  | 6 => rV6.set
  | 7 => rV7.set
  | 8 => rV8.set

/-- What part `p` of device `c`'s result buffer holds after `s` additions (`oB<p><s>`), and what slot `s` of its landing
    buffer holds once transfer `n` has landed (`rB<n>`): the partner's running sum. -/
def oB00 (c : Dev nD) : (cc0_stg1_0 : Ref sig .tc).ty.Contents (Elt F) := oV0.write (Elt F) Zo (k0_pay1 (xV0.read (Elt F) (xstg m c))) Finset.univ
def oB10 (c : Dev nD) : (cc0_stg1_0 : Ref sig .tc).ty.Contents (Elt F) := oV1.write (Elt F) Zo (k0_pay2 (xV1.read (Elt F) (xstg m c))) Finset.univ
def oB20 (c : Dev nD) : (cc0_stg1_0 : Ref sig .tc).ty.Contents (Elt F) := oV2.write (Elt F) Zo (k0_pay3 (xV2.read (Elt F) (xstg m c))) Finset.univ
def rB0 (c : Dev nD) : (cc0_scratch0 : Ref sig .tc).ty.Contents (Elt F) := rV0.write (Elt F) Zr (oV0.read (Elt F) (oB00 m (peer c 0))) Finset.univ
def rB1 (c : Dev nD) : (cc0_scratch0 : Ref sig .tc).ty.Contents (Elt F) := rV1.write (Elt F) Zr (oV1.read (Elt F) (oB10 m (peer c 1))) Finset.univ
def rB2 (c : Dev nD) : (cc0_scratch0 : Ref sig .tc).ty.Contents (Elt F) := rV2.write (Elt F) Zr (oV2.read (Elt F) (oB20 m (peer c 2))) Finset.univ
def oB01 (c : Dev nD) : (cc0_stg1_0 : Ref sig .tc).ty.Contents (Elt F) := oV0.write (Elt F) Zo (k0_pay4 (oV0.read (Elt F) (oB00 m c)) (rA0.read (Elt F) (rB0 m c))) Finset.univ
def oB11 (c : Dev nD) : (cc0_stg1_0 : Ref sig .tc).ty.Contents (Elt F) := oV1.write (Elt F) Zo (k0_pay5 (oV1.read (Elt F) (oB10 m c)) (rA1.read (Elt F) (rB1 m c))) Finset.univ
def oB21 (c : Dev nD) : (cc0_stg1_0 : Ref sig .tc).ty.Contents (Elt F) := oV2.write (Elt F) Zo (k0_pay6 (oV2.read (Elt F) (oB20 m c)) (rA2.read (Elt F) (rB2 m c))) Finset.univ
def rB3 (c : Dev nD) : (cc0_scratch0 : Ref sig .tc).ty.Contents (Elt F) := rV3.write (Elt F) Zr (oV0.read (Elt F) (oB01 m (peer c 1))) Finset.univ
def rB4 (c : Dev nD) : (cc0_scratch0 : Ref sig .tc).ty.Contents (Elt F) := rV4.write (Elt F) Zr (oV1.read (Elt F) (oB11 m (peer c 2))) Finset.univ
def rB5 (c : Dev nD) : (cc0_scratch0 : Ref sig .tc).ty.Contents (Elt F) := rV5.write (Elt F) Zr (oV2.read (Elt F) (oB21 m (peer c 0))) Finset.univ
def oB02 (c : Dev nD) : (cc0_stg1_0 : Ref sig .tc).ty.Contents (Elt F) := oV0.write (Elt F) Zo (k0_pay7 (oV0.read (Elt F) (oB01 m c)) (rA3.read (Elt F) (rB3 m c))) Finset.univ
def oB12 (c : Dev nD) : (cc0_stg1_0 : Ref sig .tc).ty.Contents (Elt F) := oV1.write (Elt F) Zo (k0_pay8 (oV1.read (Elt F) (oB11 m c)) (rA4.read (Elt F) (rB4 m c))) Finset.univ
def oB22 (c : Dev nD) : (cc0_stg1_0 : Ref sig .tc).ty.Contents (Elt F) := oV2.write (Elt F) Zo (k0_pay9 (oV2.read (Elt F) (oB21 m c)) (rA5.read (Elt F) (rB5 m c))) Finset.univ
def rB6 (c : Dev nD) : (cc0_scratch0 : Ref sig .tc).ty.Contents (Elt F) := rV6.write (Elt F) Zr (oV0.read (Elt F) (oB02 m (peer c 2))) Finset.univ
def rB7 (c : Dev nD) : (cc0_scratch0 : Ref sig .tc).ty.Contents (Elt F) := rV7.write (Elt F) Zr (oV1.read (Elt F) (oB12 m (peer c 0))) Finset.univ
def rB8 (c : Dev nD) : (cc0_scratch0 : Ref sig .tc).ty.Contents (Elt F) := rV8.write (Elt F) Zr (oV2.read (Elt F) (oB22 m (peer c 1))) Finset.univ
def oB03 (c : Dev nD) : (cc0_stg1_0 : Ref sig .tc).ty.Contents (Elt F) := oV0.write (Elt F) Zo (k0_pay10 (oV0.read (Elt F) (oB02 m c)) (rA6.read (Elt F) (rB6 m c))) Finset.univ
def oB13 (c : Dev nD) : (cc0_stg1_0 : Ref sig .tc).ty.Contents (Elt F) := oV1.write (Elt F) Zo (k0_pay11 (oV1.read (Elt F) (oB12 m c)) (rA7.read (Elt F) (rB7 m c))) Finset.univ
def oB23 (c : Dev nD) : (cc0_stg1_0 : Ref sig .tc).ty.Contents (Elt F) := oV2.write (Elt F) Zo (k0_pay12 (oV2.read (Elt F) (oB22 m c)) (rA8.read (Elt F) (rB8 m c))) Finset.univ

/-- The result buffer at the end: the three parts put together. -/
def outFinal (c : Dev nD) : (cc0_stg1_0 : Ref sig .tc).ty.Contents (Elt F) :=
  (oSet 2).piecewise (oB23 m c) ((oSet 1).piecewise (oB13 m c) (oB03 m c))

/-- Contents of the source of transfer `n` and of its landing region, by number. -/
def oBn : Fin 9 → Dev nD → (cc0_stg1_0 : Ref sig .tc).ty.Contents (Elt F)
  | 0 => oB00 m
  | 1 => oB10 m
  | 2 => oB20 m
  | 3 => oB01 m
  | 4 => oB11 m
  | 5 => oB21 m
  | 6 => oB02 m
  | 7 => oB12 m
  | 8 => oB22 m
def rBn : Fin 9 → Dev nD → (cc0_scratch0 : Ref sig .tc).ty.Contents (Elt F)
  | 0 => rB0 m
  | 1 => rB1 m
  | 2 => rB2 m
  | 3 => rB3 m
  | 4 => rB4 m
  | 5 => rB5 m
  | 6 => rB6 m
  | 7 => rB7 m
  | 8 => rB8 m
def pOf (n : Fin 9) : Fin 3 := ⟨n.val % 3, Nat.mod_lt _ (by decide)⟩

/-! ## Points-to assertions over regions -/

def scrR (c : Dev nD) (n : Fin 9) (f : (cc0_scratch0 : Ref sig .tc).ty.Contents (Elt F)) : sProp 𝕄 :=
  ((c : Thread nD τ).loc cc0_scratch0) ↦[rSet n]{fullShare} f
def outR (c : Dev nD) (p : Fin 3) (f : (cc0_stg1_0 : Ref sig .tc).ty.Contents (Elt F)) : sProp 𝕄 :=
  ((c : Thread nD τ).loc cc0_stg1_0) ↦[oSet p]{fullShare} f

omit [FloatOps F] in
instance scrR_storable (c : Dev nD) (n) (f) : BI.Storable (upEmb : UEmb _ 𝕄) (scrR (F := F) c n f) := by unfold scrR; infer_instance
omit [FloatOps F] in
instance outR_storable (c : Dev nD) (p) (f) : BI.Storable (upEmb : UEmb _ 𝕄) (outR (F := F) c p f) := by unfold outR; infer_instance

end Cert.Kernel.Hand

end
-- ==== Proof.SchedW.lean ====
/-
  The schedule of the exchange under the rounds discipline, what every device owes at launch, the levels that order the
  waits, and the proof data of the region.

  Cells. A device's barrier cell has one round of three duties, duty k paid by the partner under mask k with one unit;
  with it the partner hands over the three landing regions of ITS landing buffer that this device will fill (the
  transfers whose mask is k), and that its receive cells for them stand at round 0. The receive cell of transfer n has
  one duty, paid by the partner's transfer with the region's credit; it hands over the landing region holding the
  partner's running sum. The send cell of transfer n has one duty, paid by the device's own engine; it hands back the
  rows of the result buffer the transfer read.

  Order. A device waits on its barrier while it owes all nine transfers; on the cells of transfer n while it owes the
  transfers n+3 … 8. With the barrier at level 1, the receive cell of transfer n at level 2+n and every other cell at
  level 0, each wait is below everything the waiter still owes.
-/
import proofs.«900389_g7700000000000390_dist_rs_then_ag_i_m512_n512_v7x_i8_bf16_1_alg».proof.Proof.ProtoW

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- One landing region of device `q`, at some contents, and that `q`'s receive cell for it stands at round 0. -/
def landing (q : Dev nD) (n : Fin 9) : sProp 𝕄 := iprop((∃ f, scrR q n f) ∗ reached ER (recvCell q n) 0)

/-- What the partner under mask `k` hands device `c` with its barrier signal. -/
def barPay (c : Dev nD) (k : Fin 3) : sProp 𝕄 :=
  iprop(landing (peer c k) (nOf k 0) ∗ landing (peer c k) (nOf k 1) ∗ landing (peer c k) (nOf k 2))
def recvPay (c : Dev nD) (n : Fin 9) : sProp 𝕄 := scrR c n (rBn m n c)
def sendPay (c : Dev nD) (n : Fin 9) : sProp 𝕄 := outR c (pOf n) (oBn m n c)

instance landing_storable (q : Dev nD) (n : Fin 9) : BI.Storable (upEmb : UEmb _ 𝕄) (landing (F := F) q n) := by unfold landing; infer_instance
instance barPay_storable (c : Dev nD) (k : Fin 3) : BI.Storable (upEmb : UEmb _ 𝕄) (barPay (F := F) c k) := by unfold barPay; infer_instance
instance recvPay_storable (c : Dev nD) (n : Fin 9) : BI.Storable (upEmb : UEmb _ 𝕄) (recvPay (F := F) m c n) := by unfold recvPay; infer_instance
instance sendPay_storable (c : Dev nD) (n : Fin 9) : BI.Storable (upEmb : UEmb _ 𝕄) (sendPay (F := F) m c n) := by unfold sendPay; infer_instance

/-! ## The schedule -/

def dmaPay (c : Dev nD) (q : DmaSem sig) : sProp 𝕄 :=
  if h : 11 ≤ q.val then recvPay m c ⟨q.val - 11, by have : q.val < 20 := q.isLt; omega⟩
  else if h2 : 2 ≤ q.val then sendPay m c ⟨q.val - 2, by omega⟩ else iprop(emp)

instance dmaPay_storable (c : Dev nD) (q : DmaSem sig) : BI.Storable (upEmb : UEmb _ 𝕄) (dmaPay (F := F) m c q) := by
  unfold dmaPay; split
  · infer_instance
  · split <;> infer_instance

def Rd : Rounds.Schedule (GSem nD τ sig) (Fin 3) 𝕄 where
  duties g r := if r = 0 then (match g.2 with | .reg _ => Finset.univ | .dma q => if 2 ≤ q.val then {0} else ∅) else ∅
  unitless _ := False
  amount g _ _ := match g.2 with | .reg _ => 1 | .dma q => if q.val % 3 = 1 then NB else NA
  payload g _ d := match g.2 with | .reg _ => barPay g.1.1 d | .dma q => dmaPay m g.1.1 q
  amount_pos g _ _ _ := by
    rcases g with ⟨t, (s | q)⟩
    · exact Nat.one_pos
    · show 0 < (if q.val % 3 = 1 then NB else NA); split; exact NB_pos; exact NA_pos

instance Rd_payload_storable (g : GSem nD τ sig) (r : ℕ) (d : Fin 3) :
    BI.Storable (upEmb : UEmb _ 𝕄) ((Rd (F := F) m).payload g r d) := by
  rcases g with ⟨t, (s | q)⟩
  · show BI.Storable upEmb (barPay t.1 d); infer_instance
  · show BI.Storable upEmb (dmaPay m t.1 q); infer_instance

section Sched
variable (c : Dev nD) (n : Fin 9)

theorem duties_bar : (Rd (F := F) m).duties (barCell c) 0 = Finset.univ := rfl
theorem duties_snd : (Rd (F := F) m).duties (sendCell c n) 0 = {0} := by
  show (if (0 : ℕ) = 0 then (if 2 ≤ 2 + n.val then ({0} : Finset (Fin 3)) else ∅) else ∅) = _
  rw [if_pos rfl, if_pos (by omega)]
theorem duties_rcv : (Rd (F := F) m).duties (recvCell c n) 0 = {0} := by
  show (if (0 : ℕ) = 0 then (if 2 ≤ 11 + n.val then ({0} : Finset (Fin 3)) else ∅) else ∅) = _
  rw [if_pos rfl, if_pos (by omega)]
theorem duties_later (g : GSem nD τ sig) : ∀ r, 1 ≤ r → (Rd (F := F) m).duties g r = ∅ :=
  fun r hr => by show (if r = 0 then _ else ∅) = _; rw [if_neg (by omega)]

theorem amount_bar (d : Fin 3) : (Rd (F := F) m).amount (barCell c) 0 d = 1 := rfl
theorem amount_snd (d : Fin 3) : (Rd (F := F) m).amount (sendCell c n) 0 d = Nn n := by
  show (if (2 + n.val) % 3 = 1 then NB else NA) = if n.val % 3 = 2 then NB else NA
  by_cases h : n.val % 3 = 2
  · rw [if_pos h, if_pos (by omega)]
  · rw [if_neg h, if_neg (by omega)]
theorem amount_rcv (d : Fin 3) : (Rd (F := F) m).amount (recvCell c n) 0 d = Nn n := by
  show (if (11 + n.val) % 3 = 1 then NB else NA) = if n.val % 3 = 2 then NB else NA
  by_cases h : n.val % 3 = 2
  · rw [if_pos h, if_pos (by omega)]
  · rw [if_neg h, if_neg (by omega)]

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sendCell c n) 0 = Nn n := by
  unfold Schedule.expect Schedule.amountOf; rw [duties_snd, Finset.sum_singleton, amount_snd]
theorem expect_rcv : (Rd (F := F) m).expect (recvCell c n) 0 = Nn n := by
  unfold Schedule.expect Schedule.amountOf; rw [duties_rcv, Finset.sum_singleton, amount_rcv]

theorem payload_bar (k : Fin 3) : (Rd (F := F) m).payload (barCell c) 0 k = barPay c k := rfl
theorem payload_snd (d : Fin 3) : (Rd (F := F) m).payload (sendCell c n) 0 d = sendPay m c n := by
  show dmaPay m c (sndS n) = _
  unfold dmaPay
  rw [dif_neg (by show ¬ 11 ≤ 2 + n.val; omega), dif_pos (by show 2 ≤ 2 + n.val; omega)]
  congr 1; exact Fin.ext (by show 2 + n.val - 2 = n.val; omega)
theorem payload_rcv (d : Fin 3) : (Rd (F := F) m).payload (recvCell c n) 0 d = recvPay m c n := by
  show dmaPay m c (rcvS n) = _
  unfold dmaPay
  rw [dif_pos (by show 11 ≤ 11 + n.val; omega)]
  congr 1; exact Fin.ext (by show 11 + n.val - 11 = n.val; omega)

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three partners' payloads. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_fin3]; rfl
theorem rest_snd : bigSep ((Rd (F := F) m).duties (sendCell c n) 0 \ ∅) (fun d => (Rd (F := F) m).payload (sendCell c n) 0 d) = sendPay m c n := by
  rw [Finset.sdiff_empty, duties_snd, bigSep_singleton, payload_snd]
theorem rest_rcv : bigSep ((Rd (F := F) m).duties (recvCell c n) 0 \ ∅) (fun d => (Rd (F := F) m).payload (recvCell c n) 0 d) = recvPay m c n := by
  rw [Finset.sdiff_empty, duties_rcv, bigSep_singleton, payload_rcv]

end Sched

/-! ## What each device owes at launch; the levels -/

/-- The credit device `c` owes its partner's receive cell for transfer `n`; the unit it owes the barrier of its partner under mask `k`. -/
def Tn (c : Dev nD) (n : Fin 9) : CellTallies nD τ sig Unit := tallyAt (recvCell (peer c (kOf n)) n) () (Nn n)
def Bk (c : Dev nD) (k : Fin 3) : CellTallies nD τ sig Unit := tallyAt (barCell (peer c k)) () 1

/-- The transfers from number `j` on. -/
def Osend (c : Dev nD) (j : ℕ) : CellTallies nD τ sig Unit := ∑ n ∈ Finset.univ.filter (fun n : Fin 9 => j ≤ n.val), Tn c n

theorem Osend_succ (c : Dev nD) (n : Fin 9) : Osend c n.val = Osend c (n.val + 1) + Tn c n := by
  unfold Osend
  rw [show Finset.univ.filter (fun k : Fin 9 => n.val ≤ k.val) = insert n (Finset.univ.filter (fun k : Fin 9 => n.val + 1 ≤ k.val)) from by
    ext k; simp only [Finset.mem_filter, Finset.mem_univ, true_and, Finset.mem_insert, Fin.ext_iff]; omega]
  rw [Finset.sum_insert (by simp only [Finset.mem_filter, Finset.mem_univ, true_and]; omega), add_comm]

theorem Osend_nine (c : Dev nD) : Osend c 9 = 0 := by
  unfold Osend
  rw [show Finset.univ.filter (fun k : Fin 9 => 9 ≤ k.val) = ∅ from by
    ext k; simp only [Finset.mem_filter, Finset.mem_univ, true_and, Finset.notMem_empty, iff_false]; have := k.isLt; omega]
  rfl

/-- Everything device `c` owes at launch: the nine transfers and the three barrier signals, summed so that the signals
    peel off in program order. -/
def O₀ (c : Dev nD) : CellTallies nD τ sig Unit := Osend c 0 + Bk c 2 + Bk c 1 + Bk c 0

def L (g : GSem nD τ sig) : Finset Unit := if g.1.2 = .tc then {()} else ∅
/-- The barrier at level 1, the receive cell of transfer `n` at level `2 + n`, every other cell at level 0. -/
def lv (g : GSem nD τ sig) (_ : Unit) : ℕ := match g.2 with | .reg _ => 1 | .dma q => if 11 ≤ q.val then q.val - 9 else 0

theorem L_of_ne (g : GSem nD τ sig) (h : g.1.2 ≠ .tc) : L g = ∅ := if_neg h
theorem L_tc (c : Dev nD) (sm : SemLoc sig) : L ((c : Thread nD τ), sm) = {()} := if_pos rfl

theorem lv_rcv (c : Dev nD) (n : Fin 9) : lv (recvCell c n) () = 2 + n.val := by
  show (if 11 ≤ 11 + n.val then 11 + n.val - 9 else 0) = _; rw [if_pos (by omega)]; omega
theorem lv_snd (c : Dev nD) (n : Fin 9) : lv (sendCell c n) () = 0 := by
  show (if 11 ≤ 2 + n.val then 2 + n.val - 9 else 0) = _; rw [if_neg (by have := n.isLt; omega)]
theorem lv_bar (c : Dev nD) : lv (barCell c) () = 1 := rfl

theorem Osend_pos {c : Dev nD} {j : ℕ} {g : GSem nD τ sig} {u : Unit} (h : 0 < Osend c j g u) :
    ∃ n : Fin 9, j ≤ n.val ∧ g = recvCell (peer c (kOf n)) n := by
  unfold Osend at h
  obtain ⟨n, hn, hp⟩ := Pipeline.sum_pos_exists h
  exact ⟨n, (Finset.mem_filter.mp hn).2, (Pipeline.tallyAt_pos hp).1⟩

/-- A wait on a cell of level at most `1 + j` while the device owes the transfers from `j` on. -/
theorem mayWait_Osend (c : Dev nD) (sm : SemLoc sig) (j : ℕ) (hl : lv ((c : Thread nD τ), sm) () < 2 + j) :
    (levAts L lv : sProp 𝕄) ⊢ MayWait (c : Thread nD τ) sm () (Osend c j) :=
  Pipeline.mayWait_of_levAts (by rw [L_tc]; exact Finset.mem_singleton_self _) fun g u hg => by
    obtain ⟨n, hn, rfl⟩ := Osend_pos hg
    refine ⟨by rw [L_tc]; exact Finset.mem_singleton_self _, ?_⟩
    cases u; rw [lv_rcv]; omega

end Cert.Kernel.Hand

end
-- ==== Proof.DataW.lean ====
/-
  The ghost state a device's body starts from and the proof data of the region.

  Every cell's invariant and the fact that round 0 of every cell is reached are persistent and shared by all devices.
  What a device holds alone: its positions at round 0 of its own nineteen cells; the tokens of the duties IT pays (its
  three partners' barrier duties, its nine partners' receive duties, its own nine send duties); the credit tokens for
  the units others owe its cells (three on its barrier, one transfer's credit on each receive cell); and its landing
  buffer. After the body: the landing buffer again, and its eighteen scoped cells closed at zero.
-/
import proofs.«900389_g7700000000000390_dist_rs_then_ag_i_m512_n512_v7x_i8_bf16_1_alg».proof.Proof.SchedW

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Shared by all devices: every cell's invariant under the names `K`, and round 0 of every cell reached. -/
def records (K : Dev nD × Fin 19 → ℕ) : sProp 𝕄 :=
  iprop((bigSep Finset.univ fun ck : Dev nD × Fin 19 => cellInv ER (Rd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) :
    (records m K : sProp 𝕄) ⊢ cellInv ER (Rd m) (K ck) (kcell ck) := by
  have h : (bigSep Finset.univ fun ck : Dev nD × Fin 19 => (cellInv ER (Rd m) (K ck) (kcell ck) : sProp 𝕄)) ⊢ cellInv ER (Rd m) (K ck) (kcell ck) :=
    bigSep_elim (Finset.mem_univ ck)
  unfold records; iintro ⟨H, -⟩; iapply h; iexact H
theorem reached_at (K : Dev nD × Fin 19 → ℕ) (ck : Dev nD × Fin 19) :
    (records m K : sProp 𝕄) ⊢ reached ER (kcell ck) 0 := by
  have h : (bigSep Finset.univ fun ck : Dev nD × Fin 19 => (reached ER (kcell ck) 0 : sProp 𝕄)) ⊢ reached ER (kcell ck) 0 :=
    bigSep_elim (Finset.mem_univ ck)
  unfold records; iintro ⟨-, H⟩; iapply h; iexact H

/-- The tokens of the duties device `c` pays. -/
def payToks (c : Dev nD) : sProp 𝕄 :=
  iprop((bigSep Finset.univ fun k : Fin 3 => dutyTok ER (barCell (peer c k)) 0 k)
    ∗ (bigSep Finset.univ fun n : Fin 9 => dutyTok ER (recvCell (peer c (kOf n)) n) 0 (0 : Fin 3))
    ∗ (bigSep Finset.univ fun n : Fin 9 => dutyTok ER (sendCell c n) 0 (0 : Fin 3)))
/-- Its positions at round 0 of its own cells. -/
def positions (c : Dev nD) : sProp 𝕄 := bigSep Finset.univ fun k : Fin 19 => atPos ER (kcell (c, k)) 0 (∅ : Finset (Fin 3)) 0
def linear (c : Dev nD) : sProp 𝕄 := iprop(positions c ∗ payToks c)
def ghost (K : Dev nD × Fin 19 → ℕ) (c : Dev nD) : sProp 𝕄 := iprop(records m K ∗ linear c)

/-- The credit tokens for what others owe its cells. -/
def creds (c : Dev nD) : sProp 𝕄 :=
  iprop(cred (tallyAt (barCell c) () 3) ∗ bigSep Finset.univ fun n : Fin 9 => cred (tallyAt (recvCell c n) () (Nn n)))

def start (c : Dev nD) : sProp 𝕄 := iprop((∃ K, ghost m K c) ∗ creds c ∗ levAts L lv)

def scrPts (c : Dev nD) (f : (cc0_scratch0 : Ref sig .tc).ty.Contents (Elt F)) : sProp 𝕄 :=
  ((c : Thread nD τ).loc cc0_scratch0) ↦{fullShare} f

def Φ₀ (c : Dev nD) : sProp 𝕄 := iprop(start m c ∗ ∃ f, scrPts c f)
def Φ₁ (c : Dev nD) : sProp 𝕄 := iprop((∃ f, scrPts c f) ∗ bigSep Finset.univ fun j : Fin 18 => semVal (((c : Thread nD τ), osem j) : GSem nD τ sig) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outFinal m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Hand

end
-- ==== Proof.RegionsW.lean ====
/-
  The row regions of the result buffer and of the landing buffer, as sets of indices.

  Part p of the 512×512 buffer is the rows offP p ≤ row < offP p + lenP p (all 512 columns); the three parts are
  pairwise disjoint and cover the buffer. The landing region of transfer n in the 3×512×512 buffer is slot n / 3,
  rows of part n mod 3; the nine regions are pairwise disjoint and cover the buffer.
-/
import proofs.«900389_g7700000000000390_dist_rs_then_ag_i_m512_n512_v7x_i8_bf16_1_alg».proof.Proof.ProtoW

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- First row and number of rows of part `p`. -/
abbrev offP : Fin 3 → ℕ := ![0, 176, 352]
abbrev lenP : Fin 3 → ℕ := ![176, 176, 160]

theorem forall_fin3 {P : Fin 3 → Prop} : (∀ a, P a) ↔ P 0 ∧ P 1 ∧ P 2 :=
  ⟨fun h => ⟨h 0, h 1, h 2⟩, fun ⟨h0, h1, h2⟩ a => by fin_cases a <;> assumption⟩

/-! ## Arithmetic of the three row ranges -/

theorem offP_eq (p : Fin 3) : offP p = 176 * p.val := by fin_cases p <;> rfl
theorem lenP_le (p : Fin 3) : lenP p ≤ 176 := by fin_cases p <;> decide

/-- Every row below 512 lies in one of the three ranges. -/
theorem part_of_row (r : ℕ) (h : r < 512) : ∃ p : Fin 3, offP p ≤ r ∧ r < offP p + lenP p := by
  by_cases ha : r < 176
  · exact ⟨0, by show 0 ≤ r ∧ r < 0 + 176; omega⟩
  · by_cases hb : r < 352
    · exact ⟨1, by show 176 ≤ r ∧ r < 176 + 176; omega⟩
    · exact ⟨2, by show 352 ≤ r ∧ r < 352 + 160; omega⟩

/-- A row lies in at most one of the three ranges. -/
theorem part_unique {p p' : Fin 3} {r : ℕ} (h : offP p ≤ r ∧ r < offP p + lenP p)
    (h' : offP p' ≤ r ∧ r < offP p' + lenP p') : p = p' := by
  have e := offP_eq p; have e' := offP_eq p'; have l := lenP_le p; have l' := lenP_le p'
  exact Fin.ext (by omega)

/-! ## The parts of the 512×512 buffer -/

theorem oV0_set : (oV0 : View sig .tc .vmem S176x512 .bf16).set = oR0.set := View.set_slice_whole _ _
theorem oV1_set : (oV1 : View sig .tc .vmem S176x512 .bf16).set = oR1.set := View.set_slice_whole _ _
theorem oV2_set : (oV2 : View sig .tc .vmem S160x512 .bf16).set = oR2.set := View.set_slice_whole _ _

theorem mem_oR0 (i : S512x512.Idx) : i ∈ oR0.set ↔ 0 ≤ (i 0).val ∧ (i 0).val < 0 + 176 := by
  rw [Rect.mem_set_unit, Fin.forall_fin_two]
  change ((0 ≤ (i 0).val ∧ (i 0).val < 0 + 176) ∧ (0 ≤ (i 1).val ∧ (i 1).val < 0 + 512)) ↔ _
  have h1 : (i 1).val < 512 := (i 1).isLt
  omega

theorem mem_oR1 (i : S512x512.Idx) : i ∈ oR1.set ↔ 176 ≤ (i 0).val ∧ (i 0).val < 176 + 176 := by
  rw [Rect.mem_set_unit, Fin.forall_fin_two]
  change ((176 ≤ (i 0).val ∧ (i 0).val < 176 + 176) ∧ (0 ≤ (i 1).val ∧ (i 1).val < 0 + 512)) ↔ _
  have h1 : (i 1).val < 512 := (i 1).isLt
  omega

theorem mem_oR2 (i : S512x512.Idx) : i ∈ oR2.set ↔ 352 ≤ (i 0).val ∧ (i 0).val < 352 + 160 := by
  rw [Rect.mem_set_unit, Fin.forall_fin_two]
  change ((352 ≤ (i 0).val ∧ (i 0).val < 352 + 160) ∧ (0 ≤ (i 1).val ∧ (i 1).val < 0 + 512)) ↔ _
  have h1 : (i 1).val < 512 := (i 1).isLt
  omega

theorem mem_oSet (p : Fin 3) (i : S512x512.Idx) :
    i ∈ oSet p ↔ offP p ≤ (i 0).val ∧ (i 0).val < offP p + lenP p := by
  fin_cases p
  · show i ∈ (oV0 : View sig .tc .vmem S176x512 .bf16).set ↔ _
    rw [oV0_set, mem_oR0]; exact Iff.rfl
  · show i ∈ (oV1 : View sig .tc .vmem S176x512 .bf16).set ↔ _
    rw [oV1_set, mem_oR1]; exact Iff.rfl
  · show i ∈ (oV2 : View sig .tc .vmem S160x512 .bf16).set ↔ _
    rw [oV2_set, mem_oR2]; exact Iff.rfl

theorem oSet_disjoint : ∀ p p' : Fin 3, p ≠ p' → Disjoint (oSet p) (oSet p') := by
  intro p p' hne
  rw [Finset.disjoint_left]
  intro i hi hi'
  exact hne (part_unique ((mem_oSet p i).mp hi) ((mem_oSet p' i).mp hi'))

theorem oSet_cover : (Finset.univ : Finset (Fin 3)).biUnion oSet = Finset.univ := by
  ext i
  simp only [Finset.mem_biUnion, Finset.mem_univ, true_and, iff_true]
  obtain ⟨p, hp⟩ := part_of_row (i 0).val (i 0).isLt
  exact ⟨p, (mem_oSet p i).mpr hp⟩

theorem oSet_union : oSet 0 ∪ oSet 1 ∪ oSet 2 = (Finset.univ : Finset S512x512.Idx) := by
  ext i
  simp only [Finset.mem_union, Finset.mem_univ, iff_true]
  obtain ⟨p, hp⟩ := part_of_row (i 0).val (i 0).isLt
  have hm := (mem_oSet p i).mpr hp
  fin_cases p
  · exact Or.inl (Or.inl hm)
  · exact Or.inl (Or.inr hm)
  · exact Or.inr hm

/-! ## The landing regions of the 3×512×512 buffer -/

theorem rV0_set : (rV0 : View sig .tc .vmem S176x512 .bf16).set = rR0.set :=
  (View.set_reshape _ _).trans (View.set_slice_whole _ _)
theorem mem_rR0 (i : S3x512x512.Idx) :
    i ∈ rR0.set ↔ (i 0).val = 0 ∧ 0 ≤ (i 1).val ∧ (i 1).val < 0 + 176 := by
  rw [Rect.mem_set_unit, forall_fin3]
  change ((0 ≤ (i 0).val ∧ (i 0).val < 0 + 1) ∧ (0 ≤ (i 1).val ∧ (i 1).val < 0 + 176) ∧
    (0 ≤ (i 2).val ∧ (i 2).val < 0 + 512)) ↔ _
  have h2 : (i 2).val < 512 := (i 2).isLt
  omega

theorem rV1_set : (rV1 : View sig .tc .vmem S176x512 .bf16).set = rR1.set :=
  (View.set_reshape _ _).trans (View.set_slice_whole _ _)
theorem mem_rR1 (i : S3x512x512.Idx) :
    i ∈ rR1.set ↔ (i 0).val = 0 ∧ 176 ≤ (i 1).val ∧ (i 1).val < 176 + 176 := by
  rw [Rect.mem_set_unit, forall_fin3]
  change ((0 ≤ (i 0).val ∧ (i 0).val < 0 + 1) ∧ (176 ≤ (i 1).val ∧ (i 1).val < 176 + 176) ∧
    (0 ≤ (i 2).val ∧ (i 2).val < 0 + 512)) ↔ _
  have h2 : (i 2).val < 512 := (i 2).isLt
  omega

theorem rV2_set : (rV2 : View sig .tc .vmem S160x512 .bf16).set = rR2.set :=
  (View.set_reshape _ _).trans (View.set_slice_whole _ _)
theorem mem_rR2 (i : S3x512x512.Idx) :
    i ∈ rR2.set ↔ (i 0).val = 0 ∧ 352 ≤ (i 1).val ∧ (i 1).val < 352 + 160 := by
  rw [Rect.mem_set_unit, forall_fin3]
  change ((0 ≤ (i 0).val ∧ (i 0).val < 0 + 1) ∧ (352 ≤ (i 1).val ∧ (i 1).val < 352 + 160) ∧
    (0 ≤ (i 2).val ∧ (i 2).val < 0 + 512)) ↔ _
  have h2 : (i 2).val < 512 := (i 2).isLt
  omega

theorem rV3_set : (rV3 : View sig .tc .vmem S176x512 .bf16).set = rR3.set :=
  (View.set_reshape _ _).trans (View.set_slice_whole _ _)
theorem mem_rR3 (i : S3x512x512.Idx) :
    i ∈ rR3.set ↔ (i 0).val = 1 ∧ 0 ≤ (i 1).val ∧ (i 1).val < 0 + 176 := by
  rw [Rect.mem_set_unit, forall_fin3]
  change ((1 ≤ (i 0).val ∧ (i 0).val < 1 + 1) ∧ (0 ≤ (i 1).val ∧ (i 1).val < 0 + 176) ∧
    (0 ≤ (i 2).val ∧ (i 2).val < 0 + 512)) ↔ _
  have h2 : (i 2).val < 512 := (i 2).isLt
  omega

theorem rV4_set : (rV4 : View sig .tc .vmem S176x512 .bf16).set = rR4.set :=
  (View.set_reshape _ _).trans (View.set_slice_whole _ _)
theorem mem_rR4 (i : S3x512x512.Idx) :
    i ∈ rR4.set ↔ (i 0).val = 1 ∧ 176 ≤ (i 1).val ∧ (i 1).val < 176 + 176 := by
  rw [Rect.mem_set_unit, forall_fin3]
  change ((1 ≤ (i 0).val ∧ (i 0).val < 1 + 1) ∧ (176 ≤ (i 1).val ∧ (i 1).val < 176 + 176) ∧
    (0 ≤ (i 2).val ∧ (i 2).val < 0 + 512)) ↔ _
  have h2 : (i 2).val < 512 := (i 2).isLt
  omega

theorem rV5_set : (rV5 : View sig .tc .vmem S160x512 .bf16).set = rR5.set :=
  (View.set_reshape _ _).trans (View.set_slice_whole _ _)
theorem mem_rR5 (i : S3x512x512.Idx) :
    i ∈ rR5.set ↔ (i 0).val = 1 ∧ 352 ≤ (i 1).val ∧ (i 1).val < 352 + 160 := by
  rw [Rect.mem_set_unit, forall_fin3]
  change ((1 ≤ (i 0).val ∧ (i 0).val < 1 + 1) ∧ (352 ≤ (i 1).val ∧ (i 1).val < 352 + 160) ∧
    (0 ≤ (i 2).val ∧ (i 2).val < 0 + 512)) ↔ _
  have h2 : (i 2).val < 512 := (i 2).isLt
  omega

theorem rV6_set : (rV6 : View sig .tc .vmem S176x512 .bf16).set = rR6.set :=
  (View.set_reshape _ _).trans (View.set_slice_whole _ _)
theorem mem_rR6 (i : S3x512x512.Idx) :
    i ∈ rR6.set ↔ (i 0).val = 2 ∧ 0 ≤ (i 1).val ∧ (i 1).val < 0 + 176 := by
  rw [Rect.mem_set_unit, forall_fin3]
  change ((2 ≤ (i 0).val ∧ (i 0).val < 2 + 1) ∧ (0 ≤ (i 1).val ∧ (i 1).val < 0 + 176) ∧
    (0 ≤ (i 2).val ∧ (i 2).val < 0 + 512)) ↔ _
  have h2 : (i 2).val < 512 := (i 2).isLt
  omega

theorem rV7_set : (rV7 : View sig .tc .vmem S176x512 .bf16).set = rR7.set :=
  (View.set_reshape _ _).trans (View.set_slice_whole _ _)
theorem mem_rR7 (i : S3x512x512.Idx) :
    i ∈ rR7.set ↔ (i 0).val = 2 ∧ 176 ≤ (i 1).val ∧ (i 1).val < 176 + 176 := by
  rw [Rect.mem_set_unit, forall_fin3]
  change ((2 ≤ (i 0).val ∧ (i 0).val < 2 + 1) ∧ (176 ≤ (i 1).val ∧ (i 1).val < 176 + 176) ∧
    (0 ≤ (i 2).val ∧ (i 2).val < 0 + 512)) ↔ _
  have h2 : (i 2).val < 512 := (i 2).isLt
  omega

theorem rV8_set : (rV8 : View sig .tc .vmem S160x512 .bf16).set = rR8.set :=
  (View.set_reshape _ _).trans (View.set_slice_whole _ _)
theorem mem_rR8 (i : S3x512x512.Idx) :
    i ∈ rR8.set ↔ (i 0).val = 2 ∧ 352 ≤ (i 1).val ∧ (i 1).val < 352 + 160 := by
  rw [Rect.mem_set_unit, forall_fin3]
  change ((2 ≤ (i 0).val ∧ (i 0).val < 2 + 1) ∧ (352 ≤ (i 1).val ∧ (i 1).val < 352 + 160) ∧
    (0 ≤ (i 2).val ∧ (i 2).val < 0 + 512)) ↔ _
  have h2 : (i 2).val < 512 := (i 2).isLt
  omega

theorem mem_rSet (n : Fin 9) (i : S3x512x512.Idx) :
    i ∈ rSet n ↔ (i 0).val = n.val / 3 ∧ offP (pOf n) ≤ (i 1).val ∧ (i 1).val < offP (pOf n) + lenP (pOf n) := by
  fin_cases n
  · show i ∈ (rV0 : View sig .tc .vmem S176x512 .bf16).set ↔ _
    rw [rV0_set, mem_rR0]; exact Iff.rfl
  · show i ∈ (rV1 : View sig .tc .vmem S176x512 .bf16).set ↔ _
    rw [rV1_set, mem_rR1]; exact Iff.rfl
  · show i ∈ (rV2 : View sig .tc .vmem S160x512 .bf16).set ↔ _
    rw [rV2_set, mem_rR2]; exact Iff.rfl
  · show i ∈ (rV3 : View sig .tc .vmem S176x512 .bf16).set ↔ _
    rw [rV3_set, mem_rR3]; exact Iff.rfl
  · show i ∈ (rV4 : View sig .tc .vmem S176x512 .bf16).set ↔ _
    rw [rV4_set, mem_rR4]; exact Iff.rfl
  · show i ∈ (rV5 : View sig .tc .vmem S160x512 .bf16).set ↔ _
    rw [rV5_set, mem_rR5]; exact Iff.rfl
  · show i ∈ (rV6 : View sig .tc .vmem S176x512 .bf16).set ↔ _
    rw [rV6_set, mem_rR6]; exact Iff.rfl
  · show i ∈ (rV7 : View sig .tc .vmem S176x512 .bf16).set ↔ _
    rw [rV7_set, mem_rR7]; exact Iff.rfl
  · show i ∈ (rV8 : View sig .tc .vmem S160x512 .bf16).set ↔ _
    rw [rV8_set, mem_rR8]; exact Iff.rfl

theorem rSet_disjoint : ∀ n n' : Fin 9, n ≠ n' → Disjoint (rSet n) (rSet n') := by
  intro n n' hne
  rw [Finset.disjoint_left]
  intro i hi hi'
  obtain ⟨hs, hr⟩ := (mem_rSet n i).mp hi
  obtain ⟨hs', hr'⟩ := (mem_rSet n' i).mp hi'
  have hp : (pOf n).val = (pOf n').val := congrArg Fin.val (part_unique hr hr')
  have hp' : n.val % 3 = n'.val % 3 := hp
  exact hne (Fin.ext (by omega))

theorem rSet_cover : (Finset.univ : Finset (Fin 9)).biUnion rSet = Finset.univ := by
  ext i
  simp only [Finset.mem_biUnion, Finset.mem_univ, true_and, iff_true]
  have h0 : (i 0).val < 3 := (i 0).isLt
  obtain ⟨p, hp⟩ := part_of_row (i 1).val (i 1).isLt
  have hlt : 3 * (i 0).val + p.val < 9 := by have := p.isLt; omega
  have hpOf : pOf ⟨3 * (i 0).val + p.val, hlt⟩ = p :=
    Fin.ext (by show (3 * (i 0).val + p.val) % 3 = p.val; have := p.isLt; omega)
  refine ⟨⟨3 * (i 0).val + p.val, hlt⟩, (mem_rSet _ i).mpr ⟨?_, ?_⟩⟩
  · show (i 0).val = (3 * (i 0).val + p.val) / 3
    have := p.isLt; omega
  · rw [hpOf]; exact hp

/-! ## The unsqueezed views of the landing regions have the same elements -/

theorem rA0_set : (rA0 : View sig .tc .vmem S1x176x512 .bf16).set = rSet 0 :=
  (View.set_slice_whole _ _).trans rV0_set.symm
theorem rA1_set : (rA1 : View sig .tc .vmem S1x176x512 .bf16).set = rSet 1 :=
  (View.set_slice_whole _ _).trans rV1_set.symm
theorem rA2_set : (rA2 : View sig .tc .vmem S1x160x512 .bf16).set = rSet 2 :=
  (View.set_slice_whole _ _).trans rV2_set.symm
theorem rA3_set : (rA3 : View sig .tc .vmem S1x176x512 .bf16).set = rSet 3 :=
  (View.set_slice_whole _ _).trans rV3_set.symm
theorem rA4_set : (rA4 : View sig .tc .vmem S1x176x512 .bf16).set = rSet 4 :=
  (View.set_slice_whole _ _).trans rV4_set.symm
theorem rA5_set : (rA5 : View sig .tc .vmem S1x160x512 .bf16).set = rSet 5 :=
  (View.set_slice_whole _ _).trans rV5_set.symm
theorem rA6_set : (rA6 : View sig .tc .vmem S1x176x512 .bf16).set = rSet 6 :=
  (View.set_slice_whole _ _).trans rV6_set.symm
theorem rA7_set : (rA7 : View sig .tc .vmem S1x176x512 .bf16).set = rSet 7 :=
  (View.set_slice_whole _ _).trans rV7_set.symm
theorem rA8_set : (rA8 : View sig .tc .vmem S1x160x512 .bf16).set = rSet 8 :=
  (View.set_slice_whole _ _).trans rV8_set.symm

end Cert.Kernel.Hand

end
-- ==== Proof.SplitsW.lean ====
/-
  Splitting the two buffers along their row regions and putting them together again.

  The landing buffer is the disjoint union of the nine landing regions, and the result buffer of its three parts
  (module Regions). A points-to assertion over a whole buffer therefore splits into one assertion per region, and
  assertions over all the regions, whatever contents each is held at, join into one over the whole buffer. Joined at
  the final contents of the three parts, the result buffer holds the final result.
-/
import proofs.«900389_g7700000000000390_dist_rs_then_ag_i_m512_n512_v7x_i8_bf16_1_alg».proof.Proof.DataW
import proofs.«900389_g7700000000000390_dist_rs_then_ag_i_m512_n512_v7x_i8_bf16_1_alg».proof.Proof.RegionsW

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The landing buffer -/

omit [FloatOps F] in
/-- The whole landing buffer as its nine regions. -/
theorem scrPts_eq (c : Dev nD) (f : (cc0_scratch0 : Ref sig .tc).ty.Contents (Elt F)) :
    (scrPts c f : sProp 𝕄) = bigSep Finset.univ fun n : Fin 9 => scrR c n f := by
  have e := pointsTo_biUnion (Name := ℕ) (U := UU) (Lvl := ℕ) (Ix := Unit) (Val := Elt F) (q := fullShare) (f := f)
    (ℓ := (c : Thread nD τ).loc cc0_scratch0)
    Finset.univ rSet (fun t _ t' _ h => rSet_disjoint t t' h)
  rw [rSet_cover] at e
  exact e

omit [FloatOps F] in
theorem scr_split (c : Dev nD) (f : (cc0_scratch0 : Ref sig .tc).ty.Contents (Elt F)) :
    (scrPts c f : sProp 𝕄) ⊢ iprop(scrR c 0 f ∗ scrR c 1 f ∗ scrR c 2 f ∗ scrR c 3 f ∗ scrR c 4 f ∗ scrR c 5 f ∗ scrR c 6 f ∗ scrR c 7 f ∗ scrR c 8 f) := by
  rw [scrPts_eq, bigSep_fin9]

omit [FloatOps F] in
/-- The nine regions, each at its own contents, are the whole landing buffer at some contents. -/
theorem scr_join_at (c : Dev nD) (f0 f1 f2 f3 f4 f5 f6 f7 f8 : (cc0_scratch0 : Ref sig .tc).ty.Contents (Elt F)) :
    iprop(scrR c 0 f0 ∗ scrR c 1 f1 ∗ scrR c 2 f2 ∗ scrR c 3 f3 ∗ scrR c 4 f4 ∗ scrR c 5 f5 ∗ scrR c 6 f6 ∗ scrR c 7 f7 ∗ scrR c 8 f8) ⊢ (iprop(∃ f, scrPts c f) : sProp 𝕄) := by
  have hj := pointsTo_biUnion_join (Name := ℕ) (U := UU) (Lvl := ℕ) (Ix := Unit) (Val := Elt F) (q := fullShare)
    (ℓ := (c : Thread nD τ).loc cc0_scratch0) Finset.univ rSet ![f0, f1, f2, f3, f4, f5, f6, f7, f8] f0
    (fun t _ t' _ h => rSet_disjoint t t' h)
  rw [bigSep_fin9, rSet_cover] at hj
  refine BIBase.Entails.trans ?_ (hj.trans ?_)
  · unfold scrR; exact .rfl
  · iintro ⟨%g, -, H⟩
    iexists g
    unfold scrPts
    iexact H

omit [FloatOps F] in
theorem scr_join (c : Dev nD) :
    iprop((∃ f, scrR c 0 f) ∗ (∃ f, scrR c 1 f) ∗ (∃ f, scrR c 2 f) ∗ (∃ f, scrR c 3 f) ∗ (∃ f, scrR c 4 f) ∗ (∃ f, scrR c 5 f) ∗ (∃ f, scrR c 6 f) ∗ (∃ f, scrR c 7 f) ∗ (∃ f, scrR c 8 f)) ⊢ (iprop(∃ f, scrPts c f) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  iapply (scr_join_at c f0 f1 f2 f3 f4 f5 f6 f7 f8)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The result buffer -/

omit [FloatOps F] in
/-- The whole result buffer as its three parts. -/
theorem outPts_eq (c : Dev nD) (f : (cc0_stg1_0 : Ref sig .tc).ty.Contents (Elt F)) :
    ((((c : Thread nD τ).loc cc0_stg1_0) ↦{fullShare} f) : sProp 𝕄) = bigSep Finset.univ fun p : Fin 3 => outR c p f := by
  have e := pointsTo_biUnion (Name := ℕ) (U := UU) (Lvl := ℕ) (Ix := Unit) (Val := Elt F) (q := fullShare) (f := f)
    (ℓ := (c : Thread nD τ).loc cc0_stg1_0)
    Finset.univ oSet (fun t _ t' _ h => oSet_disjoint t t' h)
  rw [oSet_cover] at e
  exact e

omit [FloatOps F] in
theorem out_split (c : Dev nD) (f : (cc0_stg1_0 : Ref sig .tc).ty.Contents (Elt F)) :
    ((((c : Thread nD τ).loc cc0_stg1_0) ↦{fullShare} f) : sProp 𝕄) ⊢ iprop(outR c 0 f ∗ outR c 1 f ∗ outR c 2 f) := by
  rw [outPts_eq, bigSep_three]

/-- The three parts at their final contents are the result buffer at the final result. -/
theorem out_join (c : Dev nD) :
    iprop(outR c 0 (oB03 m c) ∗ outR c 1 (oB13 m c) ∗ outR c 2 (oB23 m c))
      ⊢ ((((c : Thread nD τ).loc cc0_stg1_0) ↦{fullShare} outFinal m c) : sProp 𝕄) := by
  have h01 : Disjoint (oSet 0) (oSet 1) := oSet_disjoint 0 1 (by decide)
  have h2 : Disjoint (oSet 0 ∪ oSet 1) (oSet 2) :=
    Finset.disjoint_union_left.mpr ⟨oSet_disjoint 0 2 (by decide), oSet_disjoint 1 2 (by decide)⟩
  unfold outR outFinal
  refine sep_assoc'.trans ((sep_mono (pointsTo_join h01) .rfl).trans ((pointsTo_join h2).trans (Entails.of_eq ?_)))
  rw [oSet_union]

/-! ## Contents written through a view do not depend on what was there before -/

omit [FloatOps F] in
theorem pts_write_congr {s : Shape} {e : EltTy} (v : View sig .tc .vmem s e) (c : Dev nD) (q : PosShare TreeShare)
    (f f' : v.ty.Contents (Elt F)) (w : s.Idx → Elt F e) :
    ((v.loc (c : Thread nD τ) ↦[v.set]{q} v.write (Elt F) f w Finset.univ) : sProp 𝕄)
      = (v.loc (c : Thread nD τ) ↦[v.set]{q} v.write (Elt F) f' w Finset.univ) := by
  refine pointsTo_congr fun i hi => ?_
  obtain ⟨x, rfl⟩ := View.exists_emb_of_mem_set v hi
  rw [View.write_emb_of_mem f w (Finset.mem_univ x), View.write_emb_of_mem f' w (Finset.mem_univ x)]

end Cert.Kernel.Hand

end
-- ==== Proof.BodyW.lean ====
/-
  The body of one device, stepped from the ghost state it starts from to the region's exit.

  In program order: the three barrier signals, each handing the partner the three landing regions it will fill; the
  three parts of the argument block cast into the result buffer; the wait for the three partners' signals, which brings
  the partners' landing regions; the first three transfers; then, for each transfer n = 0 … 8, the wait for its send
  (the rows of the result buffer come back), the wait for its receive (the landing region comes with the partner's
  running sum), the addition into the part's rows, and, while n < 6, transfer n + 3 of the new running sum. At the end
  the eighteen scoped cells are closed at zero, the nine landing regions are joined into the landing buffer and the three
  parts into the result buffer.
-/
import proofs.«900389_g7700000000000390_dist_rs_then_ag_i_m512_n512_v7x_i8_bf16_1_alg».proof.Proof.DataW
import proofs.«900389_g7700000000000390_dist_rs_then_ag_i_m512_n512_v7x_i8_bf16_1_alg».proof.Proof.SplitsW

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The records at the cells by name -/

section Wrappers
variable (K : Dev nD × Fin 19 → ℕ)

theorem inv_bar (c : Dev nD) : (records m K : sProp 𝕄) ⊢ cellInv ER (Rd m) (K (c, 0)) (barCell c) := inv_at m K (c, 0)
theorem inv_snd (c : Dev nD) (n : Fin 9) : (records m K : sProp 𝕄) ⊢ cellInv ER (Rd m) (K (c, kSnd n)) (sendCell c n) := by
  have h := inv_at m K (c, kSnd n); rwa [kcell_snd] at h
theorem inv_rcv (c : Dev nD) (n : Fin 9) : (records m K : sProp 𝕄) ⊢ cellInv ER (Rd m) (K (c, kRcv n)) (recvCell c n) := by
  have h := inv_at m K (c, kRcv n); rwa [kcell_rcv] at h
theorem rch_bar (c : Dev nD) : (records m K : sProp 𝕄) ⊢ reached ER (barCell c) 0 := reached_at m K (c, 0)
theorem rch_snd (c : Dev nD) (n : Fin 9) : (records m K : sProp 𝕄) ⊢ reached ER (sendCell c n) 0 := by
  have h := reached_at m K (c, kSnd n); rwa [kcell_snd] at h
theorem rch_rcv (c : Dev nD) (n : Fin 9) : (records m K : sProp 𝕄) ⊢ reached ER (recvCell c n) 0 := by
  have h := reached_at m K (c, kRcv n); rwa [kcell_rcv] at h

/-- A landing region of one's own, at any contents, is a `landing`. -/
theorem landing_intro (c : Dev nD) (n : Fin 9) : iprop(records m K ∗ ∃ f, scrR c n f) ⊢ (landing c n : sProp 𝕄) := by
  unfold landing
  iintro ⟨#Hrec, H⟩
  isplitl [H]; · iexact H
  iapply (rch_rcv m K c n); iexact Hrec

/-- The barrier signal to the partner under mask `k`: the three landing regions it will fill go with it. -/
theorem wp_sig (c : Dev nD) (k : Fin 3) (O : CellTallies nD τ sig Unit) {W : Waits sig Unit} {k' : ℕ} (hk' : 1 = k')
    {α : Type} {Q : α → sProp 𝕄} {kk : PUnit → Prog (TpuEff nD τ sig (Elt F) Λ₀ .tc) α} :
    iprop(records m K ∗ owes (c : Thread nD τ) (O + Bk c k) W ∗ dutyTok ER (barCell (peer c k)) 0 k
        ∗ (∃ f, scrR c (nOf k 0) f) ∗ (∃ f, scrR c (nOf k 1) f) ∗ (∃ f, scrR c (nOf k 2) f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (peer c k : Thread nD τ) barS k') kk) Q) := by
  subst hk'
  iintro ⟨#Hrec, HO, Htok, H0, H1, H2⟩
  iapply (Rounds.wp_signal 𝒱₀ ER (Rd m) (c : Thread nD τ) none (dst := (peer c k : Thread nD τ)) (κ := K (peer c k, 0))
      (d := k) (by rw [duties_bar]; exact Finset.mem_univ _) (amount_bar m (peer c k) k) () O rfl) $$ [HO Htok H0 H1 H2]
  isplitr; · iapply (inv_bar m K (peer c k)); iexact Hrec
  isplitl [HO]; · iexact HO
  isplitl [Htok]; · iexact Htok
  isplitl [H0 H1 H2]
  · rw [payload_bar]; unfold barPay; rw [peer_peer]
    isplitl [H0]
    · iapply (landing_intro m K c (nOf k 0)); isplitr; · iexact Hrec
      iexact H0
    isplitl [H1]
    · iapply (landing_intro m K c (nOf k 1)); isplitr; · iexact Hrec
      iexact H1
    · iapply (landing_intro m K c (nOf k 2)); isplitr; · iexact Hrec
      iexact H2
  · iapply (rch_bar m K (peer c k)); iexact Hrec

end Wrappers

/-! ## The semaphores by number -/

theorem snd_sem_0 : ((cc0_scratch1.slice (Rect.unit (s := S3x3) ![0, 0] S1x1.size inb_S3x3_S1x1_0_0)).squeeze S_ squeezes_S1x1_S_).sem = sndS 0 := by decide
theorem rcv_sem_0 : ((cc0_scratch2.slice (Rect.unit (s := S3x3) ![0, 0] S1x1.size inb_S3x3_S1x1_0_0)).squeeze S_ squeezes_S1x1_S_).sem = rcvS 0 := by decide
theorem snd_sem_1 : ((cc0_scratch1.slice (Rect.unit (s := S3x3) ![0, 1] S1x1.size inb_S3x3_S1x1_0_1)).squeeze S_ squeezes_S1x1_S_).sem = sndS 1 := by decide
theorem rcv_sem_1 : ((cc0_scratch2.slice (Rect.unit (s := S3x3) ![0, 1] S1x1.size inb_S3x3_S1x1_0_1)).squeeze S_ squeezes_S1x1_S_).sem = rcvS 1 := by decide
theorem snd_sem_2 : ((cc0_scratch1.slice (Rect.unit (s := S3x3) ![0, 2] S1x1.size inb_S3x3_S1x1_0_2)).squeeze S_ squeezes_S1x1_S_).sem = sndS 2 := by decide
theorem rcv_sem_2 : ((cc0_scratch2.slice (Rect.unit (s := S3x3) ![0, 2] S1x1.size inb_S3x3_S1x1_0_2)).squeeze S_ squeezes_S1x1_S_).sem = rcvS 2 := by decide
theorem snd_sem_3 : ((cc0_scratch1.slice (Rect.unit (s := S3x3) ![1, 0] S1x1.size inb_S3x3_S1x1_1_0)).squeeze S_ squeezes_S1x1_S_).sem = sndS 3 := by decide
theorem rcv_sem_3 : ((cc0_scratch2.slice (Rect.unit (s := S3x3) ![1, 0] S1x1.size inb_S3x3_S1x1_1_0)).squeeze S_ squeezes_S1x1_S_).sem = rcvS 3 := by decide
theorem snd_sem_4 : ((cc0_scratch1.slice (Rect.unit (s := S3x3) ![1, 1] S1x1.size inb_S3x3_S1x1_1_1)).squeeze S_ squeezes_S1x1_S_).sem = sndS 4 := by decide
theorem rcv_sem_4 : ((cc0_scratch2.slice (Rect.unit (s := S3x3) ![1, 1] S1x1.size inb_S3x3_S1x1_1_1)).squeeze S_ squeezes_S1x1_S_).sem = rcvS 4 := by decide
theorem snd_sem_5 : ((cc0_scratch1.slice (Rect.unit (s := S3x3) ![1, 2] S1x1.size inb_S3x3_S1x1_1_2)).squeeze S_ squeezes_S1x1_S_).sem = sndS 5 := by decide
theorem rcv_sem_5 : ((cc0_scratch2.slice (Rect.unit (s := S3x3) ![1, 2] S1x1.size inb_S3x3_S1x1_1_2)).squeeze S_ squeezes_S1x1_S_).sem = rcvS 5 := by decide
theorem snd_sem_6 : ((cc0_scratch1.slice (Rect.unit (s := S3x3) ![2, 0] S1x1.size inb_S3x3_S1x1_2_0)).squeeze S_ squeezes_S1x1_S_).sem = sndS 6 := by decide
theorem rcv_sem_6 : ((cc0_scratch2.slice (Rect.unit (s := S3x3) ![2, 0] S1x1.size inb_S3x3_S1x1_2_0)).squeeze S_ squeezes_S1x1_S_).sem = rcvS 6 := by decide
theorem snd_sem_7 : ((cc0_scratch1.slice (Rect.unit (s := S3x3) ![2, 1] S1x1.size inb_S3x3_S1x1_2_1)).squeeze S_ squeezes_S1x1_S_).sem = sndS 7 := by decide
theorem rcv_sem_7 : ((cc0_scratch2.slice (Rect.unit (s := S3x3) ![2, 1] S1x1.size inb_S3x3_S1x1_2_1)).squeeze S_ squeezes_S1x1_S_).sem = rcvS 7 := by decide
theorem snd_sem_8 : ((cc0_scratch1.slice (Rect.unit (s := S3x3) ![2, 2] S1x1.size inb_S3x3_S1x1_2_2)).squeeze S_ squeezes_S1x1_S_).sem = sndS 8 := by decide
theorem rcv_sem_8 : ((cc0_scratch2.slice (Rect.unit (s := S3x3) ![2, 2] S1x1.size inb_S3x3_S1x1_2_2)).squeeze S_ squeezes_S1x1_S_).sem = rcvS 8 := by decide

theorem Nn_A (n : Fin 9) (h : n.val % 3 ≠ 2) : Nn n = NA := if_neg h
theorem Nn_B (n : Fin 9) (h : n.val % 3 = 2) : Nn n = NB := if_pos h

section Wrappers2
variable (K : Dev nD × Fin 19 → ℕ)

/-- The wait for the three partners' barrier signals, owing the nine transfers. -/
theorem wp_wait_bar (c : Dev nD) {W : Waits sig Unit} {w : TpuEff nD τ sig (Elt F) Λ₀ .tc PUnit} {k' : ℕ}
    (hw : ∀ K' : PUnit → sProp 𝕄, wpE' (defs₀ (F := F)) 𝒱₀ (c : Thread nD τ) none PendingWaitsCtx.empty Set.univ w K' = waitSpec (c : Thread nD τ) Set.univ (.reg barS) k' K')
    (hk' : k' = 3) {α : Type} {Q : α → sProp 𝕄} {kk : PUnit → Prog (TpuEff nD τ sig (Elt F) Λ₀ .tc) α} :
    iprop(records m K ∗ levAts L lv ∗ cred (tallyAt (barCell c) () 3) ∗ owes (c : Thread nD τ) (Osend c 0) W ∗ atPos ER (barCell c) 0 (∅ : Finset (Fin 3)) 0)
      ⊢ iprop(((owes (c : Thread nD τ) (Osend c 0) (insert (SemLoc.reg barS, ()) W) ∗ atPos ER (barCell c) 1 (∅ : Finset (Fin 3)) 0
              ∗ barPay c 0 ∗ barPay c 1 ∗ barPay c 2)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk'
  iintro ⟨#Hrec, #Hlev, Hc, HO, Hat⟩ Hk
  iapply (Rounds.wp_wait_rest_token 𝒱₀ ER (Rd m) (c : Thread nD τ) none (κ := K (c, 0)) hw (Set.mem_univ _) () (O := Osend c 0) (W := W) (R := 0) (m := 0) (T := ∅)
      (by rw [expect_bar])) $$ [Hc HO Hat]
  · isplitr; · iapply (inv_bar m K c); iexact Hrec
    isplitl [Hc]; · iexact Hc
    isplitl [HO]; · iexact HO
    isplitr; · iapply (mayWait_Osend c (.reg barS) 0 (by rw [lv_bar]; omega)); iexact Hlev
    iexact Hat
  iintro ⟨HO, Hat, -, Hpay⟩
  iapply Hk
  ihave Hp := (Entails.of_eq (rest_bar m c)) $$ Hpay
  isplitl [HO]; · iexact HO
  isplitl [Hat]; · iexact Hat
  iexact Hp

/-- The wait on the send cell of transfer `n`, owing the transfers from `j` on: the rows the transfer read come back. -/
theorem wp_wait_snd (c : Dev nD) (n : Fin 9) (j : ℕ) {W : Waits sig Unit} {w : TpuEff nD τ sig (Elt F) Λ₀ .tc PUnit} {k' : ℕ} {q : DmaSem sig}
    (hw : ∀ K' : PUnit → sProp 𝕄, wpE' (defs₀ (F := F)) 𝒱₀ (c : Thread nD τ) none PendingWaitsCtx.empty Set.univ w K' = waitSpec (c : Thread nD τ) Set.univ (.dma q) k' K')
    (hq : q = sndS n) (hk' : k' = Nn n) {α : Type} {Q : α → sProp 𝕄} {kk : PUnit → Prog (TpuEff nD τ sig (Elt F) Λ₀ .tc) α} :
    iprop(records m K ∗ levAts L lv ∗ cred (tallyAt (sendCell c n) () (Nn n)) ∗ owes (c : Thread nD τ) (Osend c j) W ∗ atPos ER (sendCell c n) 0 (∅ : Finset (Fin 3)) 0)
      ⊢ iprop(((owes (c : Thread nD τ) (Osend c j) (insert (SemLoc.dma (sndS n), ()) W) ∗ atPos ER (sendCell c n) 1 (∅ : Finset (Fin 3)) 0 ∗ sendPay m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk' hq
  iintro ⟨#Hrec, #Hlev, Hc, HO, Hat⟩ Hk
  iapply (Rounds.wp_wait_rest_token 𝒱₀ ER (Rd m) (c : Thread nD τ) none (κ := K (c, kSnd n)) hw (Set.mem_univ _) () (O := Osend c j) (W := W) (R := 0) (m := 0) (T := ∅)
      (by rw [expect_snd, Nat.zero_add])) $$ [Hc HO Hat]
  · isplitr; · iapply (inv_snd m K c n); iexact Hrec
    isplitl [Hc]; · iexact Hc
    isplitl [HO]; · iexact HO
    isplitr; · iapply (mayWait_Osend c (.dma (sndS n)) j (by rw [lv_snd]; omega)); iexact Hlev
    iexact Hat
  iintro ⟨HO, Hat, -, Hpay⟩
  iapply Hk
  ihave Hp := (Entails.of_eq (rest_snd m c n)) $$ Hpay
  isplitl [HO]; · iexact HO
  isplitl [Hat]; · iexact Hat
  iexact Hp

/-- The wait on the receive cell of transfer `n`, owing the transfers from `j > n` on: the landing region comes with the
    partner's running sum. -/
theorem wp_wait_rcv (c : Dev nD) (n : Fin 9) (j : ℕ) (hj : n.val < j) {W : Waits sig Unit} {w : TpuEff nD τ sig (Elt F) Λ₀ .tc PUnit} {k' : ℕ} {q : DmaSem sig}
    (hw : ∀ K' : PUnit → sProp 𝕄, wpE' (defs₀ (F := F)) 𝒱₀ (c : Thread nD τ) none PendingWaitsCtx.empty Set.univ w K' = waitSpec (c : Thread nD τ) Set.univ (.dma q) k' K')
    (hq : q = rcvS n) (hk' : k' = Nn n) {α : Type} {Q : α → sProp 𝕄} {kk : PUnit → Prog (TpuEff nD τ sig (Elt F) Λ₀ .tc) α} :
    iprop(records m K ∗ levAts L lv ∗ cred (tallyAt (recvCell c n) () (Nn n)) ∗ owes (c : Thread nD τ) (Osend c j) W ∗ atPos ER (recvCell c n) 0 (∅ : Finset (Fin 3)) 0)
      ⊢ iprop(((owes (c : Thread nD τ) (Osend c j) (insert (SemLoc.dma (rcvS n), ()) W) ∗ atPos ER (recvCell c n) 1 (∅ : Finset (Fin 3)) 0 ∗ recvPay m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk' hq
  iintro ⟨#Hrec, #Hlev, Hc, HO, Hat⟩ Hk
  iapply (Rounds.wp_wait_rest_token 𝒱₀ ER (Rd m) (c : Thread nD τ) none (κ := K (c, kRcv n)) hw (Set.mem_univ _) () (O := Osend c j) (W := W) (R := 0) (m := 0) (T := ∅)
      (by rw [expect_rcv, Nat.zero_add])) $$ [Hc HO Hat]
  · isplitr; · iapply (inv_rcv m K c n); iexact Hrec
    isplitl [Hc]; · iexact Hc
    isplitl [HO]; · iexact HO
    isplitr; · iapply (mayWait_Osend c (.dma (rcvS n)) j (by rw [lv_rcv]; omega)); iexact Hlev
    iexact Hat
  iintro ⟨HO, Hat, -, Hpay⟩
  iapply Hk
  ihave Hp := (Entails.of_eq (rest_rcv m c n)) $$ Hpay
  isplitl [HO]; · iexact HO
  isplitl [Hat]; · iexact Hat
  iexact Hp

/-- Transfer `n`: the rows of the result buffer go to the partner's landing region; the send cell's and the partner's
    receive cell's duties are paid. The device and the two semaphores are named by equations. -/
theorem wp_snd {s : Shape} (c : Dev nD) (n : Fin 9) (O : CellTallies nD τ sig Unit) {W : Waits sig Unit}
    (d : Dev nD) (hd : d = peer c (kOf n)) {sS sR : DmaSem sig} (hS : sS = sndS n) (hR : sR = rcvS n)
    {src : Memref sig .tc .vmem s .bf16} {dst : Memref sig .tc .vmem s .bf16}
    {hsc : dst.view.ref.isScScratch = false} {hsrc : src.view.WordExact} {hdst : dst.view.WordExact}
    {hsem : DmaTarget.Typed .vmem (.dma sR) (.remote (Dev.tc d : Thread nD τ) dst (.dma sS) hsc)}
    (fs : Buf (Elt F) (src.view.loc (c : Thread nD τ))) (fd : Buf (Elt F) (dst.view.loc (Dev.tc d : Thread nD τ)))
    (hN : dst.view.amount (.dma sR) = Nn n)
    (hpay₁ : (src.view.loc (c : Thread nD τ) ↦[src.view.set]{fullShare} fs : sProp 𝕄) ⊢ (Rd m).payload (sendCell c n) 0 0)
    (hpay₂ : (dst.view.loc (Dev.tc d : Thread nD τ) ↦[dst.view.set]{fullShare} (dst.view.write (Elt F) fd (src.view.read (Elt F) fs) Finset.univ) : sProp 𝕄)
      ⊢ (Rd m).payload (recvCell d n) 0 0)
    {α : Type} {Q : α → sProp 𝕄} {kk : PUnit → Prog (TpuEff nD τ sig (Elt F) Λ₀ .tc) α} :
    iprop(records m K ∗ (src.view.loc (c : Thread nD τ) ↦[src.view.set]{fullShare} fs) ∗ (dst.view.loc (Dev.tc d : Thread nD τ) ↦[dst.view.set]{fullShare} fd)
        ∗ owes (c : Thread nD τ) (O + Tn c n) W ∗ dutyTok ER (sendCell c n) 0 (0 : Fin 3) ∗ dutyTok ER (recvCell (peer c (kOf n)) n) 0 (0 : Fin 3))
      ⊢ iprop(((cred (tallyAt (sendCell c n) () (Nn n)) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) kk) Q) := by
  subst hd hS hR
  iintro ⟨#Hrec, Hs, Hd, HO, Ht1, Ht2⟩
  iapply (Rounds.wp_send_pointsTo 𝒱₀ ER (Rd m) (c : Thread nD τ) none (κ₁ := K (c, kSnd n)) (κ₂ := K (peer c (kOf n), kRcv n))
    (r₁ := 0) (r₂ := 0) (d₁ := 0) (d₂ := 0) (fs := fs) (fd := fd)
    (by rw [duties_snd]; exact Finset.mem_singleton_self _) (by rw [duties_rcv]; exact Finset.mem_singleton_self _)
    () () (Nn n) hN (amount_snd m c n 0) (amount_rcv m (peer c (kOf n)) n 0) O rfl (W := W) hpay₁ hpay₂) $$ [Hs Hd HO Ht1 Ht2]
  isplitr; · iapply (inv_snd m K c n); iexact Hrec
  isplitr; · iapply (inv_rcv m K (peer c (kOf n)) n); iexact Hrec
  isplitl [Hs]; · iexact Hs
  isplitl [Hd]; · iexact Hd
  isplitl [HO]; · iexact HO
  isplitl [Ht1]; · iexact Ht1
  isplitr; · iapply (rch_snd m K c n); iexact Hrec
  isplitl [Ht2]; · iexact Ht2
  iapply (rch_rcv m K (peer c (kOf n)) n); iexact Hrec

end Wrappers2

theorem chain9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem chain19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ
theorem chain18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-! ## The memrefs of the transfers, by name -/
abbrev oSl0 : Memref sig .tc .vmem S176x512 .bf16 := oM.slice oR0 (fun _ => rfl)
abbrev oSl1 : Memref sig .tc .vmem S176x512 .bf16 := oM.slice oR1 (fun _ => rfl)
abbrev oSl2 : Memref sig .tc .vmem S160x512 .bf16 := oM.slice oR2 (fun _ => rfl)
abbrev rSl0 : Memref sig .tc .vmem S176x512 .bf16 := (rM.slice rR0 (fun _ => rfl)).squeeze S176x512 squeezes_S1x176x512_S176x512
abbrev rSl1 : Memref sig .tc .vmem S176x512 .bf16 := (rM.slice rR1 (fun _ => rfl)).squeeze S176x512 squeezes_S1x176x512_S176x512
abbrev rSl2 : Memref sig .tc .vmem S160x512 .bf16 := (rM.slice rR2 (fun _ => rfl)).squeeze S160x512 squeezes_S1x160x512_S160x512
abbrev rSl3 : Memref sig .tc .vmem S176x512 .bf16 := (rM.slice rR3 (fun _ => rfl)).squeeze S176x512 squeezes_S1x176x512_S176x512
abbrev rSl4 : Memref sig .tc .vmem S176x512 .bf16 := (rM.slice rR4 (fun _ => rfl)).squeeze S176x512 squeezes_S1x176x512_S176x512
abbrev rSl5 : Memref sig .tc .vmem S160x512 .bf16 := (rM.slice rR5 (fun _ => rfl)).squeeze S160x512 squeezes_S1x160x512_S160x512
abbrev rSl6 : Memref sig .tc .vmem S176x512 .bf16 := (rM.slice rR6 (fun _ => rfl)).squeeze S176x512 squeezes_S1x176x512_S176x512
abbrev rSl7 : Memref sig .tc .vmem S176x512 .bf16 := (rM.slice rR7 (fun _ => rfl)).squeeze S176x512 squeezes_S1x176x512_S176x512
abbrev rSl8 : Memref sig .tc .vmem S160x512 .bf16 := (rM.slice rR8 (fun _ => rfl)).squeeze S160x512 squeezes_S1x160x512_S160x512

/-! ## The payloads of the literal transfers, spelt over the regions -/

section Norm
theorem conv_o0 (c : Dev nD) (f : (cc0_stg1_0 : Ref sig .tc).ty.Contents (Elt F)) (w : S176x512.Idx → Elt F .bf16) :
    ((((c : Thread nD τ).loc cc0_stg1_0) ↦[oSet 0]{fullShare} oV0.write (Elt F) f w Finset.univ) : sProp 𝕄)
      ⊢ (((c : Thread nD τ).loc cc0_stg1_0) ↦[oSet 0]{fullShare} oV0.write (Elt F) Zo w Finset.univ) :=
  Entails.of_eq (pts_write_congr oV0 c fullShare f Zo w)
theorem conv_o1 (c : Dev nD) (f : (cc0_stg1_0 : Ref sig .tc).ty.Contents (Elt F)) (w : S176x512.Idx → Elt F .bf16) :
    ((((c : Thread nD τ).loc cc0_stg1_0) ↦[oSet 1]{fullShare} oV1.write (Elt F) f w Finset.univ) : sProp 𝕄)
      ⊢ (((c : Thread nD τ).loc cc0_stg1_0) ↦[oSet 1]{fullShare} oV1.write (Elt F) Zo w Finset.univ) :=
  Entails.of_eq (pts_write_congr oV1 c fullShare f Zo w)
theorem conv_o2 (c : Dev nD) (f : (cc0_stg1_0 : Ref sig .tc).ty.Contents (Elt F)) (w : S160x512.Idx → Elt F .bf16) :
    ((((c : Thread nD τ).loc cc0_stg1_0) ↦[oSet 2]{fullShare} oV2.write (Elt F) f w Finset.univ) : sProp 𝕄)
      ⊢ (((c : Thread nD τ).loc cc0_stg1_0) ↦[oSet 2]{fullShare} oV2.write (Elt F) Zo w Finset.univ) :=
  Entails.of_eq (pts_write_congr oV2 c fullShare f Zo w)
theorem sendPay_0 (c : Dev nD) : (sendPay m c 0 : sProp 𝕄) = (((c : Thread nD τ).loc cc0_stg1_0) ↦[oSet 0]{fullShare} oB00 m c) := rfl
theorem recvPay_0 (c : Dev nD) : (recvPay m c 0 : sProp 𝕄) = (((c : Thread nD τ).loc cc0_scratch0) ↦[rSet 0]{fullShare} rB0 m c) := rfl
theorem pay1_0 (c : Dev nD) : ((((c : Thread nD τ).loc cc0_stg1_0) ↦[oSet 0]{fullShare} oB00 m c) : sProp 𝕄) ⊢ (Rd m).payload (sendCell c 0) 0 0 :=
  Entails.of_eq (payload_snd m c 0 0).symm
theorem pay2_0 (c d : Dev nD) (hd : d = peer c 0) (fd : (cc0_scratch0 : Ref sig .tc).ty.Contents (Elt F)) :
    ((((d : Dev nD) : Thread nD τ).loc cc0_scratch0 ↦[rSet 0]{fullShare} rV0.write (Elt F) fd (oV0.read (Elt F) (oB00 m c)) Finset.univ) : sProp 𝕄)
      ⊢ (Rd m).payload (recvCell d 0) 0 0 := by
  subst hd
  rw [payload_rcv, recvPay_0]; unfold rB0; rw [peer_peer]
  exact Entails.of_eq (pts_write_congr rV0 (peer c 0) fullShare fd Zr _)
theorem sendPay_1 (c : Dev nD) : (sendPay m c 1 : sProp 𝕄) = (((c : Thread nD τ).loc cc0_stg1_0) ↦[oSet 1]{fullShare} oB10 m c) := rfl
theorem recvPay_1 (c : Dev nD) : (recvPay m c 1 : sProp 𝕄) = (((c : Thread nD τ).loc cc0_scratch0) ↦[rSet 1]{fullShare} rB1 m c) := rfl
theorem pay1_1 (c : Dev nD) : ((((c : Thread nD τ).loc cc0_stg1_0) ↦[oSet 1]{fullShare} oB10 m c) : sProp 𝕄) ⊢ (Rd m).payload (sendCell c 1) 0 0 :=
  Entails.of_eq (payload_snd m c 1 0).symm
theorem pay2_1 (c d : Dev nD) (hd : d = peer c 1) (fd : (cc0_scratch0 : Ref sig .tc).ty.Contents (Elt F)) :
    ((((d : Dev nD) : Thread nD τ).loc cc0_scratch0 ↦[rSet 1]{fullShare} rV1.write (Elt F) fd (oV1.read (Elt F) (oB10 m c)) Finset.univ) : sProp 𝕄)
      ⊢ (Rd m).payload (recvCell d 1) 0 0 := by
  subst hd
  rw [payload_rcv, recvPay_1]; unfold rB1; rw [peer_peer]
  exact Entails.of_eq (pts_write_congr rV1 (peer c 1) fullShare fd Zr _)
theorem sendPay_2 (c : Dev nD) : (sendPay m c 2 : sProp 𝕄) = (((c : Thread nD τ).loc cc0_stg1_0) ↦[oSet 2]{fullShare} oB20 m c) := rfl
theorem recvPay_2 (c : Dev nD) : (recvPay m c 2 : sProp 𝕄) = (((c : Thread nD τ).loc cc0_scratch0) ↦[rSet 2]{fullShare} rB2 m c) := rfl
theorem pay1_2 (c : Dev nD) : ((((c : Thread nD τ).loc cc0_stg1_0) ↦[oSet 2]{fullShare} oB20 m c) : sProp 𝕄) ⊢ (Rd m).payload (sendCell c 2) 0 0 :=
  Entails.of_eq (payload_snd m c 2 0).symm
theorem pay2_2 (c d : Dev nD) (hd : d = peer c 2) (fd : (cc0_scratch0 : Ref sig .tc).ty.Contents (Elt F)) :
    ((((d : Dev nD) : Thread nD τ).loc cc0_scratch0 ↦[rSet 2]{fullShare} rV2.write (Elt F) fd (oV2.read (Elt F) (oB20 m c)) Finset.univ) : sProp 𝕄)
      ⊢ (Rd m).payload (recvCell d 2) 0 0 := by
  subst hd
  rw [payload_rcv, recvPay_2]; unfold rB2; rw [peer_peer]
  exact Entails.of_eq (pts_write_congr rV2 (peer c 2) fullShare fd Zr _)
theorem sendPay_3 (c : Dev nD) : (sendPay m c 3 : sProp 𝕄) = (((c : Thread nD τ).loc cc0_stg1_0) ↦[oSet 0]{fullShare} oB01 m c) := rfl
theorem recvPay_3 (c : Dev nD) : (recvPay m c 3 : sProp 𝕄) = (((c : Thread nD τ).loc cc0_scratch0) ↦[rSet 3]{fullShare} rB3 m c) := rfl
theorem pay1_3 (c : Dev nD) : ((((c : Thread nD τ).loc cc0_stg1_0) ↦[oSet 0]{fullShare} oB01 m c) : sProp 𝕄) ⊢ (Rd m).payload (sendCell c 3) 0 0 :=
  Entails.of_eq (payload_snd m c 3 0).symm
theorem pay2_3 (c d : Dev nD) (hd : d = peer c 1) (fd : (cc0_scratch0 : Ref sig .tc).ty.Contents (Elt F)) :
    ((((d : Dev nD) : Thread nD τ).loc cc0_scratch0 ↦[rSet 3]{fullShare} rV3.write (Elt F) fd (oV0.read (Elt F) (oB01 m c)) Finset.univ) : sProp 𝕄)
      ⊢ (Rd m).payload (recvCell d 3) 0 0 := by
  subst hd
  rw [payload_rcv, recvPay_3]; unfold rB3; rw [peer_peer]
  exact Entails.of_eq (pts_write_congr rV3 (peer c 1) fullShare fd Zr _)
theorem sendPay_4 (c : Dev nD) : (sendPay m c 4 : sProp 𝕄) = (((c : Thread nD τ).loc cc0_stg1_0) ↦[oSet 1]{fullShare} oB11 m c) := rfl
theorem recvPay_4 (c : Dev nD) : (recvPay m c 4 : sProp 𝕄) = (((c : Thread nD τ).loc cc0_scratch0) ↦[rSet 4]{fullShare} rB4 m c) := rfl
theorem pay1_4 (c : Dev nD) : ((((c : Thread nD τ).loc cc0_stg1_0) ↦[oSet 1]{fullShare} oB11 m c) : sProp 𝕄) ⊢ (Rd m).payload (sendCell c 4) 0 0 :=
  Entails.of_eq (payload_snd m c 4 0).symm
theorem pay2_4 (c d : Dev nD) (hd : d = peer c 2) (fd : (cc0_scratch0 : Ref sig .tc).ty.Contents (Elt F)) :
    ((((d : Dev nD) : Thread nD τ).loc cc0_scratch0 ↦[rSet 4]{fullShare} rV4.write (Elt F) fd (oV1.read (Elt F) (oB11 m c)) Finset.univ) : sProp 𝕄)
      ⊢ (Rd m).payload (recvCell d 4) 0 0 := by
  subst hd
  rw [payload_rcv, recvPay_4]; unfold rB4; rw [peer_peer]
  exact Entails.of_eq (pts_write_congr rV4 (peer c 2) fullShare fd Zr _)
theorem sendPay_5 (c : Dev nD) : (sendPay m c 5 : sProp 𝕄) = (((c : Thread nD τ).loc cc0_stg1_0) ↦[oSet 2]{fullShare} oB21 m c) := rfl
theorem recvPay_5 (c : Dev nD) : (recvPay m c 5 : sProp 𝕄) = (((c : Thread nD τ).loc cc0_scratch0) ↦[rSet 5]{fullShare} rB5 m c) := rfl
theorem pay1_5 (c : Dev nD) : ((((c : Thread nD τ).loc cc0_stg1_0) ↦[oSet 2]{fullShare} oB21 m c) : sProp 𝕄) ⊢ (Rd m).payload (sendCell c 5) 0 0 :=
  Entails.of_eq (payload_snd m c 5 0).symm
theorem pay2_5 (c d : Dev nD) (hd : d = peer c 0) (fd : (cc0_scratch0 : Ref sig .tc).ty.Contents (Elt F)) :
    ((((d : Dev nD) : Thread nD τ).loc cc0_scratch0 ↦[rSet 5]{fullShare} rV5.write (Elt F) fd (oV2.read (Elt F) (oB21 m c)) Finset.univ) : sProp 𝕄)
      ⊢ (Rd m).payload (recvCell d 5) 0 0 := by
  subst hd
  rw [payload_rcv, recvPay_5]; unfold rB5; rw [peer_peer]
  exact Entails.of_eq (pts_write_congr rV5 (peer c 0) fullShare fd Zr _)
theorem sendPay_6 (c : Dev nD) : (sendPay m c 6 : sProp 𝕄) = (((c : Thread nD τ).loc cc0_stg1_0) ↦[oSet 0]{fullShare} oB02 m c) := rfl
theorem recvPay_6 (c : Dev nD) : (recvPay m c 6 : sProp 𝕄) = (((c : Thread nD τ).loc cc0_scratch0) ↦[rSet 6]{fullShare} rB6 m c) := rfl
theorem pay1_6 (c : Dev nD) : ((((c : Thread nD τ).loc cc0_stg1_0) ↦[oSet 0]{fullShare} oB02 m c) : sProp 𝕄) ⊢ (Rd m).payload (sendCell c 6) 0 0 :=
  Entails.of_eq (payload_snd m c 6 0).symm
theorem pay2_6 (c d : Dev nD) (hd : d = peer c 2) (fd : (cc0_scratch0 : Ref sig .tc).ty.Contents (Elt F)) :
    ((((d : Dev nD) : Thread nD τ).loc cc0_scratch0 ↦[rSet 6]{fullShare} rV6.write (Elt F) fd (oV0.read (Elt F) (oB02 m c)) Finset.univ) : sProp 𝕄)
      ⊢ (Rd m).payload (recvCell d 6) 0 0 := by
  subst hd
  rw [payload_rcv, recvPay_6]; unfold rB6; rw [peer_peer]
  exact Entails.of_eq (pts_write_congr rV6 (peer c 2) fullShare fd Zr _)
theorem sendPay_7 (c : Dev nD) : (sendPay m c 7 : sProp 𝕄) = (((c : Thread nD τ).loc cc0_stg1_0) ↦[oSet 1]{fullShare} oB12 m c) := rfl
theorem recvPay_7 (c : Dev nD) : (recvPay m c 7 : sProp 𝕄) = (((c : Thread nD τ).loc cc0_scratch0) ↦[rSet 7]{fullShare} rB7 m c) := rfl
theorem pay1_7 (c : Dev nD) : ((((c : Thread nD τ).loc cc0_stg1_0) ↦[oSet 1]{fullShare} oB12 m c) : sProp 𝕄) ⊢ (Rd m).payload (sendCell c 7) 0 0 :=
  Entails.of_eq (payload_snd m c 7 0).symm
theorem pay2_7 (c d : Dev nD) (hd : d = peer c 0) (fd : (cc0_scratch0 : Ref sig .tc).ty.Contents (Elt F)) :
    ((((d : Dev nD) : Thread nD τ).loc cc0_scratch0 ↦[rSet 7]{fullShare} rV7.write (Elt F) fd (oV1.read (Elt F) (oB12 m c)) Finset.univ) : sProp 𝕄)
      ⊢ (Rd m).payload (recvCell d 7) 0 0 := by
  subst hd
  rw [payload_rcv, recvPay_7]; unfold rB7; rw [peer_peer]
  exact Entails.of_eq (pts_write_congr rV7 (peer c 0) fullShare fd Zr _)
theorem sendPay_8 (c : Dev nD) : (sendPay m c 8 : sProp 𝕄) = (((c : Thread nD τ).loc cc0_stg1_0) ↦[oSet 2]{fullShare} oB22 m c) := rfl
theorem recvPay_8 (c : Dev nD) : (recvPay m c 8 : sProp 𝕄) = (((c : Thread nD τ).loc cc0_scratch0) ↦[rSet 8]{fullShare} rB8 m c) := rfl
theorem pay1_8 (c : Dev nD) : ((((c : Thread nD τ).loc cc0_stg1_0) ↦[oSet 2]{fullShare} oB22 m c) : sProp 𝕄) ⊢ (Rd m).payload (sendCell c 8) 0 0 :=
  Entails.of_eq (payload_snd m c 8 0).symm
theorem pay2_8 (c d : Dev nD) (hd : d = peer c 1) (fd : (cc0_scratch0 : Ref sig .tc).ty.Contents (Elt F)) :
    ((((d : Dev nD) : Thread nD τ).loc cc0_scratch0 ↦[rSet 8]{fullShare} rV8.write (Elt F) fd (oV2.read (Elt F) (oB22 m c)) Finset.univ) : sProp 𝕄)
      ⊢ (Rd m).payload (recvCell d 8) 0 0 := by
  subst hd
  rw [payload_rcv, recvPay_8]; unfold rB8; rw [peer_peer]
  exact Entails.of_eq (pts_write_congr rV8 (peer c 1) fullShare fd Zr _)

theorem close_snd (K : Dev nD × Fin 19 → ℕ) (c : Dev nD) (n : Fin 9) :
    iprop(records m K ∗ atPos ER (sendCell c n) 1 (∅ : Finset (Fin 3)) 0) ⊢ (iprop(|={Set.univ}=> semVal (sendCell c n) 0) : sProp 𝕄) := by
  iintro ⟨#Hrec, Hat⟩
  iapply (Rounds.cell_close ER (Rd m) (Set.mem_univ (K (c, kSnd n))) (fun h => h) (R := 0 + 1) (duties_later m (sendCell c n)))
  isplitr; · iapply (inv_snd m K c n); iexact Hrec
  iexact Hat
theorem close_rcv (K : Dev nD × Fin 19 → ℕ) (c : Dev nD) (n : Fin 9) :
    iprop(records m K ∗ atPos ER (recvCell c n) 1 (∅ : Finset (Fin 3)) 0) ⊢ (iprop(|={Set.univ}=> semVal (recvCell c n) 0) : sProp 𝕄) := by
  iintro ⟨#Hrec, Hat⟩
  iapply (Rounds.cell_close ER (Rd m) (Set.mem_univ (K (c, kRcv n))) (fun h => h) (R := 0 + 1) (duties_later m (recvCell c n)))
  isplitr; · iapply (inv_rcv m K c n); iexact Hrec
  iexact Hat

end Norm

section Body
variable (K : Dev nD × Fin 19 → ℕ)

def bodyPre (c : Dev nD) : sProp 𝕄 :=
  iprop((ghost m K c ∗ creds c ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outFinal m c))

set_option maxHeartbeats 1600000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton, cc0_body_skel, k0_part12_eq_skeleton, k0_part12_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel,
    k0_part11_eq_skeleton, k0_part11_skel,
    semSignalWord, semWaitWord, Prog.lift, Prog.bind_op, Prog.bind_ret, Prog.pure_eq_ret, wp_deviceId]

  simp only [dev1_eq c, dev2_eq c, dev3_eq c, dev4_eq c, dev5_eq c, dev6_eq c, dev7_eq c, dev8_eq c, dev9_eq c, dev10_eq c, dev11_eq c, dev12_eq c, snd_sem_0, rcv_sem_0, snd_sem_1, rcv_sem_1, snd_sem_2, rcv_sem_2, snd_sem_3, rcv_sem_3, snd_sem_4, rcv_sem_4, snd_sem_5, rcv_sem_5, snd_sem_6, rcv_sem_6, snd_sem_7, rcv_sem_7, snd_sem_8, rcv_sem_8]
  unfold bodyPre ghost linear positions payToks creds
  iintro ⟨⟨⟨⟨#Hrec, Hpos, HtB, HtR, HtS⟩, ⟨HcB, HcR⟩, #Hlev, ⟨%f0, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = Osend c 0 + Bk c 2 + Bk c 1 + Bk c 0 from rfl]
  ihave Hpos' := (Entails.of_eq (chain19 _)) $$ Hpos
  icases Hpos' with ⟨HpB, HpS0, HpS1, HpS2, HpS3, HpS4, HpS5, HpS6, HpS7, HpS8, HpR0, HpR1, HpR2, HpR3, HpR4, HpR5, HpR6, HpR7, HpR8⟩
  ihave HtB' := (Entails.of_eq (bigSep_fin3 _)) $$ HtB
  icases HtB' with ⟨HtB0, HtB1, HtB2⟩
  ihave HtR' := (Entails.of_eq (chain9 _)) $$ HtR
  icases HtR' with ⟨HtR0, HtR1, HtR2, HtR3, HtR4, HtR5, HtR6, HtR7, HtR8⟩
  ihave HtS' := (Entails.of_eq (chain9 _)) $$ HtS
  icases HtS' with ⟨HtS0, HtS1, HtS2, HtS3, HtS4, HtS5, HtS6, HtS7, HtS8⟩
  ihave HcR' := (Entails.of_eq (chain9 _)) $$ HcR
  icases HcR' with ⟨HcR0, HcR1, HcR2, HcR3, HcR4, HcR5, HcR6, HcR7, HcR8⟩
  ihave Hscr' := (scr_split c f0) $$ Hscr
  icases Hscr' with ⟨Hs0, Hs1, Hs2, Hs3, Hs4, Hs5, Hs6, Hs7, Hs8⟩
  -- the barrier signal to the partner under mask 0
  iapply (wp_sig m K c 0 (Osend c 0 + Bk c 2 + Bk c 1) rfl) $$ [HO HtB0 Hs0 Hs5 Hs7]
  · isplitr; · iexact Hrec
    isplitl [HO]; · iexact HO
    isplitl [HtB0]; · iexact HtB0
    isplitl [Hs0]; · iexists f0; iexact Hs0
    isplitl [Hs5]; · iexists f0; iexact Hs5
    iexists f0; iexact Hs7
  iintro HO
  -- the barrier signal to the partner under mask 1
  iapply (wp_sig m K c 1 (Osend c 0 + Bk c 2) rfl) $$ [HO HtB1 Hs1 Hs3 Hs8]
  · isplitr; · iexact Hrec
    isplitl [HO]; · iexact HO
    isplitl [HtB1]; · iexact HtB1
    isplitl [Hs1]; · iexists f0; iexact Hs1
    isplitl [Hs3]; · iexists f0; iexact Hs3
    iexists f0; iexact Hs8
  iintro HO
  -- the barrier signal to the partner under mask 2
  iapply (wp_sig m K c 2 (Osend c 0) rfl) $$ [HO HtB2 Hs2 Hs4 Hs6]
  · isplitr; · iexact Hrec
    isplitl [HO]; · iexact HO
    isplitl [HtB2]; · iexact HtB2
    isplitl [Hs2]; · iexists f0; iexact Hs2
    isplitl [Hs4]; · iexists f0; iexact Hs4
    iexists f0; iexact Hs6
  iintro HO
  ihave Ho3 := (out_split c g1) $$ Hout
  icases Ho3 with ⟨Ho0, Ho1, Ho2⟩
  unfold outR
  -- part 0: its rows of the argument, cast, into the result buffer
  iapply (wp_load_rect 𝒱₀ (c : Thread nD τ) none Set.univ (m := xM) (r := oR0) (Finset.subset_univ _)) $$ Hx; iintro Hx
  iapply (wp_load_rect 𝒱₀ (c : Thread nD τ) none Set.univ (m := oM) (r := oR0) (S := oSet 0) (Finset.Subset.refl _)) $$ Ho0; iintro Ho0
  iapply (wp_store 𝒱₀ (c : Thread nD τ) none Set.univ (m := oM) (r := oR0) (Mk := Finset.univ) (S := oSet 0) (Finset.Subset.refl _)) $$ Ho0; iintro Ho0
  ihave Ho0' := (conv_o0 c g1 _) $$ Ho0
  -- part 1: its rows of the argument, cast, into the result buffer
  iapply (wp_load_rect 𝒱₀ (c : Thread nD τ) none Set.univ (m := xM) (r := oR1) (Finset.subset_univ _)) $$ Hx; iintro Hx
  iapply (wp_load_rect 𝒱₀ (c : Thread nD τ) none Set.univ (m := oM) (r := oR1) (S := oSet 1) (Finset.Subset.refl _)) $$ Ho1; iintro Ho1
  iapply (wp_store 𝒱₀ (c : Thread nD τ) none Set.univ (m := oM) (r := oR1) (Mk := Finset.univ) (S := oSet 1) (Finset.Subset.refl _)) $$ Ho1; iintro Ho1
  ihave Ho1' := (conv_o1 c g1 _) $$ Ho1
  -- part 2: its rows of the argument, cast, into the result buffer
  iapply (wp_load_rect 𝒱₀ (c : Thread nD τ) none Set.univ (m := xM) (r := oR2) (Finset.subset_univ _)) $$ Hx; iintro Hx
  iapply (wp_load_rect 𝒱₀ (c : Thread nD τ) none Set.univ (m := oM) (r := oR2) (S := oSet 2) (Finset.Subset.refl _)) $$ Ho2; iintro Ho2
  iapply (wp_store 𝒱₀ (c : Thread nD τ) none Set.univ (m := oM) (r := oR2) (Mk := Finset.univ) (S := oSet 2) (Finset.Subset.refl _)) $$ Ho2; iintro Ho2
  ihave Ho2' := (conv_o2 c g1 _) $$ Ho2
  -- the wait for the three partners
  iapply (wp_wait_bar m K c (wpE_semWait_eq 𝒱₀ (c : Thread nD τ) none Set.univ) rfl) $$ [HcB HO HpB]
  · isplitr; · iexact Hrec
    isplitr; · iexact Hlev
    isplitl [HcB]; · iexact HcB
    isplitl [HO]; · iexact HO
    iexact HpB
  iintro ⟨HO, HpB, Hb0, Hb1, Hb2⟩
  unfold barPay landing scrR
  icases Hb0 with ⟨⟨⟨%fa0, Ha0⟩, -⟩, ⟨⟨%fa5, Ha5⟩, -⟩, ⟨⟨%fa7, Ha7⟩, -⟩⟩
  icases Hb1 with ⟨⟨⟨%fa1, Ha1⟩, -⟩, ⟨⟨%fa3, Ha3⟩, -⟩, ⟨⟨%fa8, Ha8⟩, -⟩⟩
  icases Hb2 with ⟨⟨⟨%fa2, Ha2⟩, -⟩, ⟨⟨%fa4, Ha4⟩, -⟩, ⟨⟨%fa6, Ha6⟩, -⟩⟩
  -- transfer 0: part 0, step 0
  rw [show Osend c 0 = Osend c 1 + Tn c 0 from Osend_succ c 0]
  iapply (wp_snd m K c 0 (Osend c 1) _ (dev4_eq c) snd_sem_0 rcv_sem_0 (src := oSl0) (dst := rSl0) (oB00 m c) fa0 rfl (pay1_0 m c) (pay2_0 m c _ (dev4_eq c) fa0)) $$ [Ho0' Ha0 HO HtS0 HtR0]
  · isplitr; · iexact Hrec
    isplitl [Ho0']; · iexact Ho0'
    isplitl [Ha0]; · rw [dev4_eq c]; iexact Ha0
    isplitl [HO]; · iexact HO
    isplitl [HtS0]; · iexact HtS0
    iexact HtR0
  iintro ⟨HcS0, HO⟩
  -- transfer 1: part 1, step 0
  rw [show Osend c 1 = Osend c 2 + Tn c 1 from Osend_succ c 1]
  iapply (wp_snd m K c 1 (Osend c 2) _ (dev5_eq c) snd_sem_1 rcv_sem_1 (src := oSl1) (dst := rSl1) (oB10 m c) fa1 rfl (pay1_1 m c) (pay2_1 m c _ (dev5_eq c) fa1)) $$ [Ho1' Ha1 HO HtS1 HtR1]
  · isplitr; · iexact Hrec
    isplitl [Ho1']; · iexact Ho1'
    isplitl [Ha1]; · rw [dev5_eq c]; iexact Ha1
    isplitl [HO]; · iexact HO
    isplitl [HtS1]; · iexact HtS1
    iexact HtR1
  iintro ⟨HcS1, HO⟩
  -- transfer 2: part 2, step 0
  rw [show Osend c 2 = Osend c 3 + Tn c 2 from Osend_succ c 2]
  iapply (wp_snd m K c 2 (Osend c 3) _ (dev6_eq c) snd_sem_2 rcv_sem_2 (src := oSl2) (dst := rSl2) (oB20 m c) fa2 rfl (pay1_2 m c) (pay2_2 m c _ (dev6_eq c) fa2)) $$ [Ho2' Ha2 HO HtS2 HtR2]
  · isplitr; · iexact Hrec
    isplitl [Ho2']; · iexact Ho2'
    isplitl [Ha2]; · rw [dev6_eq c]; iexact Ha2
    isplitl [HO]; · iexact HO
    isplitl [HtS2]; · iexact HtS2
    iexact HtR2
  iintro ⟨HcS2, HO⟩
  -- the waits of transfer 0, then the addition into part 0
  iapply (wp_wait_snd m K c 0 3 (wpE_waitDma2_eq 𝒱₀ (c : Thread nD τ) none Set.univ) snd_sem_0 rfl) $$ [HcS0 HO HpS0]
  · isplitr; · iexact Hrec
    isplitr; · iexact Hlev
    isplitl [HcS0]; · iexact HcS0
    isplitl [HO]; · iexact HO
    iexact HpS0
  iintro ⟨HO, HpS0, Hsp0⟩
  ihave Hq0 := (Entails.of_eq (sendPay_0 m c)) $$ Hsp0
  iapply (wp_wait_rcv m K c 0 3 (by decide) (wpE_waitDma2_eq 𝒱₀ (c : Thread nD τ) none Set.univ) rcv_sem_0 rfl) $$ [HcR0 HO HpR0]
  · isplitr; · iexact Hrec
    isplitr; · iexact Hlev
    isplitl [HcR0]; · iexact HcR0
    isplitl [HO]; · iexact HO
    iexact HpR0
  iintro ⟨HO, HpR0, Hrp0⟩
  ihave Hr0 := (Entails.of_eq (recvPay_0 m c)) $$ Hrp0
  iapply (wp_load_rect 𝒱₀ (c : Thread nD τ) none Set.univ (m := oM) (r := oR0) (S := oSet 0) (Finset.Subset.refl _)) $$ Hq0; iintro Hq0
  iapply (wp_load_rect 𝒱₀ (c : Thread nD τ) none Set.univ (m := rM) (r := rR0) (S := rSet 0) (by rw [rA0_set])) $$ Hr0; iintro Hr0
  iapply (wp_load_rect 𝒱₀ (c : Thread nD τ) none Set.univ (m := oM) (r := oR0) (S := oSet 0) (Finset.Subset.refl _)) $$ Hq0; iintro Hq0
  iapply (wp_store 𝒱₀ (c : Thread nD τ) none Set.univ (m := oM) (r := oR0) (Mk := Finset.univ) (S := oSet 0) (Finset.Subset.refl _)) $$ Hq0; iintro Hq0
  ihave Hu0 := (conv_o0 c (oB00 m c) _) $$ Hq0
  -- transfer 3: part 0, step 1
  rw [show Osend c 3 = Osend c 4 + Tn c 3 from Osend_succ c 3]
  iapply (wp_snd m K c 3 (Osend c 4) _ (dev7_eq c) snd_sem_3 rcv_sem_3 (src := oSl0) (dst := rSl3) (oB01 m c) fa3 rfl (pay1_3 m c) (pay2_3 m c _ (dev7_eq c) fa3)) $$ [Hu0 Ha3 HO HtS3 HtR3]
  · isplitr; · iexact Hrec
    isplitl [Hu0]; · iexact Hu0
    isplitl [Ha3]; · rw [dev7_eq c]; iexact Ha3
    isplitl [HO]; · iexact HO
    isplitl [HtS3]; · iexact HtS3
    iexact HtR3
  iintro ⟨HcS3, HO⟩
  -- the waits of transfer 1, then the addition into part 1
  iapply (wp_wait_snd m K c 1 4 (wpE_waitDma2_eq 𝒱₀ (c : Thread nD τ) none Set.univ) snd_sem_1 rfl) $$ [HcS1 HO HpS1]
  · isplitr; · iexact Hrec
    isplitr; · iexact Hlev
    isplitl [HcS1]; · iexact HcS1
    isplitl [HO]; · iexact HO
    iexact HpS1
  iintro ⟨HO, HpS1, Hsp1⟩
  ihave Hq1 := (Entails.of_eq (sendPay_1 m c)) $$ Hsp1
  iapply (wp_wait_rcv m K c 1 4 (by decide) (wpE_waitDma2_eq 𝒱₀ (c : Thread nD τ) none Set.univ) rcv_sem_1 rfl) $$ [HcR1 HO HpR1]
  · isplitr; · iexact Hrec
    isplitr; · iexact Hlev
    isplitl [HcR1]; · iexact HcR1
    isplitl [HO]; · iexact HO
    iexact HpR1
  iintro ⟨HO, HpR1, Hrp1⟩
  ihave Hr1 := (Entails.of_eq (recvPay_1 m c)) $$ Hrp1
  iapply (wp_load_rect 𝒱₀ (c : Thread nD τ) none Set.univ (m := oM) (r := oR1) (S := oSet 1) (Finset.Subset.refl _)) $$ Hq1; iintro Hq1
  iapply (wp_load_rect 𝒱₀ (c : Thread nD τ) none Set.univ (m := rM) (r := rR1) (S := rSet 1) (by rw [rA1_set])) $$ Hr1; iintro Hr1
  iapply (wp_load_rect 𝒱₀ (c : Thread nD τ) none Set.univ (m := oM) (r := oR1) (S := oSet 1) (Finset.Subset.refl _)) $$ Hq1; iintro Hq1
  iapply (wp_store 𝒱₀ (c : Thread nD τ) none Set.univ (m := oM) (r := oR1) (Mk := Finset.univ) (S := oSet 1) (Finset.Subset.refl _)) $$ Hq1; iintro Hq1
  ihave Hu1 := (conv_o1 c (oB10 m c) _) $$ Hq1
  -- transfer 4: part 1, step 1
  rw [show Osend c 4 = Osend c 5 + Tn c 4 from Osend_succ c 4]
  iapply (wp_snd m K c 4 (Osend c 5) _ (dev8_eq c) snd_sem_4 rcv_sem_4 (src := oSl1) (dst := rSl4) (oB11 m c) fa4 rfl (pay1_4 m c) (pay2_4 m c _ (dev8_eq c) fa4)) $$ [Hu1 Ha4 HO HtS4 HtR4]
  · isplitr; · iexact Hrec
    isplitl [Hu1]; · iexact Hu1
    isplitl [Ha4]; · rw [dev8_eq c]; iexact Ha4
    isplitl [HO]; · iexact HO
    isplitl [HtS4]; · iexact HtS4
    iexact HtR4
  iintro ⟨HcS4, HO⟩
  -- the waits of transfer 2, then the addition into part 2
  iapply (wp_wait_snd m K c 2 5 (wpE_waitDma2_eq 𝒱₀ (c : Thread nD τ) none Set.univ) snd_sem_2 rfl) $$ [HcS2 HO HpS2]
  · isplitr; · iexact Hrec
    isplitr; · iexact Hlev
    isplitl [HcS2]; · iexact HcS2
    isplitl [HO]; · iexact HO
    iexact HpS2
  iintro ⟨HO, HpS2, Hsp2⟩
  ihave Hq2 := (Entails.of_eq (sendPay_2 m c)) $$ Hsp2
  iapply (wp_wait_rcv m K c 2 5 (by decide) (wpE_waitDma2_eq 𝒱₀ (c : Thread nD τ) none Set.univ) rcv_sem_2 rfl) $$ [HcR2 HO HpR2]
  · isplitr; · iexact Hrec
    isplitr; · iexact Hlev
    isplitl [HcR2]; · iexact HcR2
    isplitl [HO]; · iexact HO
    iexact HpR2
  iintro ⟨HO, HpR2, Hrp2⟩
  ihave Hr2 := (Entails.of_eq (recvPay_2 m c)) $$ Hrp2
  iapply (wp_load_rect 𝒱₀ (c : Thread nD τ) none Set.univ (m := oM) (r := oR2) (S := oSet 2) (Finset.Subset.refl _)) $$ Hq2; iintro Hq2
  iapply (wp_load_rect 𝒱₀ (c : Thread nD τ) none Set.univ (m := rM) (r := rR2) (S := rSet 2) (by rw [rA2_set])) $$ Hr2; iintro Hr2
  iapply (wp_load_rect 𝒱₀ (c : Thread nD τ) none Set.univ (m := oM) (r := oR2) (S := oSet 2) (Finset.Subset.refl _)) $$ Hq2; iintro Hq2
  iapply (wp_store 𝒱₀ (c : Thread nD τ) none Set.univ (m := oM) (r := oR2) (Mk := Finset.univ) (S := oSet 2) (Finset.Subset.refl _)) $$ Hq2; iintro Hq2
  ihave Hu2 := (conv_o2 c (oB20 m c) _) $$ Hq2
  -- transfer 5: part 2, step 1
  rw [show Osend c 5 = Osend c 6 + Tn c 5 from Osend_succ c 5]
  iapply (wp_snd m K c 5 (Osend c 6) _ (dev9_eq c) snd_sem_5 rcv_sem_5 (src := oSl2) (dst := rSl5) (oB21 m c) fa5 rfl (pay1_5 m c) (pay2_5 m c _ (dev9_eq c) fa5)) $$ [Hu2 Ha5 HO HtS5 HtR5]
  · isplitr; · iexact Hrec
    isplitl [Hu2]; · iexact Hu2
    isplitl [Ha5]; · rw [dev9_eq c]; iexact Ha5
    isplitl [HO]; · iexact HO
    isplitl [HtS5]; · iexact HtS5
    iexact HtR5
  iintro ⟨HcS5, HO⟩
  -- the waits of transfer 3, then the addition into part 0
  iapply (wp_wait_snd m K c 3 6 (wpE_waitDma2_eq 𝒱₀ (c : Thread nD τ) none Set.univ) snd_sem_3 rfl) $$ [HcS3 HO HpS3]
  · isplitr; · iexact Hrec
    isplitr; · iexact Hlev
    isplitl [HcS3]; · iexact HcS3
    isplitl [HO]; · iexact HO
    iexact HpS3
  iintro ⟨HO, HpS3, Hsp3⟩
  ihave Hq3 := (Entails.of_eq (sendPay_3 m c)) $$ Hsp3
  iapply (wp_wait_rcv m K c 3 6 (by decide) (wpE_waitDma2_eq 𝒱₀ (c : Thread nD τ) none Set.univ) rcv_sem_3 rfl) $$ [HcR3 HO HpR3]
  · isplitr; · iexact Hrec
    isplitr; · iexact Hlev
    isplitl [HcR3]; · iexact HcR3
    isplitl [HO]; · iexact HO
    iexact HpR3
  iintro ⟨HO, HpR3, Hrp3⟩
  ihave Hr3 := (Entails.of_eq (recvPay_3 m c)) $$ Hrp3
  iapply (wp_load_rect 𝒱₀ (c : Thread nD τ) none Set.univ (m := oM) (r := oR0) (S := oSet 0) (Finset.Subset.refl _)) $$ Hq3; iintro Hq3
  iapply (wp_load_rect 𝒱₀ (c : Thread nD τ) none Set.univ (m := rM) (r := rR3) (S := rSet 3) (by rw [rA3_set])) $$ Hr3; iintro Hr3
  iapply (wp_load_rect 𝒱₀ (c : Thread nD τ) none Set.univ (m := oM) (r := oR0) (S := oSet 0) (Finset.Subset.refl _)) $$ Hq3; iintro Hq3
  iapply (wp_store 𝒱₀ (c : Thread nD τ) none Set.univ (m := oM) (r := oR0) (Mk := Finset.univ) (S := oSet 0) (Finset.Subset.refl _)) $$ Hq3; iintro Hq3
  ihave Hu3 := (conv_o0 c (oB01 m c) _) $$ Hq3
  -- transfer 6: part 0, step 2
  rw [show Osend c 6 = Osend c 7 + Tn c 6 from Osend_succ c 6]
  iapply (wp_snd m K c 6 (Osend c 7) _ (dev10_eq c) snd_sem_6 rcv_sem_6 (src := oSl0) (dst := rSl6) (oB02 m c) fa6 rfl (pay1_6 m c) (pay2_6 m c _ (dev10_eq c) fa6)) $$ [Hu3 Ha6 HO HtS6 HtR6]
  · isplitr; · iexact Hrec
    isplitl [Hu3]; · iexact Hu3
    isplitl [Ha6]; · rw [dev10_eq c]; iexact Ha6
    isplitl [HO]; · iexact HO
    isplitl [HtS6]; · iexact HtS6
    iexact HtR6
  iintro ⟨HcS6, HO⟩
  -- the waits of transfer 4, then the addition into part 1
  iapply (wp_wait_snd m K c 4 7 (wpE_waitDma2_eq 𝒱₀ (c : Thread nD τ) none Set.univ) snd_sem_4 rfl) $$ [HcS4 HO HpS4]
  · isplitr; · iexact Hrec
    isplitr; · iexact Hlev
    isplitl [HcS4]; · iexact HcS4
    isplitl [HO]; · iexact HO
    iexact HpS4
  iintro ⟨HO, HpS4, Hsp4⟩
  ihave Hq4 := (Entails.of_eq (sendPay_4 m c)) $$ Hsp4
  iapply (wp_wait_rcv m K c 4 7 (by decide) (wpE_waitDma2_eq 𝒱₀ (c : Thread nD τ) none Set.univ) rcv_sem_4 rfl) $$ [HcR4 HO HpR4]
  · isplitr; · iexact Hrec
    isplitr; · iexact Hlev
    isplitl [HcR4]; · iexact HcR4
    isplitl [HO]; · iexact HO
    iexact HpR4
  iintro ⟨HO, HpR4, Hrp4⟩
  ihave Hr4 := (Entails.of_eq (recvPay_4 m c)) $$ Hrp4
  iapply (wp_load_rect 𝒱₀ (c : Thread nD τ) none Set.univ (m := oM) (r := oR1) (S := oSet 1) (Finset.Subset.refl _)) $$ Hq4; iintro Hq4
  iapply (wp_load_rect 𝒱₀ (c : Thread nD τ) none Set.univ (m := rM) (r := rR4) (S := rSet 4) (by rw [rA4_set])) $$ Hr4; iintro Hr4
  iapply (wp_load_rect 𝒱₀ (c : Thread nD τ) none Set.univ (m := oM) (r := oR1) (S := oSet 1) (Finset.Subset.refl _)) $$ Hq4; iintro Hq4
  iapply (wp_store 𝒱₀ (c : Thread nD τ) none Set.univ (m := oM) (r := oR1) (Mk := Finset.univ) (S := oSet 1) (Finset.Subset.refl _)) $$ Hq4; iintro Hq4
  ihave Hu4 := (conv_o1 c (oB11 m c) _) $$ Hq4
  -- transfer 7: part 1, step 2
  rw [show Osend c 7 = Osend c 8 + Tn c 7 from Osend_succ c 7]
  iapply (wp_snd m K c 7 (Osend c 8) _ (dev11_eq c) snd_sem_7 rcv_sem_7 (src := oSl1) (dst := rSl7) (oB12 m c) fa7 rfl (pay1_7 m c) (pay2_7 m c _ (dev11_eq c) fa7)) $$ [Hu4 Ha7 HO HtS7 HtR7]
  · isplitr; · iexact Hrec
    isplitl [Hu4]; · iexact Hu4
    isplitl [Ha7]; · rw [dev11_eq c]; iexact Ha7
    isplitl [HO]; · iexact HO
    isplitl [HtS7]; · iexact HtS7
    iexact HtR7
  iintro ⟨HcS7, HO⟩
  -- the waits of transfer 5, then the addition into part 2
  iapply (wp_wait_snd m K c 5 8 (wpE_waitDma2_eq 𝒱₀ (c : Thread nD τ) none Set.univ) snd_sem_5 rfl) $$ [HcS5 HO HpS5]
  · isplitr; · iexact Hrec
    isplitr; · iexact Hlev
    isplitl [HcS5]; · iexact HcS5
    isplitl [HO]; · iexact HO
    iexact HpS5
  iintro ⟨HO, HpS5, Hsp5⟩
  ihave Hq5 := (Entails.of_eq (sendPay_5 m c)) $$ Hsp5
  iapply (wp_wait_rcv m K c 5 8 (by decide) (wpE_waitDma2_eq 𝒱₀ (c : Thread nD τ) none Set.univ) rcv_sem_5 rfl) $$ [HcR5 HO HpR5]
  · isplitr; · iexact Hrec
    isplitr; · iexact Hlev
    isplitl [HcR5]; · iexact HcR5
    isplitl [HO]; · iexact HO
    iexact HpR5
  iintro ⟨HO, HpR5, Hrp5⟩
  ihave Hr5 := (Entails.of_eq (recvPay_5 m c)) $$ Hrp5
  iapply (wp_load_rect 𝒱₀ (c : Thread nD τ) none Set.univ (m := oM) (r := oR2) (S := oSet 2) (Finset.Subset.refl _)) $$ Hq5; iintro Hq5
  iapply (wp_load_rect 𝒱₀ (c : Thread nD τ) none Set.univ (m := rM) (r := rR5) (S := rSet 5) (by rw [rA5_set])) $$ Hr5; iintro Hr5
  iapply (wp_load_rect 𝒱₀ (c : Thread nD τ) none Set.univ (m := oM) (r := oR2) (S := oSet 2) (Finset.Subset.refl _)) $$ Hq5; iintro Hq5
  iapply (wp_store 𝒱₀ (c : Thread nD τ) none Set.univ (m := oM) (r := oR2) (Mk := Finset.univ) (S := oSet 2) (Finset.Subset.refl _)) $$ Hq5; iintro Hq5
  ihave Hu5 := (conv_o2 c (oB21 m c) _) $$ Hq5
  -- transfer 8: part 2, step 2
  rw [show Osend c 8 = Osend c 9 + Tn c 8 from Osend_succ c 8]
  iapply (wp_snd m K c 8 (Osend c 9) _ (dev12_eq c) snd_sem_8 rcv_sem_8 (src := oSl2) (dst := rSl8) (oB22 m c) fa8 rfl (pay1_8 m c) (pay2_8 m c _ (dev12_eq c) fa8)) $$ [Hu5 Ha8 HO HtS8 HtR8]
  · isplitr; · iexact Hrec
    isplitl [Hu5]; · iexact Hu5
    isplitl [Ha8]; · rw [dev12_eq c]; iexact Ha8
    isplitl [HO]; · iexact HO
    isplitl [HtS8]; · iexact HtS8
    iexact HtR8
  iintro ⟨HcS8, HO⟩
  -- the waits of transfer 6, then the addition into part 0
  iapply (wp_wait_snd m K c 6 9 (wpE_waitDma2_eq 𝒱₀ (c : Thread nD τ) none Set.univ) snd_sem_6 rfl) $$ [HcS6 HO HpS6]
  · isplitr; · iexact Hrec
    isplitr; · iexact Hlev
    isplitl [HcS6]; · iexact HcS6
    isplitl [HO]; · iexact HO
    iexact HpS6
  iintro ⟨HO, HpS6, Hsp6⟩
  ihave Hq6 := (Entails.of_eq (sendPay_6 m c)) $$ Hsp6
  iapply (wp_wait_rcv m K c 6 9 (by decide) (wpE_waitDma2_eq 𝒱₀ (c : Thread nD τ) none Set.univ) rcv_sem_6 rfl) $$ [HcR6 HO HpR6]
  · isplitr; · iexact Hrec
    isplitr; · iexact Hlev
    isplitl [HcR6]; · iexact HcR6
    isplitl [HO]; · iexact HO
    iexact HpR6
  iintro ⟨HO, HpR6, Hrp6⟩
  ihave Hr6 := (Entails.of_eq (recvPay_6 m c)) $$ Hrp6
  iapply (wp_load_rect 𝒱₀ (c : Thread nD τ) none Set.univ (m := oM) (r := oR0) (S := oSet 0) (Finset.Subset.refl _)) $$ Hq6; iintro Hq6
  iapply (wp_load_rect 𝒱₀ (c : Thread nD τ) none Set.univ (m := rM) (r := rR6) (S := rSet 6) (by rw [rA6_set])) $$ Hr6; iintro Hr6
  iapply (wp_load_rect 𝒱₀ (c : Thread nD τ) none Set.univ (m := oM) (r := oR0) (S := oSet 0) (Finset.Subset.refl _)) $$ Hq6; iintro Hq6
  iapply (wp_store 𝒱₀ (c : Thread nD τ) none Set.univ (m := oM) (r := oR0) (Mk := Finset.univ) (S := oSet 0) (Finset.Subset.refl _)) $$ Hq6; iintro Hq6
  ihave Hu6 := (conv_o0 c (oB02 m c) _) $$ Hq6
  -- the waits of transfer 7, then the addition into part 1
  iapply (wp_wait_snd m K c 7 9 (wpE_waitDma2_eq 𝒱₀ (c : Thread nD τ) none Set.univ) snd_sem_7 rfl) $$ [HcS7 HO HpS7]
  · isplitr; · iexact Hrec
    isplitr; · iexact Hlev
    isplitl [HcS7]; · iexact HcS7
    isplitl [HO]; · iexact HO
    iexact HpS7
  iintro ⟨HO, HpS7, Hsp7⟩
  ihave Hq7 := (Entails.of_eq (sendPay_7 m c)) $$ Hsp7
  iapply (wp_wait_rcv m K c 7 9 (by decide) (wpE_waitDma2_eq 𝒱₀ (c : Thread nD τ) none Set.univ) rcv_sem_7 rfl) $$ [HcR7 HO HpR7]
  · isplitr; · iexact Hrec
    isplitr; · iexact Hlev
    isplitl [HcR7]; · iexact HcR7
    isplitl [HO]; · iexact HO
    iexact HpR7
  iintro ⟨HO, HpR7, Hrp7⟩
  ihave Hr7 := (Entails.of_eq (recvPay_7 m c)) $$ Hrp7
  iapply (wp_load_rect 𝒱₀ (c : Thread nD τ) none Set.univ (m := oM) (r := oR1) (S := oSet 1) (Finset.Subset.refl _)) $$ Hq7; iintro Hq7
  iapply (wp_load_rect 𝒱₀ (c : Thread nD τ) none Set.univ (m := rM) (r := rR7) (S := rSet 7) (by rw [rA7_set])) $$ Hr7; iintro Hr7
  iapply (wp_load_rect 𝒱₀ (c : Thread nD τ) none Set.univ (m := oM) (r := oR1) (S := oSet 1) (Finset.Subset.refl _)) $$ Hq7; iintro Hq7
  iapply (wp_store 𝒱₀ (c : Thread nD τ) none Set.univ (m := oM) (r := oR1) (Mk := Finset.univ) (S := oSet 1) (Finset.Subset.refl _)) $$ Hq7; iintro Hq7
  ihave Hu7 := (conv_o1 c (oB12 m c) _) $$ Hq7
  -- the waits of transfer 8, then the addition into part 2
  iapply (wp_wait_snd m K c 8 9 (wpE_waitDma2_eq 𝒱₀ (c : Thread nD τ) none Set.univ) snd_sem_8 rfl) $$ [HcS8 HO HpS8]
  · isplitr; · iexact Hrec
    isplitr; · iexact Hlev
    isplitl [HcS8]; · iexact HcS8
    isplitl [HO]; · iexact HO
    iexact HpS8
  iintro ⟨HO, HpS8, Hsp8⟩
  ihave Hq8 := (Entails.of_eq (sendPay_8 m c)) $$ Hsp8
  iapply (wp_wait_rcv m K c 8 9 (by decide) (wpE_waitDma2_eq 𝒱₀ (c : Thread nD τ) none Set.univ) rcv_sem_8 rfl) $$ [HcR8 HO HpR8]
  · isplitr; · iexact Hrec
    isplitr; · iexact Hlev
    isplitl [HcR8]; · iexact HcR8
    isplitl [HO]; · iexact HO
    iexact HpR8
  iintro ⟨HO, HpR8, Hrp8⟩
  ihave Hr8 := (Entails.of_eq (recvPay_8 m c)) $$ Hrp8
  iapply (wp_load_rect 𝒱₀ (c : Thread nD τ) none Set.univ (m := oM) (r := oR2) (S := oSet 2) (Finset.Subset.refl _)) $$ Hq8; iintro Hq8
  iapply (wp_load_rect 𝒱₀ (c : Thread nD τ) none Set.univ (m := rM) (r := rR8) (S := rSet 8) (by rw [rA8_set])) $$ Hr8; iintro Hr8
  iapply (wp_load_rect 𝒱₀ (c : Thread nD τ) none Set.univ (m := oM) (r := oR2) (S := oSet 2) (Finset.Subset.refl _)) $$ Hq8; iintro Hq8
  iapply (wp_store 𝒱₀ (c : Thread nD τ) none Set.univ (m := oM) (r := oR2) (Mk := Finset.univ) (S := oSet 2) (Finset.Subset.refl _)) $$ Hq8; iintro Hq8
  ihave Hu8 := (conv_o2 c (oB22 m c) _) $$ Hq8
  -- the eighteen scoped cells close at zero
  imod (close_snd m K c 0) $$ [HpS0] with HzS0
  · isplitr; · iexact Hrec
    iexact HpS0
  imod (close_rcv m K c 0) $$ [HpR0] with HzR0
  · isplitr; · iexact Hrec
    iexact HpR0
  imod (close_snd m K c 1) $$ [HpS1] with HzS1
  · isplitr; · iexact Hrec
    iexact HpS1
  imod (close_rcv m K c 1) $$ [HpR1] with HzR1
  · isplitr; · iexact Hrec
    iexact HpR1
  imod (close_snd m K c 2) $$ [HpS2] with HzS2
  · isplitr; · iexact Hrec
    iexact HpS2
  imod (close_rcv m K c 2) $$ [HpR2] with HzR2
  · isplitr; · iexact Hrec
    iexact HpR2
  imod (close_snd m K c 3) $$ [HpS3] with HzS3
  · isplitr; · iexact Hrec
    iexact HpS3
  imod (close_rcv m K c 3) $$ [HpR3] with HzR3
  · isplitr; · iexact Hrec
    iexact HpR3
  imod (close_snd m K c 4) $$ [HpS4] with HzS4
  · isplitr; · iexact Hrec
    iexact HpS4
  imod (close_rcv m K c 4) $$ [HpR4] with HzR4
  · isplitr; · iexact Hrec
    iexact HpR4
  imod (close_snd m K c 5) $$ [HpS5] with HzS5
  · isplitr; · iexact Hrec
    iexact HpS5
  imod (close_rcv m K c 5) $$ [HpR5] with HzR5
  · isplitr; · iexact Hrec
    iexact HpR5
  imod (close_snd m K c 6) $$ [HpS6] with HzS6
  · isplitr; · iexact Hrec
    iexact HpS6
  imod (close_rcv m K c 6) $$ [HpR6] with HzR6
  · isplitr; · iexact Hrec
    iexact HpR6
  imod (close_snd m K c 7) $$ [HpS7] with HzS7
  · isplitr; · iexact Hrec
    iexact HpS7
  imod (close_rcv m K c 7) $$ [HpR7] with HzR7
  · isplitr; · iexact Hrec
    iexact HpR7
  imod (close_snd m K c 8) $$ [HpS8] with HzS8
  · isplitr; · iexact Hrec
    iexact HpS8
  imod (close_rcv m K c 8) $$ [HpR8] with HzR8
  · isplitr; · iexact Hrec
    iexact HpR8
  rw [wp_ret]; imodintro
  iapply Hk
  unfold bodyPost Φ₁ Dat.owesAt Pipeline.owesWithin
  rw [show (dats m 0 c).owed t₀.succ = 0 from rfl, Osend_nine]
  isplitl [Hr0 Hr1 Hr2 Hr3 Hr4 Hr5 Hr6 Hr7 Hr8 HzS0 HzR0 HzS1 HzR1 HzS2 HzR2 HzS3 HzR3 HzS4 HzR4 HzS5 HzR5 HzS6 HzR6 HzS7 HzR7 HzS8 HzR8]
  · isplitl [Hr0 Hr1 Hr2 Hr3 Hr4 Hr5 Hr6 Hr7 Hr8]
    · iapply (scr_join c)
      unfold scrR
      isplitl [Hr0]; · iexists _; iexact Hr0
      isplitl [Hr1]; · iexists _; iexact Hr1
      isplitl [Hr2]; · iexists _; iexact Hr2
      isplitl [Hr3]; · iexists _; iexact Hr3
      isplitl [Hr4]; · iexists _; iexact Hr4
      isplitl [Hr5]; · iexists _; iexact Hr5
      isplitl [Hr6]; · iexists _; iexact Hr6
      isplitl [Hr7]; · iexists _; iexact Hr7
      iexists _; iexact Hr8
    · rw [chain18]
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzS8]; · iexact HzS8
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      isplitl [HzR7]; · iexact HzR7
      iexact HzR8
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iapply (out_join m c)
  unfold outR
  isplitl [Hu6]; · iexact Hu6
  isplitl [Hu7]; · iexact Hu7
  iexact Hu8

end Body

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.Kernel.Hand

end
-- ==== Proof.Launch.lean ====
/-
  The launch of the eight-device exchange.

  The resource algebra is initialised with every device's nineteen cells at round 0 and one token per duty of every
  cell. Under one update every cell's invariant is allocated from its counter at zero; the invariants and the
  reached-round facts are shared by all devices, each device keeps its positions, and every duty token is dealt to
  the device that pays the duty: a barrier token of mask k to the partner under mask k, the receive token of transfer
  n to the partner that sends transfer n, a send token to the device itself. The credit a device is dealt for its own
  cells is the sum of what all devices owe them: three units on its barrier cell, one transfer's credit on each
  receive cell. The staging semaphores sit at level 0, below everything a device owes, so the pipeline's own waits are
  allowed. With the body's obligation this gives the run of the whole mesh; the argument array ends as it began and
  the result array ends as the assembled sum.
-/
import proofs.«900389_g7700000000000390_dist_rs_then_ag_i_m512_n512_v7x_i8_bf16_1_alg».proof.Proof.Data
import proofs.«900389_g7700000000000390_dist_rs_then_ag_i_m512_n512_v7x_i8_bf16_1_alg».proof.Proof.Gen.KernelIdeal.Frame

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the algebra starts with -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def xCells : Finset (GSem nD τ sig) := Finset.univ.map ⟨kcell, kcell_injective⟩

/-- The duties of a device's own cells: its barrier's three, one per send cell, one per receive cell. -/
abbrev TokIx : Type := Fin 3 ⊕ (Fin 9 ⊕ Fin 9)
abbrev tokOf (cj : Dev nD × TokIx) : GSem nD τ sig × ℕ × Fin 3 := match cj.2 with
  | .inl k => (barCell cj.1, 0, k)
  | .inr (.inl n) => (sendCell cj.1 n, 0, 0)
  | .inr (.inr n) => (recvCell cj.1 n, 0, 0)
theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with k | n | n <;> rcases j' with k' | n' | n' <;> exact this
  subst h1
  have hs := congrArg (fun x : GSem nD τ sig × ℕ × Fin 3 => x.1.2) h
  have hd := congrArg (fun x : GSem nD τ sig × ℕ × Fin 3 => x.2.2) h
  rcases j with k | n | n <;> rcases j' with k' | n' | n'
  · have hk : k = k' := hd
    subst hk; rfl
  · exact absurd hs (fun h' => by cases h')
  · exact absurd hs (fun h' => by cases h')
  · exact absurd hs (fun h' => by cases h')
  · have hv : 2 + n.val = 2 + n'.val := congrArg (fun q : DmaSem sig => q.val) (SemLoc.dma.inj hs)
    have hn : n = n' := Fin.ext (by omega)
    subst hn; rfl
  · have hv : 2 + n.val = 11 + n'.val := congrArg (fun q : DmaSem sig => q.val) (SemLoc.dma.inj hs)
    have := n.isLt; omega
  · exact absurd hs (fun h' => by cases h')
  · have hv : 11 + n.val = 2 + n'.val := congrArg (fun q : DmaSem sig => q.val) (SemLoc.dma.inj hs)
    have := n'.isLt; omega
  · have hv : 11 + n.val = 11 + n'.val := congrArg (fun q : DmaSem sig => q.val) (SemLoc.dma.inj hs)
    have hn : n = n' := Fin.ext (by omega)
    subst hn; rfl
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun k : Fin 3 => dutyTok ER (barCell c) 0 k)
    ∗ (bigSep Finset.univ fun n : Fin 9 => dutyTok ER (sendCell c n) 0 (0 : Fin 3))
    ∗ (bigSep Finset.univ fun n : Fin 9 => dutyTok ER (recvCell c n) 0 (0 : Fin 3)))

/-- What the initial element deals device `c`: the round states of its cells, its positions, the reached-round facts,
    the tokens of its own cells' duties. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 19 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [BI.bigSep_univ_sum, BI.bigSep_univ_sum]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
theorem bigSep_fin19 (Φ : Fin 19 → sProp 𝕄) : bigSep Finset.univ Φ = iprop(Φ 0 ∗ bigSep Finset.univ fun j : Fin 18 => Φ j.succ) := by
  rw [Fin.univ_succ, Finset.cons_eq_insert, BI.bigSep_insert (by simp), BI.bigSep_map]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The eighteen scoped semaphores and the barrier semaphore are the device's nineteen cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [unscopedSems0_eq, bigSep_fin19]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 19 → ℕ) (c : Dev nD) : iprop(records m K ∗ linear c) ⊢ G' m c := by
  unfold G' ghost
  iintro H
  iexists K
  iexact H

omit [FloatOps F] in
/-- A family over (device, index) read at the partner under the index's mask: the same family, every device taking its
    partner's place (the partner map of each mask is its own inverse). -/
theorem deal {J : Type} [Fintype J] (κ : J → Fin 3) (Φ : Dev nD → J → sProp 𝕄) :
    (bigSep Finset.univ fun c : Dev nD => bigSep Finset.univ fun j : J => Φ c j)
      = bigSep Finset.univ fun c : Dev nD => bigSep Finset.univ fun j : J => Φ (peer c (κ j)) j := by
  rw [bigSep_univ_comm, bigSep_univ_comm (fun (c : Dev nD) (j : J) => Φ (peer c (κ j)) j)]
  exact bigSep_congr fun j _ => bigSep_univ_equiv (peerEquiv (κ j)) (fun c => Φ c j)

omit [FloatOps F] in
/-- The tokens dealt to their payers: the barrier token of mask `k` to the partner under `k`, the receive token of
    transfer `n` to the partner that sends it; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun k : Fin 3 => k) (fun (c : Dev nD) (k : Fin 3) => (dutyTok ER (barCell c) 0 k : sProp 𝕄)),
    deal kOf (fun (c : Dev nD) (n : Fin 9) => (dutyTok ER (recvCell c n) 0 (0 : Fin 3) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the launch deals device `c` for its own cells: every partner owes its barrier cell one unit, and the partner
    that sends transfer `n` owes its receive cell that transfer's credit. -/
theorem creds_intro (c : Dev nD) : (Pipeline.launchCred O₀ c : sProp 𝕄) ⊢ creds c := by
  have hb (k : Fin 3) : (Pipeline.launchCred (fun d => Bk d k) c : sProp 𝕄) ⊢ cred (tallyAt (barCell c) () 1) :=
    Pipeline.launchCred_tallyAt (.reg barS) (fun d => peer d k) (fun d => peer d k) (fun c => peer_peer c k) (fun c => peer_peer c k) () 1 c
  have hr (n : Fin 9) : (Pipeline.launchCred (fun d => Tn d n) c : sProp 𝕄) ⊢ cred (tallyAt (recvCell c n) () (Nn n)) :=
    Pipeline.launchCred_tallyAt (.dma (rcvS n)) (fun d => peer d (kOf n)) (fun d => peer d (kOf n)) (fun c => peer_peer c _) (fun c => peer_peer c _) () (Nn n) c
  have hs : (Pipeline.launchCred (fun d => Osend d 0) c : sProp 𝕄) ⊢ bigSep Finset.univ fun n : Fin 9 => cred (tallyAt (recvCell c n) () (Nn n)) := by
    unfold Osend
    rw [Finset.filter_true_of_mem (fun _ _ => Nat.zero_le _), Pipeline.launchCred_sum]
    exact bigSep_mono fun n _ => hr n
  have h3 : iprop(cred (tallyAt (barCell c) () 1) ∗ cred (tallyAt (barCell c) () 1) ∗ cred (tallyAt (barCell c) () 1))
      ⊢ (cred (tallyAt (barCell c) () 3) : sProp 𝕄) := by
    have e : (tallyAt (barCell c) () 3 : CellTallies nD τ sig Unit)
        = tallyAt (barCell c) () 1 + (tallyAt (barCell c) () 1 + tallyAt (barCell c) () 1) := by
      rw [tallyAt_add, tallyAt_add]
    rw [e]
    exact (sep_mono_right (cred_add _ _).2).trans (cred_add _ _).2
  show (Pipeline.launchCred (fun d => Osend d 0 + Bk d 2 + Bk d 1 + Bk d 0) c : sProp 𝕄) ⊢ _
  rw [Pipeline.launchCred_add, Pipeline.launchCred_add, Pipeline.launchCred_add]
  unfold creds
  iintro ⟨⟨⟨Hs, H2⟩, H1⟩, H0⟩
  ihave Hs' := hs $$ Hs
  ihave H2' := (hb 2) $$ H2
  ihave H1' := (hb 1) $$ H1
  ihave H0' := (hb 0) $$ H0
  isplitr [Hs']
  · iapply h3
    isplitl [H2']; · iexact H2'
    isplitl [H1']; · iexact H1'
    iexact H0'
  · iexact Hs'

/-! ## The theorem's side conditions -/

omit [FloatOps F] in
/-- Every cell a device owes at launch is a partner's receive cell or a partner's barrier cell. -/
theorem O₀_pos {c : Dev nD} {g : GSem nD τ sig} {u : Unit} (h : 0 < O₀ c g u) :
    (∃ n : Fin 9, g = recvCell (peer c (kOf n)) n) ∨ (∃ k : Fin 3, g = barCell (peer c k)) := by
  unfold O₀ at h
  rcases Pipeline.add_pos_cases h with h | h
  · rcases Pipeline.add_pos_cases h with h | h
    · rcases Pipeline.add_pos_cases h with h | h
      · obtain ⟨n, _, hn⟩ := Osend_pos h; exact Or.inl ⟨n, hn⟩
      · exact Or.inr ⟨2, (Pipeline.tallyAt_pos h).1⟩
    · exact Or.inr ⟨1, (Pipeline.tallyAt_pos h).1⟩
  · exact Or.inr ⟨0, (Pipeline.tallyAt_pos h).1⟩

omit [FloatOps F] in
/-- The staging semaphores sit at level 0, below every barrier and receive cell: the pipeline's own waits are allowed
    whatever the device still owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · have hl : lv ((c : Thread nD τ), .dma q) () = 0 := by
      show (if 11 ≤ q.val then q.val - 9 else 0) = 0
      rw [if_neg (by omega)]
    refine Pipeline.mayWait_of_levAts (by rw [L_tc]; exact Finset.mem_singleton_self _) fun g u hg => ?_
    rcases O₀_pos hg with ⟨n, rfl⟩ | ⟨k, rfl⟩
    · refine ⟨by rw [L_tc]; exact Finset.mem_singleton_self _, ?_⟩
      cases u; rw [hl, lv_rcv]; omega
    · refine ⟨by rw [L_tc]; exact Finset.mem_singleton_self _, ?_⟩
      cases u; rw [hl, lv_bar]; exact Nat.one_pos
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scrPts Pipeline.ownSems0
  iintro ⟨Hr, Hz⟩
  isplitr; · iempintro
  isplitl [Hz]; · iexact Hz
  iexact Hr

/-! ## The run -/

/-- Every device's arrays at the end: what the region's proof data say. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of eight devices, for any float values, from any memory with zero counters: given the body's
    obligation on every device, every weakly fair execution of @main terminates, and in every final state each
    device's arrays hold what the proof data say. -/
theorem run_main (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The arrays at the end -/

/-- The argument array is never written. -/
theorem finalA_x (c : Dev nD) : (dats m 0 c).arrAt (0 : Fin 2) cfg0.N = m ((c : Thread nD τ).loc main_arg0) :=
  (dats (F := F) m 0 c).arrAt_in (0 : Fin 2) rfl _

/-- The one point writes the whole result buffer back over the whole result array: the array ends as the buffer. -/
theorem finalA_out (c : Dev nD) : (dats m 0 c).arrAt (1 : Fin 2) cfg0.N = outFinal m c := by
  rw [show cfg0.N = (t0_0 : Fin cfg0.N).val + 1 from rfl, (dats (F := F) m 0 c).arrAt_succ (1 : Fin 2) t0_0, if_pos (flush0_1 t0_0)]
  exact Memref.write_access_unit_zero_univ (Elt F) main_v1 (funext fun a => Nat.zero_mul _) _ _ (outFinal m c)

end Cert.KernelIdeal.Hand

end
-- ==== Proof.Claims.lean ====
/-
  The run of the mesh in the two forms the claims use.

  From the body's obligation on every device the whole mesh runs to the end; the result array of every device ends as
  the assembled sum and its argument array as it began. Dropping the result gives the frame.
-/
import proofs.«900389_g7700000000000390_dist_rs_then_ag_i_m512_n512_v7x_i8_bf16_1_alg».proof.Proof.Launch

noncomputable section

namespace Cert.KernelIdeal.Hand

open Cert.KernelIdeal Cert.KernelIdeal.Gen

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main on the eight devices terminates, and in every final state each device's result
    array holds the assembled sum and its argument array what it held at launch. -/
theorem strong_run (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_x m c)⟩)
    (run_main m ρ hbody)

/-- The same run with the result dropped: the argument arrays end unchanged. -/
theorem frame_run (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (strong_run m ρ hbody)

end Cert.KernelIdeal.Hand

end
-- ==== Proof.LaunchW.lean ====
/-
  The launch of the eight-device exchange.

  The resource algebra is initialised with every device's nineteen cells at round 0 and one token per duty of every
  cell. Under one update every cell's invariant is allocated from its counter at zero; the invariants and the
  reached-round facts are shared by all devices, each device keeps its positions, and every duty token is dealt to
  the device that pays the duty: a barrier token of mask k to the partner under mask k, the receive token of transfer
  n to the partner that sends transfer n, a send token to the device itself. The credit a device is dealt for its own
  cells is the sum of what all devices owe them: three units on its barrier cell, one transfer's credit on each
  receive cell. The staging semaphores sit at level 0, below everything a device owes, so the pipeline's own waits are
  allowed. With the body's obligation this gives the run of the whole mesh; the argument array ends as it began and
  the result array ends as the assembled sum.
-/
import proofs.«900389_g7700000000000390_dist_rs_then_ag_i_m512_n512_v7x_i8_bf16_1_alg».proof.Proof.DataW
import proofs.«900389_g7700000000000390_dist_rs_then_ag_i_m512_n512_v7x_i8_bf16_1_alg».proof.Proof.Gen.Kernel.Frame

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens the algebra starts with -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def xCells : Finset (GSem nD τ sig) := Finset.univ.map ⟨kcell, kcell_injective⟩

/-- The duties of a device's own cells: its barrier's three, one per send cell, one per receive cell. -/
abbrev TokIx : Type := Fin 3 ⊕ (Fin 9 ⊕ Fin 9)
abbrev tokOf (cj : Dev nD × TokIx) : GSem nD τ sig × ℕ × Fin 3 := match cj.2 with
  | .inl k => (barCell cj.1, 0, k)
  | .inr (.inl n) => (sendCell cj.1 n, 0, 0)
  | .inr (.inr n) => (recvCell cj.1 n, 0, 0)
theorem tokOf_injective : Function.Injective (tokOf : Dev nD × TokIx → GSem nD τ sig × ℕ × Fin 3) := by
  rintro ⟨c, j⟩ ⟨c', j'⟩ h
  have h1 : c = c' := by
    have := congrArg (fun x : GSem nD τ sig × ℕ × Fin 3 => x.1.1.1) h
    rcases j with k | n | n <;> rcases j' with k' | n' | n' <;> exact this
  subst h1
  have hs := congrArg (fun x : GSem nD τ sig × ℕ × Fin 3 => x.1.2) h
  have hd := congrArg (fun x : GSem nD τ sig × ℕ × Fin 3 => x.2.2) h
  rcases j with k | n | n <;> rcases j' with k' | n' | n'
  · have hk : k = k' := hd
    subst hk; rfl
  · exact absurd hs (fun h' => by cases h')
  · exact absurd hs (fun h' => by cases h')
  · exact absurd hs (fun h' => by cases h')
  · have hv : 2 + n.val = 2 + n'.val := congrArg (fun q : DmaSem sig => q.val) (SemLoc.dma.inj hs)
    have hn : n = n' := Fin.ext (by omega)
    subst hn; rfl
  · have hv : 2 + n.val = 11 + n'.val := congrArg (fun q : DmaSem sig => q.val) (SemLoc.dma.inj hs)
    have := n.isLt; omega
  · exact absurd hs (fun h' => by cases h')
  · have hv : 11 + n.val = 2 + n'.val := congrArg (fun q : DmaSem sig => q.val) (SemLoc.dma.inj hs)
    have := n'.isLt; omega
  · have hv : 11 + n.val = 11 + n'.val := congrArg (fun q : DmaSem sig => q.val) (SemLoc.dma.inj hs)
    have hn : n = n' := Fin.ext (by omega)
    subst hn; rfl
def xToks : Finset (GSem nD τ sig × ℕ × Fin 3) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun k : Fin 3 => dutyTok ER (barCell c) 0 k)
    ∗ (bigSep Finset.univ fun n : Fin 9 => dutyTok ER (sendCell c n) 0 (0 : Fin 3))
    ∗ (bigSep Finset.univ fun n : Fin 9 => dutyTok ER (recvCell c n) 0 (0 : Fin 3)))

/-- What the initial element deals device `c`: the round states of its cells, its positions, the reached-round facts,
    the tokens of its own cells' duties. -/
def G (c : Dev nD) : sProp 𝕄 :=
  iprop((bigSep Finset.univ fun k : Fin 19 => roundState ER (Rd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 19 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [BI.bigSep_univ_sum, BI.bigSep_univ_sum]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

omit [FloatOps F] in
theorem bigSep_fin19 (Φ : Fin 19 → sProp 𝕄) : bigSep Finset.univ Φ = iprop(Φ 0 ∗ bigSep Finset.univ fun j : Fin 18 => Φ j.succ) := by
  rw [Fin.univ_succ, Finset.cons_eq_insert, BI.bigSep_insert (by simp), BI.bigSep_map]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The eighteen scoped semaphores and the barrier semaphore are the device's nineteen cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [unscopedSems0_eq, bigSep_fin19]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 19 → ℕ) (c : Dev nD) : iprop(records m K ∗ linear c) ⊢ G' m c := by
  unfold G' ghost
  iintro H
  iexists K
  iexact H

omit [FloatOps F] in
/-- A family over (device, index) read at the partner under the index's mask: the same family, every device taking its
    partner's place (the partner map of each mask is its own inverse). -/
theorem deal {J : Type} [Fintype J] (κ : J → Fin 3) (Φ : Dev nD → J → sProp 𝕄) :
    (bigSep Finset.univ fun c : Dev nD => bigSep Finset.univ fun j : J => Φ c j)
      = bigSep Finset.univ fun c : Dev nD => bigSep Finset.univ fun j : J => Φ (peer c (κ j)) j := by
  rw [bigSep_univ_comm, bigSep_univ_comm (fun (c : Dev nD) (j : J) => Φ (peer c (κ j)) j)]
  exact bigSep_congr fun j _ => bigSep_univ_equiv (peerEquiv (κ j)) (fun c => Φ c j)

omit [FloatOps F] in
/-- The tokens dealt to their payers: the barrier token of mask `k` to the partner under `k`, the receive token of
    transfer `n` to the partner that sends it; the send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal (fun k : Fin 3 => k) (fun (c : Dev nD) (k : Fin 3) => (dutyTok ER (barCell c) 0 k : sProp 𝕄)),
    deal kOf (fun (c : Dev nD) (n : Fin 9) => (dutyTok ER (recvCell c n) 0 (0 : Fin 3) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (Rd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the launch deals device `c` for its own cells: every partner owes its barrier cell one unit, and the partner
    that sends transfer `n` owes its receive cell that transfer's credit. -/
theorem creds_intro (c : Dev nD) : (Pipeline.launchCred O₀ c : sProp 𝕄) ⊢ creds c := by
  have hb (k : Fin 3) : (Pipeline.launchCred (fun d => Bk d k) c : sProp 𝕄) ⊢ cred (tallyAt (barCell c) () 1) :=
    Pipeline.launchCred_tallyAt (.reg barS) (fun d => peer d k) (fun d => peer d k) (fun c => peer_peer c k) (fun c => peer_peer c k) () 1 c
  have hr (n : Fin 9) : (Pipeline.launchCred (fun d => Tn d n) c : sProp 𝕄) ⊢ cred (tallyAt (recvCell c n) () (Nn n)) :=
    Pipeline.launchCred_tallyAt (.dma (rcvS n)) (fun d => peer d (kOf n)) (fun d => peer d (kOf n)) (fun c => peer_peer c _) (fun c => peer_peer c _) () (Nn n) c
  have hs : (Pipeline.launchCred (fun d => Osend d 0) c : sProp 𝕄) ⊢ bigSep Finset.univ fun n : Fin 9 => cred (tallyAt (recvCell c n) () (Nn n)) := by
    unfold Osend
    rw [Finset.filter_true_of_mem (fun _ _ => Nat.zero_le _), Pipeline.launchCred_sum]
    exact bigSep_mono fun n _ => hr n
  have h3 : iprop(cred (tallyAt (barCell c) () 1) ∗ cred (tallyAt (barCell c) () 1) ∗ cred (tallyAt (barCell c) () 1))
      ⊢ (cred (tallyAt (barCell c) () 3) : sProp 𝕄) := by
    have e : (tallyAt (barCell c) () 3 : CellTallies nD τ sig Unit)
        = tallyAt (barCell c) () 1 + (tallyAt (barCell c) () 1 + tallyAt (barCell c) () 1) := by
      rw [tallyAt_add, tallyAt_add]
    rw [e]
    exact (sep_mono_right (cred_add _ _).2).trans (cred_add _ _).2
  show (Pipeline.launchCred (fun d => Osend d 0 + Bk d 2 + Bk d 1 + Bk d 0) c : sProp 𝕄) ⊢ _
  rw [Pipeline.launchCred_add, Pipeline.launchCred_add, Pipeline.launchCred_add]
  unfold creds
  iintro ⟨⟨⟨Hs, H2⟩, H1⟩, H0⟩
  ihave Hs' := hs $$ Hs
  ihave H2' := (hb 2) $$ H2
  ihave H1' := (hb 1) $$ H1
  ihave H0' := (hb 0) $$ H0
  isplitr [Hs']
  · iapply h3
    isplitl [H2']; · iexact H2'
    isplitl [H1']; · iexact H1'
    iexact H0'
  · iexact Hs'

/-! ## The theorem's side conditions -/

omit [FloatOps F] in
/-- Every cell a device owes at launch is a partner's receive cell or a partner's barrier cell. -/
theorem O₀_pos {c : Dev nD} {g : GSem nD τ sig} {u : Unit} (h : 0 < O₀ c g u) :
    (∃ n : Fin 9, g = recvCell (peer c (kOf n)) n) ∨ (∃ k : Fin 3, g = barCell (peer c k)) := by
  unfold O₀ at h
  rcases Pipeline.add_pos_cases h with h | h
  · rcases Pipeline.add_pos_cases h with h | h
    · rcases Pipeline.add_pos_cases h with h | h
      · obtain ⟨n, _, hn⟩ := Osend_pos h; exact Or.inl ⟨n, hn⟩
      · exact Or.inr ⟨2, (Pipeline.tallyAt_pos h).1⟩
    · exact Or.inr ⟨1, (Pipeline.tallyAt_pos h).1⟩
  · exact Or.inr ⟨0, (Pipeline.tallyAt_pos h).1⟩

omit [FloatOps F] in
/-- The staging semaphores sit at level 0, below every barrier and receive cell: the pipeline's own waits are allowed
    whatever the device still owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · have hl : lv ((c : Thread nD τ), .dma q) () = 0 := by
      show (if 11 ≤ q.val then q.val - 9 else 0) = 0
      rw [if_neg (by omega)]
    refine Pipeline.mayWait_of_levAts (by rw [L_tc]; exact Finset.mem_singleton_self _) fun g u hg => ?_
    rcases O₀_pos hg with ⟨n, rfl⟩ | ⟨k, rfl⟩
    · refine ⟨by rw [L_tc]; exact Finset.mem_singleton_self _, ?_⟩
      cases u; rw [hl, lv_rcv]; omega
    · refine ⟨by rw [L_tc]; exact Finset.mem_singleton_self _, ?_⟩
      cases u; rw [hl, lv_bar]; exact Nat.one_pos
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scrPts Pipeline.ownSems0
  iintro ⟨Hr, Hz⟩
  isplitr; · iempintro
  isplitl [Hz]; · iexact Hz
  iexact Hr

/-! ## The run -/

/-- Every device's arrays at the end: what the region's proof data say. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of eight devices, for any float values, from any memory with zero counters: given the body's
    obligation on every device, every weakly fair execution of @main terminates, and in every final state each
    device's arrays hold what the proof data say. -/
theorem run_main (hbody : ∀ c, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The arrays at the end -/

/-- The argument array is never written. -/
theorem finalA_x (c : Dev nD) : (dats m 0 c).arrAt (0 : Fin 2) cfg0.N = m ((c : Thread nD τ).loc main_arg0) :=
  (dats (F := F) m 0 c).arrAt_in (0 : Fin 2) rfl _

/-- The one point writes the whole result buffer back over the whole result array: the array ends as the buffer. -/
theorem finalA_out (c : Dev nD) : (dats m 0 c).arrAt (1 : Fin 2) cfg0.N = outFinal m c := by
  rw [show cfg0.N = (t0_0 : Fin cfg0.N).val + 1 from rfl, (dats (F := F) m 0 c).arrAt_succ (1 : Fin 2) t0_0, if_pos (flush0_1 t0_0)]
  exact Memref.write_access_unit_zero_univ (Elt F) main_v1 (funext fun a => Nat.zero_mul _) _ _ (outFinal m c)

end Cert.Kernel.Hand

end
-- ==== Proof.ClaimsW.lean ====
/-
  The run of the mesh in the two forms the claims use.

  From the body's obligation on every device the whole mesh runs to the end; the result array of every device ends as
  the assembled sum and its argument array as it began. Dropping the result gives the frame.
-/
import proofs.«900389_g7700000000000390_dist_rs_then_ag_i_m512_n512_v7x_i8_bf16_1_alg».proof.Proof.LaunchW

noncomputable section

namespace Cert.Kernel.Hand

open Cert.Kernel Cert.Kernel.Gen

open Idealize.ShloMosaic
open Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main on the eight devices terminates, and in every final state each device's result
    array holds the assembled sum and its argument array what it held at launch. -/
theorem strong_run (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outFinal m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_x m c)⟩)
    (run_main m ρ hbody)

/-- The same run with the result dropped: the argument arrays end unchanged. -/
theorem frame_run (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (strong_run m ρ hbody)

end Cert.Kernel.Hand

end
-- ==== Proof.ValueKernel.lean ====
/-
  The value side of the kernel: what the result buffer holds at the end, index by index.

  Each of the three row parts of the result buffer starts as the device's own rows of the argument (a change of float
  format, the identity over the extended reals). At each of the three exchange steps a part takes the sum of its own
  running sum and the partner's, the partner being the device whose position differs by the step's mask. The masks
  1, 3, 4 are linearly independent over GF(2): starting from any device, flipping each of them or not reaches each of
  the eight devices exactly once. So after three steps every part holds, at every index, the sum over all eight
  devices of the argument blocks there; addition of extended reals is commutative and associative, so the order in
  which the steps collect the eight terms does not matter.
-/
import proofs.«900389_g7700000000000390_dist_rs_then_ag_i_m512_n512_v7x_i8_bf16_1_alg».proof.Proof.Proto
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen
open Idealize.ShloMosaic
open Idealize.ShloMosaic.TcCoe
open Idealize.ShloMosaic.ValueIdx
open Idealize.SL.Sem

/-! ## Any float instance: reading the parts back -/

section Generic
variable {F : FTy → Type} [FloatOps F]
variable (m : (ℓ : Loc nD τ sig) → Buf (Elt F) ℓ)

/-- The staged block of the argument is the argument buffer: the window is the whole array. -/
theorem xstg_apply (c : Dev nD) (j : S512x512.Idx) : xstg m c j = m ((c : Thread nD τ).loc main_arg0) j := by
  unfold xstg
  rw [View.read_apply]
  show m ((c : Thread nD τ).loc main_arg0) ((win0_0.blk (0 : Fin 1)).view.emb j) = _
  congr 1
  funext a
  apply Fin.ext
  show 0 * _ + 1 * (j a).val = (j a).val
  omega

theorem xstg_eq (c : Dev nD) : xstg m c = m ((c : Thread nD τ).loc main_arg0) := funext (xstg_apply m c)

/-- A read through the rows of part 0 is the buffer at the rows' place. -/
theorem rd_oV0 (f : (cc0_stg1_0 : Ref sig .tc).ty.Contents (Elt F)) (j : S176x512.Idx) : oV0.read (Elt F) f j = f (oR0.emb j) := rfl
theorem rd_xV0 (f : (cc0_stg0_0 : Ref sig .tc).ty.Contents (Elt F)) (j : S176x512.Idx) : xV0.read (Elt F) f j = f (oR0.emb j) := rfl
/-- A read through the rows of part 1 is the buffer at the rows' place. -/
theorem rd_oV1 (f : (cc0_stg1_0 : Ref sig .tc).ty.Contents (Elt F)) (j : S176x512.Idx) : oV1.read (Elt F) f j = f (oR1.emb j) := rfl
theorem rd_xV1 (f : (cc0_stg0_0 : Ref sig .tc).ty.Contents (Elt F)) (j : S176x512.Idx) : xV1.read (Elt F) f j = f (oR1.emb j) := rfl
/-- A read through the rows of part 2 is the buffer at the rows' place. -/
theorem rd_oV2 (f : (cc0_stg1_0 : Ref sig .tc).ty.Contents (Elt F)) (j : S160x512.Idx) : oV2.read (Elt F) f j = f (oR2.emb j) := rfl
theorem rd_xV2 (f : (cc0_stg0_0 : Ref sig .tc).ty.Contents (Elt F)) (j : S160x512.Idx) : xV2.read (Elt F) f j = f (oR2.emb j) := rfl

/-- Part `p` after its first store, read back: the payload of the store. -/
theorem rd_oB00 (c : Dev nD) : oV0.read (Elt F) (oB00 m c) = k0_pay1 (xV0.read (Elt F) (xstg m c)) := View.read_write_univ _ _
theorem rd_oB10 (c : Dev nD) : oV1.read (Elt F) (oB10 m c) = k0_pay2 (xV1.read (Elt F) (xstg m c)) := View.read_write_univ _ _
theorem rd_oB20 (c : Dev nD) : oV2.read (Elt F) (oB20 m c) = k0_pay3 (xV2.read (Elt F) (xstg m c)) := View.read_write_univ _ _

/-- The landed slot, read as the addition reads it and with its unit axis dropped, is the partner's part: the landing
    region seen with and without its unit axis places its elements at the same positions of the buffer. -/
theorem land0 (c : Dev nD) : shapeCast S176x512 (rA0.read (Elt F) (rB0 m c)) shapeCasts_S1x176x512_S176x512 = oV0.read (Elt F) (oB00 m (peer c 0)) :=
  View.read_write_univ (v := rV0) _ _
theorem land1 (c : Dev nD) : shapeCast S176x512 (rA1.read (Elt F) (rB1 m c)) shapeCasts_S1x176x512_S176x512 = oV1.read (Elt F) (oB10 m (peer c 1)) :=
  View.read_write_univ (v := rV1) _ _
theorem land2 (c : Dev nD) : shapeCast S160x512 (rA2.read (Elt F) (rB2 m c)) shapeCasts_S1x160x512_S160x512 = oV2.read (Elt F) (oB20 m (peer c 2)) :=
  View.read_write_univ (v := rV2) _ _
theorem land3 (c : Dev nD) : shapeCast S176x512 (rA3.read (Elt F) (rB3 m c)) shapeCasts_S1x176x512_S176x512 = oV0.read (Elt F) (oB01 m (peer c 1)) :=
  View.read_write_univ (v := rV3) _ _
theorem land4 (c : Dev nD) : shapeCast S176x512 (rA4.read (Elt F) (rB4 m c)) shapeCasts_S1x176x512_S176x512 = oV1.read (Elt F) (oB11 m (peer c 2)) :=
  View.read_write_univ (v := rV4) _ _
theorem land5 (c : Dev nD) : shapeCast S160x512 (rA5.read (Elt F) (rB5 m c)) shapeCasts_S1x160x512_S160x512 = oV2.read (Elt F) (oB21 m (peer c 0)) :=
  View.read_write_univ (v := rV5) _ _
theorem land6 (c : Dev nD) : shapeCast S176x512 (rA6.read (Elt F) (rB6 m c)) shapeCasts_S1x176x512_S176x512 = oV0.read (Elt F) (oB02 m (peer c 2)) :=
  View.read_write_univ (v := rV6) _ _
theorem land7 (c : Dev nD) : shapeCast S176x512 (rA7.read (Elt F) (rB7 m c)) shapeCasts_S1x176x512_S176x512 = oV1.read (Elt F) (oB12 m (peer c 0)) :=
  View.read_write_univ (v := rV7) _ _
theorem land8 (c : Dev nD) : shapeCast S160x512 (rA8.read (Elt F) (rB8 m c)) shapeCasts_S1x160x512_S160x512 = oV2.read (Elt F) (oB22 m (peer c 1)) :=
  View.read_write_univ (v := rV8) _ _

/-- Part `p` after an addition, read back: the payload of the addition's store. -/
theorem rd_oB01 (c : Dev nD) : oV0.read (Elt F) (oB01 m c) = k0_pay4 (oV0.read (Elt F) (oB00 m c)) (rA0.read (Elt F) (rB0 m c)) := View.read_write_univ _ _
theorem rd_oB11 (c : Dev nD) : oV1.read (Elt F) (oB11 m c) = k0_pay5 (oV1.read (Elt F) (oB10 m c)) (rA1.read (Elt F) (rB1 m c)) := View.read_write_univ _ _
theorem rd_oB21 (c : Dev nD) : oV2.read (Elt F) (oB21 m c) = k0_pay6 (oV2.read (Elt F) (oB20 m c)) (rA2.read (Elt F) (rB2 m c)) := View.read_write_univ _ _
theorem rd_oB02 (c : Dev nD) : oV0.read (Elt F) (oB02 m c) = k0_pay7 (oV0.read (Elt F) (oB01 m c)) (rA3.read (Elt F) (rB3 m c)) := View.read_write_univ _ _
theorem rd_oB12 (c : Dev nD) : oV1.read (Elt F) (oB12 m c) = k0_pay8 (oV1.read (Elt F) (oB11 m c)) (rA4.read (Elt F) (rB4 m c)) := View.read_write_univ _ _
theorem rd_oB22 (c : Dev nD) : oV2.read (Elt F) (oB22 m c) = k0_pay9 (oV2.read (Elt F) (oB21 m c)) (rA5.read (Elt F) (rB5 m c)) := View.read_write_univ _ _
theorem rd_oB03 (c : Dev nD) : oV0.read (Elt F) (oB03 m c) = k0_pay10 (oV0.read (Elt F) (oB02 m c)) (rA6.read (Elt F) (rB6 m c)) := View.read_write_univ _ _
theorem rd_oB13 (c : Dev nD) : oV1.read (Elt F) (oB13 m c) = k0_pay11 (oV1.read (Elt F) (oB12 m c)) (rA7.read (Elt F) (rB7 m c)) := View.read_write_univ _ _
theorem rd_oB23 (c : Dev nD) : oV2.read (Elt F) (oB23 m c) = k0_pay12 (oV2.read (Elt F) (oB22 m c)) (rA8.read (Elt F) (rB8 m c)) := View.read_write_univ _ _

end Generic

/-! ## The payloads over the extended reals -/

section Payloads

/-- The first store's payload: the change of format is the identity. -/
theorem pay1_apply (v : Vec Ideal S176x512 .f32) (j : S176x512.Idx) : k0_pay1 (F := Ideal) v j = v j := by
  unfold k0_pay1
  simp only [shapeCast_self]
  rfl
/-- The first store's payload: the change of format is the identity. -/
theorem pay2_apply (v : Vec Ideal S176x512 .f32) (j : S176x512.Idx) : k0_pay2 (F := Ideal) v j = v j := by
  unfold k0_pay2
  simp only [shapeCast_self]
  rfl
/-- The first store's payload: the change of format is the identity. -/
theorem pay3_apply (v : Vec Ideal S160x512 .f32) (j : S160x512.Idx) : k0_pay3 (F := Ideal) v j = v j := by
  unfold k0_pay3
  simp only [shapeCast_self]
  rfl
/-- An addition's payload: the sum of the running sum and the landed slot with its unit axis dropped. -/
theorem pay4_apply (a : Vec Ideal S176x512 .bf16) (b : Vec Ideal S1x176x512 .bf16) (j : S176x512.Idx) :
    k0_pay4 (F := Ideal) a b j = (show EReal from a j) + (show EReal from shapeCast S176x512 b shapeCasts_S1x176x512_S176x512 j) := by
  unfold k0_pay4
  simp only [shapeCast_self]
  rfl
/-- An addition's payload: the sum of the running sum and the landed slot with its unit axis dropped. -/
theorem pay5_apply (a : Vec Ideal S176x512 .bf16) (b : Vec Ideal S1x176x512 .bf16) (j : S176x512.Idx) :
    k0_pay5 (F := Ideal) a b j = (show EReal from a j) + (show EReal from shapeCast S176x512 b shapeCasts_S1x176x512_S176x512 j) := by
  unfold k0_pay5
  simp only [shapeCast_self]
  rfl
/-- An addition's payload: the sum of the running sum and the landed slot with its unit axis dropped. -/
theorem pay6_apply (a : Vec Ideal S160x512 .bf16) (b : Vec Ideal S1x160x512 .bf16) (j : S160x512.Idx) :
    k0_pay6 (F := Ideal) a b j = (show EReal from a j) + (show EReal from shapeCast S160x512 b shapeCasts_S1x160x512_S160x512 j) := by
  unfold k0_pay6
  simp only [shapeCast_self]
  rfl
/-- An addition's payload: the sum of the running sum and the landed slot with its unit axis dropped. -/
theorem pay7_apply (a : Vec Ideal S176x512 .bf16) (b : Vec Ideal S1x176x512 .bf16) (j : S176x512.Idx) :
    k0_pay7 (F := Ideal) a b j = (show EReal from a j) + (show EReal from shapeCast S176x512 b shapeCasts_S1x176x512_S176x512 j) := by
  unfold k0_pay7
  simp only [shapeCast_self]
  rfl
/-- An addition's payload: the sum of the running sum and the landed slot with its unit axis dropped. -/
theorem pay8_apply (a : Vec Ideal S176x512 .bf16) (b : Vec Ideal S1x176x512 .bf16) (j : S176x512.Idx) :
    k0_pay8 (F := Ideal) a b j = (show EReal from a j) + (show EReal from shapeCast S176x512 b shapeCasts_S1x176x512_S176x512 j) := by
  unfold k0_pay8
  simp only [shapeCast_self]
  rfl
/-- An addition's payload: the sum of the running sum and the landed slot with its unit axis dropped. -/
theorem pay9_apply (a : Vec Ideal S160x512 .bf16) (b : Vec Ideal S1x160x512 .bf16) (j : S160x512.Idx) :
    k0_pay9 (F := Ideal) a b j = (show EReal from a j) + (show EReal from shapeCast S160x512 b shapeCasts_S1x160x512_S160x512 j) := by
  unfold k0_pay9
  simp only [shapeCast_self]
  rfl
/-- An addition's payload: the sum of the running sum and the landed slot with its unit axis dropped. -/
theorem pay10_apply (a : Vec Ideal S176x512 .bf16) (b : Vec Ideal S1x176x512 .bf16) (j : S176x512.Idx) :
    k0_pay10 (F := Ideal) a b j = (show EReal from a j) + (show EReal from shapeCast S176x512 b shapeCasts_S1x176x512_S176x512 j) := by
  unfold k0_pay10
  simp only [shapeCast_self]
  rfl
/-- An addition's payload: the sum of the running sum and the landed slot with its unit axis dropped. -/
theorem pay11_apply (a : Vec Ideal S176x512 .bf16) (b : Vec Ideal S1x176x512 .bf16) (j : S176x512.Idx) :
    k0_pay11 (F := Ideal) a b j = (show EReal from a j) + (show EReal from shapeCast S176x512 b shapeCasts_S1x176x512_S176x512 j) := by
  unfold k0_pay11
  simp only [shapeCast_self]
  rfl
/-- An addition's payload: the sum of the running sum and the landed slot with its unit axis dropped. -/
theorem pay12_apply (a : Vec Ideal S160x512 .bf16) (b : Vec Ideal S1x160x512 .bf16) (j : S160x512.Idx) :
    k0_pay12 (F := Ideal) a b j = (show EReal from a j) + (show EReal from shapeCast S160x512 b shapeCasts_S1x160x512_S160x512 j) := by
  unfold k0_pay12
  simp only [shapeCast_self]
  rfl

end Payloads

/-! ## The eight devices reached from one by the three masks -/

section Sum
variable {M : Type} [AddCommMonoid M]

/-- Flipping each of three different masks or not, from any device, lists every device once. -/
theorem reach_perm : ∀ (c : Dev nD) (k0 k1 k2 : Fin 3), k0 ≠ k1 → k0 ≠ k2 → k1 ≠ k2 →
    List.Perm [c, peer c k0, peer c k1, peer (peer c k1) k0, peer c k2, peer (peer c k2) k0, peer (peer c k2) k1,
      peer (peer (peer c k2) k1) k0] (List.finRange 8) := by
  decide +kernel

/-- Three exchange steps with three different masks collect the sum over all devices, at every device. -/
theorem butterfly (f : Dev nD → M) (k0 k1 k2 : Fin 3) (h01 : k0 ≠ k1) (h02 : k0 ≠ k2) (h12 : k1 ≠ k2) (c : Dev nD) :
    ((f c + f (peer c k0)) + (f (peer c k1) + f (peer (peer c k1) k0)))
      + ((f (peer c k2) + f (peer (peer c k2) k0)) + (f (peer (peer c k2) k1) + f (peer (peer (peer c k2) k1) k0)))
      = ∑ d : Dev nD, f d := by
  rw [Fin.sum_univ_def, ← ((reach_perm c k0 k1 k2 h01 h02 h12).map f).sum_eq]
  simp only [List.map_cons, List.map_nil, List.sum_cons, List.sum_nil, add_zero]
  abel

end Sum

/-! ## The parts over the extended reals -/

section AtIdeal
variable (m : (ℓ : Loc nD τ sig) → Buf (Elt Ideal) ℓ)

/-- Device `d`'s block of the argument, as extended reals. -/
def argBlock (d : Dev nD) : S512x512.Idx → EReal := m ((d : Thread nD τ).loc main_arg0)

/-- The result buffer at the end, as extended reals. -/
def outVal (c : Dev nD) : S512x512.Idx → EReal := outFinal (F := Ideal) m c

theorem outVal_eq (c : Dev nD) : outVal m c = outFinal (F := Ideal) m c := rfl
theorem argBlock_eq (d : Dev nD) : argBlock m d = m ((d : Thread nD τ).loc main_arg0) := rfl

/-- The rows of part 0 after 0 additions. -/
def P00 (c : Dev nD) : FVec Ideal S176x512 .bf16 := oV0.read (Elt Ideal) (oB00 m c)
/-- The rows of part 0 after 1 additions. -/
def P01 (c : Dev nD) : FVec Ideal S176x512 .bf16 := oV0.read (Elt Ideal) (oB01 m c)
/-- The rows of part 0 after 2 additions. -/
def P02 (c : Dev nD) : FVec Ideal S176x512 .bf16 := oV0.read (Elt Ideal) (oB02 m c)
/-- The rows of part 0 after 3 additions. -/
def P03 (c : Dev nD) : FVec Ideal S176x512 .bf16 := oV0.read (Elt Ideal) (oB03 m c)
/-- The rows of part 1 after 0 additions. -/
def P10 (c : Dev nD) : FVec Ideal S176x512 .bf16 := oV1.read (Elt Ideal) (oB10 m c)
/-- The rows of part 1 after 1 additions. -/
def P11 (c : Dev nD) : FVec Ideal S176x512 .bf16 := oV1.read (Elt Ideal) (oB11 m c)
/-- The rows of part 1 after 2 additions. -/
def P12 (c : Dev nD) : FVec Ideal S176x512 .bf16 := oV1.read (Elt Ideal) (oB12 m c)
/-- The rows of part 1 after 3 additions. -/
def P13 (c : Dev nD) : FVec Ideal S176x512 .bf16 := oV1.read (Elt Ideal) (oB13 m c)
/-- The rows of part 2 after 0 additions. -/
def P20 (c : Dev nD) : FVec Ideal S160x512 .bf16 := oV2.read (Elt Ideal) (oB20 m c)
/-- The rows of part 2 after 1 additions. -/
def P21 (c : Dev nD) : FVec Ideal S160x512 .bf16 := oV2.read (Elt Ideal) (oB21 m c)
/-- The rows of part 2 after 2 additions. -/
def P22 (c : Dev nD) : FVec Ideal S160x512 .bf16 := oV2.read (Elt Ideal) (oB22 m c)
/-- The rows of part 2 after 3 additions. -/
def P23 (c : Dev nD) : FVec Ideal S160x512 .bf16 := oV2.read (Elt Ideal) (oB23 m c)

theorem P00_apply (c : Dev nD) (j : S176x512.Idx) : P00 m c j = argBlock m c (oR0.emb j) := by
  unfold P00 argBlock
  rw [rd_oB00, pay1_apply, rd_xV0, xstg_apply]
theorem P01_apply (c : Dev nD) (j : S176x512.Idx) : P01 m c j = P00 m c j + P00 m (peer c 0) j := by
  unfold P01 P00
  rw [rd_oB01, pay4_apply, land0]
theorem P02_apply (c : Dev nD) (j : S176x512.Idx) : P02 m c j = P01 m c j + P01 m (peer c 1) j := by
  unfold P02 P01
  rw [rd_oB02, pay7_apply, land3]
theorem P03_apply (c : Dev nD) (j : S176x512.Idx) : P03 m c j = P02 m c j + P02 m (peer c 2) j := by
  unfold P03 P02
  rw [rd_oB03, pay10_apply, land6]
/-- After the three steps part 0 holds the sum over all devices. -/
theorem P03_sum (c : Dev nD) (j : S176x512.Idx) : P03 m c j = ∑ d : Dev nD, argBlock m d (oR0.emb j) := by
  simp only [P03_apply, P02_apply, P01_apply]
  exact (butterfly (fun d => P00 m d j) 0 1 2 (by decide) (by decide) (by decide) c).trans
    (Finset.sum_congr rfl fun d _ => P00_apply m d j)

theorem P10_apply (c : Dev nD) (j : S176x512.Idx) : P10 m c j = argBlock m c (oR1.emb j) := by
  unfold P10 argBlock
  rw [rd_oB10, pay2_apply, rd_xV1, xstg_apply]
theorem P11_apply (c : Dev nD) (j : S176x512.Idx) : P11 m c j = P10 m c j + P10 m (peer c 1) j := by
  unfold P11 P10
  rw [rd_oB11, pay5_apply, land1]
theorem P12_apply (c : Dev nD) (j : S176x512.Idx) : P12 m c j = P11 m c j + P11 m (peer c 2) j := by
  unfold P12 P11
  rw [rd_oB12, pay8_apply, land4]
theorem P13_apply (c : Dev nD) (j : S176x512.Idx) : P13 m c j = P12 m c j + P12 m (peer c 0) j := by
  unfold P13 P12
  rw [rd_oB13, pay11_apply, land7]
/-- After the three steps part 1 holds the sum over all devices. -/
theorem P13_sum (c : Dev nD) (j : S176x512.Idx) : P13 m c j = ∑ d : Dev nD, argBlock m d (oR1.emb j) := by
  simp only [P13_apply, P12_apply, P11_apply]
  exact (butterfly (fun d => P10 m d j) 1 2 0 (by decide) (by decide) (by decide) c).trans
    (Finset.sum_congr rfl fun d _ => P10_apply m d j)

theorem P20_apply (c : Dev nD) (j : S160x512.Idx) : P20 m c j = argBlock m c (oR2.emb j) := by
  unfold P20 argBlock
  rw [rd_oB20, pay3_apply, rd_xV2, xstg_apply]
theorem P21_apply (c : Dev nD) (j : S160x512.Idx) : P21 m c j = P20 m c j + P20 m (peer c 2) j := by
  unfold P21 P20
  rw [rd_oB21, pay6_apply, land2]
theorem P22_apply (c : Dev nD) (j : S160x512.Idx) : P22 m c j = P21 m c j + P21 m (peer c 0) j := by
  unfold P22 P21
  rw [rd_oB22, pay9_apply, land5]
theorem P23_apply (c : Dev nD) (j : S160x512.Idx) : P23 m c j = P22 m c j + P22 m (peer c 1) j := by
  unfold P23 P22
  rw [rd_oB23, pay12_apply, land8]
/-- After the three steps part 2 holds the sum over all devices. -/
theorem P23_sum (c : Dev nD) (j : S160x512.Idx) : P23 m c j = ∑ d : Dev nD, argBlock m d (oR2.emb j) := by
  simp only [P23_apply, P22_apply, P21_apply]
  exact (butterfly (fun d => P20 m d j) 2 0 1 (by decide) (by decide) (by decide) c).trans
    (Finset.sum_congr rfl fun d _ => P20_apply m d j)

/-! ## The three parts cover the buffer -/

theorem mem_oSet0 (i : S512x512.Idx) : i ∈ oSet 0 ↔ (i 0).val < 176 := by
  show i ∈ oV0.set ↔ _
  rw [View.set_slice_whole, Rect.mem_set_unit]
  have h0 : (i 0).val < 512 := (i 0).isLt
  have h1 : (i 1).val < 512 := (i 1).isLt
  refine (Fin.forall_fin_two (p := fun a => ![0, 0] a ≤ (i a).val ∧ (i a).val < ![0, 0] a + ![176, 512] a)).trans ?_
  show (0 ≤ (i 0).val ∧ (i 0).val < 0 + 176) ∧ (0 ≤ (i 1).val ∧ (i 1).val < 0 + 512) ↔ _
  omega
theorem mem_oSet1 (i : S512x512.Idx) : i ∈ oSet 1 ↔ 176 ≤ (i 0).val ∧ (i 0).val < 352 := by
  show i ∈ oV1.set ↔ _
  rw [View.set_slice_whole, Rect.mem_set_unit]
  have h0 : (i 0).val < 512 := (i 0).isLt
  have h1 : (i 1).val < 512 := (i 1).isLt
  refine (Fin.forall_fin_two (p := fun a => ![176, 0] a ≤ (i a).val ∧ (i a).val < ![176, 0] a + ![176, 512] a)).trans ?_
  show (176 ≤ (i 0).val ∧ (i 0).val < 176 + 176) ∧ (0 ≤ (i 1).val ∧ (i 1).val < 0 + 512) ↔ _
  omega
theorem mem_oSet2 (i : S512x512.Idx) : i ∈ oSet 2 ↔ 352 ≤ (i 0).val := by
  show i ∈ oV2.set ↔ _
  rw [View.set_slice_whole, Rect.mem_set_unit]
  have h0 : (i 0).val < 512 := (i 0).isLt
  have h1 : (i 1).val < 512 := (i 1).isLt
  refine (Fin.forall_fin_two (p := fun a => ![352, 0] a ≤ (i a).val ∧ (i a).val < ![352, 0] a + ![160, 512] a)).trans ?_
  show (352 ≤ (i 0).val ∧ (i 0).val < 352 + 160) ∧ (0 ≤ (i 1).val ∧ (i 1).val < 0 + 512) ↔ _
  omega

/-! ## The result -/

/-- At the end the result buffer of every device holds, at every index, the sum over the eight devices of the argument
    blocks at that index. -/
theorem outFinal_apply (c : Dev nD) (i : S512x512.Idx) : outVal m c i = ∑ d : Dev nD, argBlock m d i := by
  unfold outVal outFinal
  by_cases h2 : i ∈ oSet 2
  · rw [Finset.piecewise_eq_of_mem _ _ _ h2]
    obtain ⟨j, rfl⟩ := View.exists_emb_of_mem_set oV2 h2
    exact P23_sum m c j
  · rw [Finset.piecewise_eq_of_notMem _ _ _ h2]
    by_cases h1 : i ∈ oSet 1
    · rw [Finset.piecewise_eq_of_mem _ _ _ h1]
      obtain ⟨j, rfl⟩ := View.exists_emb_of_mem_set oV1 h1
      exact P13_sum m c j
    · rw [Finset.piecewise_eq_of_notMem _ _ _ h1]
      have h0 : i ∈ oSet 0 := by
        rw [mem_oSet2] at h2; rw [mem_oSet1] at h1; rw [mem_oSet0]; omega
      obtain ⟨j, rfl⟩ := View.exists_emb_of_mem_set oV0 h0
      exact P03_sum m c j

end AtIdeal

end Cert.KernelIdeal.Hand

end
-- ==== Proof.ValueRef.lean ====
/-
  The reference side of the value.

  The reference reshapes the whole argument (4096×512) into eight 512×512 blocks stacked along a new leading axis,
  sums along that axis starting from zero, and changes the float format of the result. Over the extended reals the
  format change is the identity and the zero is the additive unit, so the result at (i₀, i₁) is the sum over k of
  the argument at (512·k + i₀, i₁). Block k of the whole argument, cut along the rows into eight, holds at (i₀, i₁)
  the argument at that same place: the reference's result is the sum of the eight blocks, index by index.
-/
import proofs.«900389_g7700000000000390_dist_rs_then_ag_i_m512_n512_v7x_i8_bf16_1_alg».proof.Defs
import proofs.«900389_g7700000000000390_dist_rs_then_ag_i_m512_n512_v7x_i8_bf16_1_alg».proof.Proof.Gen.ReferenceIdeal
import proofs.«900389_g7700000000000390_dist_rs_then_ag_i_m512_n512_v7x_i8_bf16_1_alg».proof.Proof.Gen.Pre_finite_inputs_ReferenceIdeal
import proofs.«900389_g7700000000000390_dist_rs_then_ag_i_m512_n512_v7x_i8_bf16_1_alg».proof.Proof.Gen.ReferenceIdeal.Run
import proofs.«900389_g7700000000000390_dist_rs_then_ag_i_m512_n512_v7x_i8_bf16_1_alg».proof.Proof.Gen.ReferenceIdeal.Read
import Idealize.ShloMosaic.Lib.Layout
import Idealize.ShloMosaic.PureOps.Ideal.Laws

noncomputable section

namespace Cert.ReferenceIdeal.RefValue

open Idealize.ShloMosaic Idealize.SL.Sem
open Cert.ReferenceIdeal Cert.ReferenceIdeal.Gen Cert.ReferenceIdeal.Read

/-- The reference runs to the end, faults nowhere and leaves its argument unchanged: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-! ## The result at an index -/

/-- Row 512·k + i₀, column i₁ of the whole argument. -/
def rowIdx (k : Fin 8) (i : S512x512.Idx) : S4096x512.Idx := fun a => match a with
  | ⟨0, _⟩ => ⟨k.val * 512 + (i 0).val, by
      have hk : k.val < 8 := k.isLt; have h0 : (i 0).val < 512 := (i 0).isLt; show k.val * 512 + (i 0).val < 4096; omega⟩
  | ⟨1, _⟩ => ⟨(i 1).val, (i 1).isLt⟩

theorem rowIdx_val0 (k : Fin 8) (i : S512x512.Idx) : (rowIdx k i 0).val = k.val * 512 + (i 0).val := rfl
theorem rowIdx_val1 (k : Fin 8) (i : S512x512.Idx) : (rowIdx k i 1).val = (i 1).val := rfl

/-- Element (k, i₀, i₁) of the stacked blocks is element (512·k + i₀, i₁) of the whole argument. -/
theorem idx_comp (i : S512x512.Idx) (k : Fin 8) : idx_main_v0 (idx_main_v1 i k) = rowIdx k i := by
  have h0 : (i 0).val < 512 := (i 0).isLt
  have h1 : (i 1).val < 512 := (i 1).isLt
  funext a
  apply Fin.ext
  match a with
  | ⟨0, _⟩ =>
    show ((k.val * 512 + (i 0).val) * 512 + (i 1).val) / 512 = k.val * 512 + (i 0).val
    omega
  | ⟨1, _⟩ =>
    show ((k.val * 512 + (i 0).val) * 512 + (i 1).val) % 512 = (i 1).val
    omega

/-- The reference's result at an index: the sum over the eight blocks' rows. -/
theorem ref_apply (x0 : S4096x512.Idx → EReal) (i : S512x512.Idx) :
    val_main_v2 (F := Ideal) x0 i = ∑ k : Fin 8, x0 (rowIdx k i) := by
  rw [val_main_v2_apply, val_main_v1_apply]
  show Ideal.ofBits .f32 0x00000000#32 + _ = _
  rw [Ideal.ofBits_zero_f32, zero_add]
  refine Finset.sum_congr rfl fun k _ => ?_
  rw [val_main_v0_apply, idx_comp]

/-! ## The blocks of the whole argument -/

/-- Block `c` of the whole argument at (i₀, i₁) is the whole argument at (512·c + i₀, i₁). -/
theorem block_eq (v : S4096x512.Idx → EReal) (c : Fin 8) (h : Layout.Tiles ⟨2, ![512, 512]⟩ ⟨2, ![4096, 512]⟩ 0 8)
    (i : S512x512.Idx) : Layout.block ⟨2, ![512, 512]⟩ ⟨2, ![4096, 512]⟩ 0 8 c v h i = v (rowIdx c i) := by
  rw [Layout.block_apply]
  congr 1
  funext a
  apply Fin.ext
  match a with
  | ⟨0, _⟩ => exact (Layout.idx_rows_val h c i).1
  | ⟨1, _⟩ => exact (Layout.idx_rows_val h c i).2

/-- Eight arrays that are the eight blocks of the whole argument sum, index by index, to the reference's result. -/
theorem ref_of_blocks (X : Fin 8 → S512x512.Idx → EReal) (x0 : S4096x512.Idx → EReal)
    (h : Layout.Tiles ⟨2, ![512, 512]⟩ ⟨2, ![4096, 512]⟩ 0 8)
    (hX : ∀ c, X c = Layout.block ⟨2, ![512, 512]⟩ ⟨2, ![4096, 512]⟩ 0 8 c x0 h) :
    (fun i => ∑ d : Fin 8, X d i) = val_main_v2 (F := Ideal) x0 := by
  funext i
  rw [ref_apply]
  exact Finset.sum_congr rfl fun d _ => by rw [hX d, block_eq]

end Cert.ReferenceIdeal.RefValue

end
-- ==== Proof.ValueBridge.lean ====
/-
  The two values are the same.

  Every device's result buffer ends holding, at every index, the sum over the eight devices of their argument blocks
  there; the argument blocks are the eight row blocks of the reference's whole argument; and the reference's result is
  the sum of those eight blocks, index by index. So the kernel's result on every device is the reference's result.
-/
import proofs.«900389_g7700000000000390_dist_rs_then_ag_i_m512_n512_v7x_i8_bf16_1_alg».proof.Proof.ValueKernel
import proofs.«900389_g7700000000000390_dist_rs_then_ag_i_m512_n512_v7x_i8_bf16_1_alg».proof.Proof.ValueRef

noncomputable section

namespace Cert.KernelIdeal.Hand

open Idealize.ShloMosaic Idealize.ShloMosaic.TcCoe Idealize.SL.Sem

/-- From memories where each device's argument buffer holds its row block of the reference's whole argument, the result
    buffer of every device ends holding the reference's result. -/
theorem outFinal_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0)))
    (c : Dev Cert.KernelIdeal.nD) :
    @Eq (Cert.KernelIdeal.S512x512.Idx → EReal) (outFinal (F := Ideal) m c) (Cert.ReferenceIdeal.Read.val_main_v2 (F := Ideal) (m' (((0 : Dev Cert.ReferenceIdeal.nD).tc : Thread Cert.ReferenceIdeal.nD Cert.ReferenceIdeal.τ).loc Cert.ReferenceIdeal.main_arg0))) := by
  funext i
  have h := congrFun (Cert.ReferenceIdeal.RefValue.ref_of_blocks (fun d => argBlock m d) (m' (((0 : Dev Cert.ReferenceIdeal.nD).tc : Thread Cert.ReferenceIdeal.nD Cert.ReferenceIdeal.τ).loc Cert.ReferenceIdeal.main_arg0)) (by decide) (fun d => hagree d)) i
  exact (outFinal_apply m c i).trans h

/-- The same against the term the reference's run names for its result. -/
theorem outFinal_eq_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0)))
    (c : Dev Cert.KernelIdeal.nD) :
    @Eq (Cert.KernelIdeal.S512x512.Idx → EReal) (outFinal (F := Ideal) m c)
      (truncf (F := Ideal) .bf16 (Host.reduceAdd (F := Ideal) (shapeCast _ (m' (((0 : Dev Cert.ReferenceIdeal.nD).tc : Thread Cert.ReferenceIdeal.nD Cert.ReferenceIdeal.τ).loc Cert.ReferenceIdeal.main_arg0)) Cert.ReferenceIdeal.Gen.shapeCasts_S4096x512_S8x512x512)
        (constant Cert.ReferenceIdeal.S_ .f32 0x00000000#32) Cert.ReferenceIdeal.Gen.reducesTo_S8x512x512_S512x512_d0 Cert.ReferenceIdeal.Gen.h_S_) Cert.ReferenceIdeal.Gen.bitsLt_bf16_f32) :=
  (outFinal_eq_ref m m' hagree c).trans (Cert.ReferenceIdeal.Read.val_main_v2_eq _).symm

end Cert.KernelIdeal.Hand

end
-- ==== Proof.lean ====
/- The proof of `Cert.Claim`: the two kernel frames and the value claim from the mesh's run, the reference's frame from
   its own run. -/
import proofs.«900389_g7700000000000390_dist_rs_then_ag_i_m512_n512_v7x_i8_bf16_1_alg».proof.Defs
import proofs.«900389_g7700000000000390_dist_rs_then_ag_i_m512_n512_v7x_i8_bf16_1_alg».proof.Proof.Gen.Kernel
import proofs.«900389_g7700000000000390_dist_rs_then_ag_i_m512_n512_v7x_i8_bf16_1_alg».proof.Proof.Gen.Kernel.Skeleton
import proofs.«900389_g7700000000000390_dist_rs_then_ag_i_m512_n512_v7x_i8_bf16_1_alg».proof.Proof.Gen.Kernel.Launch
import proofs.«900389_g7700000000000390_dist_rs_then_ag_i_m512_n512_v7x_i8_bf16_1_alg».proof.Proof.Gen.Kernel.Points
import proofs.«900389_g7700000000000390_dist_rs_then_ag_i_m512_n512_v7x_i8_bf16_1_alg».proof.Proof.Gen.Kernel.Frame
import proofs.«900389_g7700000000000390_dist_rs_then_ag_i_m512_n512_v7x_i8_bf16_1_alg».proof.Proof.Gen.KernelIdeal
import proofs.«900389_g7700000000000390_dist_rs_then_ag_i_m512_n512_v7x_i8_bf16_1_alg».proof.Proof.Gen.KernelIdeal.Skeleton
import proofs.«900389_g7700000000000390_dist_rs_then_ag_i_m512_n512_v7x_i8_bf16_1_alg».proof.Proof.Gen.KernelIdeal.Launch
import proofs.«900389_g7700000000000390_dist_rs_then_ag_i_m512_n512_v7x_i8_bf16_1_alg».proof.Proof.Gen.KernelIdeal.Points
import proofs.«900389_g7700000000000390_dist_rs_then_ag_i_m512_n512_v7x_i8_bf16_1_alg».proof.Proof.Gen.KernelIdeal.Frame
import proofs.«900389_g7700000000000390_dist_rs_then_ag_i_m512_n512_v7x_i8_bf16_1_alg».proof.Proof.Gen.ReferenceIdeal
import proofs.«900389_g7700000000000390_dist_rs_then_ag_i_m512_n512_v7x_i8_bf16_1_alg».proof.Proof.Gen.Pre_finite_inputs_Kernel
import proofs.«900389_g7700000000000390_dist_rs_then_ag_i_m512_n512_v7x_i8_bf16_1_alg».proof.Proof.Gen.Pre_finite_inputs_ReferenceIdeal
import proofs.«900389_g7700000000000390_dist_rs_then_ag_i_m512_n512_v7x_i8_bf16_1_alg».proof.Proof.Body
import proofs.«900389_g7700000000000390_dist_rs_then_ag_i_m512_n512_v7x_i8_bf16_1_alg».proof.Proof.BodyW
import proofs.«900389_g7700000000000390_dist_rs_then_ag_i_m512_n512_v7x_i8_bf16_1_alg».proof.Proof.Claims
import proofs.«900389_g7700000000000390_dist_rs_then_ag_i_m512_n512_v7x_i8_bf16_1_alg».proof.Proof.ClaimsW
import proofs.«900389_g7700000000000390_dist_rs_then_ag_i_m512_n512_v7x_i8_bf16_1_alg».proof.Proof.ValueBridge
import proofs.«900389_g7700000000000390_dist_rs_then_ag_i_m512_n512_v7x_i8_bf16_1_alg».proof.Proof.ValueRef
import Idealize.ShloMosaic.Adequacy
import Idealize.ShloMosaic.Init

noncomputable section

namespace Cert.Proof

open Idealize.ShloMosaic Idealize.SL.Sem

/-- The five claims. The two kernel frames are the mesh's run with the result dropped, at the word-level program and at
    the idealized one; the reference's frame is its own run with the result dropped; the idealization rewrote nothing;
    and at the ideal instance the kernel's result on every device and the reference's result are the same sum of the
    eight row blocks. -/
theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => Cert.Kernel.Hand.frame_run m ρ (Cert.Kernel.Hand.body_obligation m),
  fun m ρ _ => Cert.KernelIdeal.Hand.frame_run m ρ (Cert.KernelIdeal.Hand.body_obligation m),
  Cert.ReferenceIdeal.RefValue.frame_ri,
  trivial,
  fun m ρ m' ρ' _ hagree =>
    ⟨_,
      (θ_run Cert.KernelIdeal.defs _ _).mono
        (fun _ h c => ⟨(h c).1.trans (Cert.KernelIdeal.Hand.outFinal_eq_run m m' hagree c), (h c).2⟩)
        (Cert.KernelIdeal.Hand.strong_run (F := Ideal) m ρ (Cert.KernelIdeal.Hand.body_obligation m)),
      (θ_run Cert.ReferenceIdeal.defs _ _).mono (fun _ h => ⟨(h 0).1, (h 0).2⟩)
        (Cert.ReferenceIdeal.Value.run (F := Ideal) m' ρ')⟩⟩

end Cert.Proof

end
